-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part3 {F : FTy → Type} [FloatOps F] (main_arg7 : FVec F S3x128 .f32) (main_arg12 : FVec F S128x47 .f32) (main_arg13 : FVec F S47 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x47 .f32 := Host.absf main_arg12
  let main_cst_20 : FVec F S_ .f32 := constant S_ .f32 0x7F800000#32
  let main_v55 : FVec F S128x47 .f32 := broadcastInDim S128x47 ![] bcast_S_S128x47 main_cst_20
  let main_v56 : IVec S128x47 1 := cmpf .olt main_v54 main_v55
  let main_c_21 : IVec S_ 1 := constantI S_ 1 1#1
  let main_v57 : IVec S_ 1 := (fun x v => Host.reduce IntOp.andi x v reducesTo_S128x47_S_d0_1 h_S_) main_v56 main_c_21
  let main_v58 : IVec S_ 1 := andi main_v53 main_v57
  let main_v59 : FVec F S47 .f32 := Host.absf main_arg13
  let main_cst_22 : FVec F S_ .f32 := constant S_ .f32 0x7F800000#32
  let main_v60 : FVec F S47 .f32 := broadcastInDim S47 ![] bcast_S_S47 main_cst_22
  let main_v61 : IVec S47 1 := cmpf .olt main_v59 main_v60
  let main_c_23 : IVec S_ 1 := constantI S_ 1 1#1
  let main_v62 : IVec S_ 1 := (fun x v => Host.reduce IntOp.andi x v reducesTo_S47_S_d0 h_S_) main_v61 main_c_23
  let main_v63 : IVec S_ 1 := andi main_v58 main_v62
  let main_cst_24 : FVec F S_ .f32 := constant S_ .f32 0x00000000#32
  let main_v64 : FVec F S3x128 .f32 := broadcastInDim S3x128 ![] bcast_S_S3x128 main_cst_24
  let main_v65 : IVec S3x128 1 := cmpf .oge main_arg7 main_v64
  let main_c_25 : IVec S_ 1 := constantI S_ 1 1#1
  let main_v66 : IVec S_ 1 := (fun x v => Host.reduce IntOp.andi x v reducesTo_S3x128_S_d0_1 h_S_) main_v65 main_c_25
  let main_v67 : IVec S_ 1 := andi main_v63 main_v66
  main_v67

def fn_part2 {F : FTy → Type} [FloatOps F] (main_arg7 : FVec F S3x128 .f32) (main_arg8 : FVec F S3x128x128 .f32) (main_arg9 : FVec F S3x128 .f32) (main_arg10 : FVec F S128x128 .f32) (main_arg11 : FVec F S128 .f32) (main_arg12 : FVec F S128x47 .f32) (main_arg13 : FVec F S47 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg7 main_arg12 main_arg13 main_v48 main_v49 main_v50

def fn_part1 {F : FTy → Type} [FloatOps F] (main_arg5 : FVec F S3x128 .f32) (main_arg6 : FVec F S3x128 .f32) (main_arg7 : FVec F S3x128 .f32) (main_arg8 : FVec F S3x128x128 .f32) (main_arg9 : FVec F S3x128 .f32) (main_arg10 : FVec F S128x128 .f32) (main_arg11 : FVec F S128 .f32) (main_arg12 : FVec F S128x47 .f32) (main_arg13 : FVec F S47 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128 .f32) (main_arg5 : FVec F S3x128 .f32) (main_arg6 : FVec F S3x128 .f32) (main_arg7 : FVec F S3x128 .f32) (main_arg8 : FVec F S3x128x128 .f32) (main_arg9 : FVec F S3x128 .f32) (main_arg10 : FVec F S128x128 .f32) (main_arg11 : FVec F S128 .f32) (main_arg12 : FVec F S128x47 .f32) (main_arg13 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S5000x128 : Shape := ⟨2, ![5000, 128]⟩
abbrev S1x47 : Shape := ⟨2, ![1, 47]⟩
abbrev S50000x47 : Shape := ⟨2, ![50000, 47]⟩
abbrev S5000x47 : Shape := ⟨2, ![5000, 47]⟩
abbrev S5000 : Shape := ⟨1, ![5000]⟩
abbrev S5000x1 : Shape := ⟨2, ![5000, 1]⟩

abbrev nBuf : Space → Nat
  | .hbm => 155
  | .vmem => 34
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S3x128x128, .f32⟩
  | 9 => ⟨S3x128, .f32⟩
  | 10 => ⟨S128x128, .f32⟩
  | 11 => ⟨S128, .f32⟩
  | 12 => ⟨S128x47, .f32⟩
  | 13 => ⟨S47, .f32⟩
  | 14 => ⟨S1x800000, .i32⟩
  | 15 => ⟨S800000, .i32⟩
  | 16 => ⟨S1x800000, .i32⟩
  | 17 => ⟨S800000, .i32⟩
  | 18 => ⟨S50000x128, .bf16⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .bf16⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S_, .f32⟩
  | 46 => ⟨S128, .f32⟩
  | 47 => ⟨S128, .f32⟩
  | 48 => ⟨S128, .f32⟩
  | 49 => ⟨S128, .f32⟩
  | 50 => ⟨S1x128, .f32⟩
  | 51 => ⟨S128x128, .f32⟩
  | 52 => ⟨S128x128, .f32⟩
  | 53 => ⟨S128, .f32⟩
  | 54 => ⟨S128, .f32⟩
  | 55 => ⟨S128, .f32⟩
  | 56 => ⟨S1x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S50000x128, .f32⟩
  | 63 => ⟨S50000x128, .bf16⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .bf16⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S_, .f32⟩
  | 91 => ⟨S128, .f32⟩
  | 92 => ⟨S128, .f32⟩
  | 93 => ⟨S128, .f32⟩
  | 94 => ⟨S128, .f32⟩
  | 95 => ⟨S1x128, .f32⟩
  | 96 => ⟨S128x128, .f32⟩
  | 97 => ⟨S128x128, .f32⟩
  | 98 => ⟨S128, .f32⟩
  | 99 => ⟨S128, .f32⟩
  | 100 => ⟨S128, .f32⟩
  | 101 => ⟨S1x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S50000x128, .f32⟩
  | 108 => ⟨S50000x128, .bf16⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .bf16⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S_, .f32⟩
  | 8 => ⟨S128, .f32⟩
  | 9 => ⟨S128, .f32⟩
  | 10 => ⟨S128, .f32⟩
  | 11 => ⟨S128, .f32⟩
  | 12 => ⟨S1x128, .f32⟩
  | 13 => ⟨S128x128, .f32⟩
  | 14 => ⟨S128x128, .f32⟩
  | 15 => ⟨S128, .f32⟩
  | 16 => ⟨S128, .f32⟩
  | 17 => ⟨S128, .f32⟩
  | 18 => ⟨S1x128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S1x128, .f32⟩
  | 25 => ⟨S1x47, .f32⟩
  | 26 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x47, .f32⟩
  | .local _ .vmem, ⟨31, _⟩ => ⟨S1x47, .f32⟩
  | .local _ .vmem, ⟨32, _⟩ => ⟨S5000x47, .f32⟩
  | .local _ .vmem, ⟨33, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_2 : Ref sig .tc := ⟨.hbm, 64, rfl⟩
abbrev main_v46 : Ref sig .tc := ⟨.hbm, 65, rfl⟩
abbrev main_v47 : Ref sig .tc := ⟨.hbm, 66, rfl⟩
abbrev main_c_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_5 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_6 : Ref sig .tc := ⟨.hbm, 109, rfl⟩
abbrev main_v87 : Ref sig .tc := ⟨.hbm, 110, rfl⟩
abbrev main_v88 : Ref sig .tc := ⟨.hbm, 111, rfl⟩
abbrev main_c_7 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_8 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_9 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x47 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x47 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x47 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  inb_S5000x47_S5000x47_0_0 : ∀ a, (![0, 0] : Fin 2 → Nat) a + S5000x47.size a ≤ S5000x47.size a
  h_S5000x47 : 0 < S5000x47.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x47.size a ≤ S128x47.size a
  hwx2_8 : ∀ i : grid2.Coords, EltTy.bits .f32 = 32 ∨ (Rect.block (s := S128x47) S128x47.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x47.size a ≤ S1x47.size a
  hwx2_9 : ∀ i : grid2.Coords, EltTy.bits .f32 = 32 ∨ (Rect.block (s := S1x47) S1x47.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x47.size a ≤ S50000x47.size a
  hwx2_10 : ∀ i : grid2.Coords, EltTy.bits .f32 = 32 ∨ (Rect.block (s := S50000x47) S5000x47.size (cc2_transform_10 i) (hinb2_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v81) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v84) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v85) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v97) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v116) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v120) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v122) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v125) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v126) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S128x47.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v127) S1x47.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v128) S5000x47.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S50000x47 : Shape := ⟨2, ![50000, 47]⟩
abbrev S1x47 : Shape := ⟨2, ![1, 47]⟩
abbrev S50000 : Shape := ⟨1, ![50000]⟩
abbrev S50000x1 : Shape := ⟨2, ![50000, 1]⟩

abbrev nBuf : Space → Nat
  | .hbm => 224
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S3x128x128, .f32⟩
  | 9 => ⟨S3x128, .f32⟩
  | 10 => ⟨S128x128, .f32⟩
  | 11 => ⟨S128, .f32⟩
  | 12 => ⟨S128x47, .f32⟩
  | 13 => ⟨S47, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S1x128x128, .f32⟩
  | 68 => ⟨S128x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S128, .f32⟩
  | 39 => ⟨S_, .f32⟩
  | 40 => ⟨S128, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x128x128, .f32⟩
  | 60 => ⟨S128x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x47, .f32⟩
  | 78 => ⟨S1x47, .f32⟩
  | 79 => ⟨S50000x47, .f32⟩
  | 80 => ⟨S50000x47, .f32⟩
  | 81 => ⟨S_, .f32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x47, .f32⟩
  | 88 => ⟨S50000x47, .f32⟩
  | 89 => ⟨S50000x47, .f32⟩
  | 90 => ⟨S_, .f32⟩
  | 91 => ⟨S50000, .f32⟩
  | 92 => ⟨S50000x1, .f32⟩
  | 93 => ⟨S50000x1, .f32⟩
  | 94 => ⟨S50000x47, .f32⟩
  | 95 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call1_cst : Ref sig .tc := ⟨.hbm, 75, rfl⟩
abbrev main_call1_v0 : Ref sig .tc := ⟨.hbm, 76, rfl⟩
abbrev main_v55 : Ref sig .tc := ⟨.hbm, 77, rfl⟩
abbrev main_c_2 : Ref sig .tc := ⟨.hbm, 78, rfl⟩
abbrev main_v56 : Ref sig .tc := ⟨.hbm, 79, rfl⟩
abbrev main_v57 : Ref sig .tc := ⟨.hbm, 80, rfl⟩
abbrev main_c_3 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_4 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_5 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_call2_cst : Ref sig .tc := ⟨.hbm, 124, rfl⟩
abbrev main_call2_v0 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_call3_cst : Ref sig .tc := ⟨.hbm, 135, rfl⟩
abbrev main_call3_v0 : Ref sig .tc := ⟨.hbm, 136, rfl⟩
abbrev main_v107 : Ref sig .tc := ⟨.hbm, 137, rfl⟩
abbrev main_c_6 : Ref sig .tc := ⟨.hbm, 138, rfl⟩
abbrev main_v108 : Ref sig .tc := ⟨.hbm, 139, rfl⟩
abbrev main_v109 : Ref sig .tc := ⟨.hbm, 140, rfl⟩
abbrev main_c_7 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_8 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_9 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_call4_cst : Ref sig .tc := ⟨.hbm, 184, rfl⟩
abbrev main_call4_v0 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_call5_cst : Ref sig .tc := ⟨.hbm, 195, rfl⟩
abbrev main_call5_v0 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_call6_cst : Ref sig .tc := ⟨.hbm, 202, rfl⟩
abbrev main_call6_v0 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_call7_cst : Ref sig .tc := ⟨.hbm, 209, rfl⟩
abbrev main_call7_v0 : Ref sig .tc := ⟨.hbm, 210, rfl⟩
abbrev main_call7_cst_0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_call7_v5 : Ref sig .tc := ⟨.hbm, 216, rfl⟩
abbrev main_call7_v6 : Ref sig .tc := ⟨.hbm, 217, rfl⟩
abbrev main_call7_cst_1 : Ref sig .tc := ⟨.hbm, 218, rfl⟩
abbrev main_call7_v7 : Ref sig .tc := ⟨.hbm, 219, rfl⟩
abbrev main_call7_v8 : Ref sig .tc := ⟨.hbm, 220, rfl⟩
abbrev main_call7_v9 : Ref sig .tc := ⟨.hbm, 221, rfl⟩
abbrev main_call7_v10 : Ref sig .tc := ⟨.hbm, 222, rfl⟩
abbrev main_v169 : Ref sig .tc := ⟨.hbm, 223, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x47_0_1 : S50000x1.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KRun.lean ====
/-
  The kernel program's run with its result named: every weakly fair execution of the three regions and the host
  operations between them terminates, nothing faults, the argument arrays end as launched, and the result buffer
  ends holding what the last region's write-backs leave — the last boundary's contents in the fold of buffer
  contents through the program (launch, after each stretch of host operations, after each region).
-/
import proofs.«125315_j5282809775005_2_alg».proof.Proof.Gen.KernelIdeal.Frame

set_option maxRecDepth 16384

noncomputable section

namespace Cert.GinKernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's six segments; the last thread state holds every unscoped buffer at the last
    boundary's contents, which is read against the final memory: the result buffer at those contents, each argument
    walked back through the fold to its launch contents. -/
theorem run_value : θ_run defs (onTc (τ := τ) (main (F := F))) ⟨m, fun _ => 0, ρ⟩ (fun r => ∀ c : Dev nD,
      r.2.mem ((c.tc : Thread nD τ).loc main_v128) = W6 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v128 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.GinKernelRun

end
-- ==== Proof.GinSpec.lean ====
/-
  The mathematics of one graph-isomorphism layer, row by row, on the extended reals.

  A node's row `y` (its own features plus the sum of its neighbours') goes through an affine map, a batch
  normalisation with running statistics, a rectifier, a second affine map and a rectifier. One program applies the
  normalisation after the first affine map; the other folds the normalisation's scale `γ · r` (with
  `r = 1/√(σ² + ε)`) into the first map's weights and bias beforehand. The two agree when every number involved is a
  real: distributing `γ · r` over the row's sum is a law of the reals and fails at the infinities.
  The classifier's head ends in a log-softmax over a row of 47 logits, written here once.
-/
import Idealize.ShloMosaic.PureOps.Ideal
import Idealize.ShloMosaic.PureOps.Ideal.Laws
import Idealize.ShloMosaic.Lib.ValueIdx

noncomputable section

namespace Cert.GinSpec

open Idealize.ShloMosaic

/-! ## Real entries -/

/-- An extended real that is a real. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One layer on a row -/

/-- `v ↦ v · W + b`. -/
def affine {n k : Nat} (v : Fin n → EReal) (W : Fin n → Fin k → EReal) (b : Fin k → EReal) : Fin k → EReal :=
  fun j => (∑ i : Fin n, v i * W i j) + b j

/-- The rectifier, entry by entry. -/
def relu {n : Nat} (v : Fin n → EReal) : Fin n → EReal := fun j => max (v j) 0

/-- The first affine map followed by the normalisation `((· − μ) · r) · γ + β`, as the reference applies it. -/
def normed {n k : Nat} (y : Fin n → EReal) (W : Fin n → Fin k → EReal) (b μ r γ β : Fin k → EReal) : Fin k → EReal :=
  fun j => ((((∑ i : Fin n, y i * W i j) + b j) - μ j) * r j) * γ j + β j

/-- The weights with the normalisation's scale folded into each column. -/
def foldW {n k : Nat} (W : Fin n → Fin k → EReal) (γ r : Fin k → EReal) : Fin n → Fin k → EReal :=
  fun i j => W i j * (γ j * r j)

/-- The bias with the normalisation folded in. -/
def foldB {k : Nat} (b μ γ r β : Fin k → EReal) : Fin k → EReal :=
  fun j => (b j - μ j) * (γ j * r j) + β j

/-- FOLDING THE NORMALISATION INTO THE AFFINE MAP, on reals: `y · (W γ r) + ((b − μ) γ r + β) = ((y · W + b − μ) r) γ + β`. -/
theorem affine_fold {n k : Nat} (y : Fin n → EReal) (W : Fin n → Fin k → EReal) (b μ r γ β : Fin k → EReal)
    (hy : ∀ i, IsReal (y i)) (hW : ∀ i j, IsReal (W i j)) (hb : ∀ j, IsReal (b j)) (hμ : ∀ j, IsReal (μ j))
    (hr : ∀ j, IsReal (r j)) (hγ : ∀ j, IsReal (γ j)) (hβ : ∀ j, IsReal (β j)) :
    affine y (foldW W γ r) (foldB b μ γ r β) = normed y W b μ r γ β := by
  choose y' hy' using hy
  choose W' hW' using hW
  choose b' hb' using hb
  choose μ' hμ' using hμ
  choose r' hr' using hr
  choose γ' hγ' using hγ
  choose β' hβ' using hβ
  funext j
  simp only [affine, normed, foldW, foldB, hy', hW', hb', hμ', hr', hγ', hβ']
  simp only [← EReal.coe_mul, ← EReal.coe_sub, ← coe_sum, ← EReal.coe_add]
  congr 1
  rw [Finset.sum_congr rfl (fun i _ => (mul_assoc (y' i) (W' i j) (γ' j * r' j)).symm), ← Finset.sum_mul]
  ring

theorem affine_isReal {n k : Nat} (v : Fin n → EReal) (W : Fin n → Fin k → EReal) (b : Fin k → EReal)
    (hv : ∀ i, IsReal (v i)) (hW : ∀ i j, IsReal (W i j)) (hb : ∀ j, IsReal (b j)) (j : Fin k) : IsReal (affine v W b j) :=
  (IsReal.sum _ _ fun i _ => (hv i).mul (hW i j)).add (hb j)

theorem relu_isReal {n : Nat} (v : Fin n → EReal) (hv : ∀ i, IsReal (v i)) (j : Fin n) : IsReal (relu v j) :=
  (hv j).max IsReal.zero

/-- The layer as the kernel computes it: folded first map, rectifier, second map, rectifier. -/
def layerRow (y : Fin 128 → EReal) (W1p : Fin 128 → Fin 128 → EReal) (b1p : Fin 128 → EReal)
    (W2 : Fin 128 → Fin 128 → EReal) (b2 : Fin 128 → EReal) : Fin 128 → EReal :=
  relu (affine (relu (affine y W1p b1p)) W2 b2)

/-- The layer as the reference computes it. -/
def layerRowRef (y : Fin 128 → EReal) (W1 : Fin 128 → Fin 128 → EReal) (b1 μ r γ β : Fin 128 → EReal)
    (W2 : Fin 128 → Fin 128 → EReal) (b2 : Fin 128 → EReal) : Fin 128 → EReal :=
  relu (affine (relu (normed y W1 b1 μ r γ β)) W2 b2)

theorem layerRow_fold (y : Fin 128 → EReal) (W1 : Fin 128 → Fin 128 → EReal) (b1 μ r γ β : Fin 128 → EReal)
    (W2 : Fin 128 → Fin 128 → EReal) (b2 : Fin 128 → EReal)
    (hy : ∀ i, IsReal (y i)) (hW : ∀ i j, IsReal (W1 i j)) (hb : ∀ j, IsReal (b1 j)) (hμ : ∀ j, IsReal (μ j))
    (hr : ∀ j, IsReal (r j)) (hγ : ∀ j, IsReal (γ j)) (hβ : ∀ j, IsReal (β j)) :
    layerRow y (foldW W1 γ r) (foldB b1 μ γ r β) W2 b2 = layerRowRef y W1 b1 μ r γ β W2 b2 := by
  unfold layerRow layerRowRef
  rw [affine_fold y W1 b1 μ r γ β hy hW hb hμ hr hγ hβ]

theorem layerRow_isReal (y : Fin 128 → EReal) (W1p : Fin 128 → Fin 128 → EReal) (b1p : Fin 128 → EReal)
    (W2 : Fin 128 → Fin 128 → EReal) (b2 : Fin 128 → EReal)
    (hy : ∀ i, IsReal (y i)) (hW1 : ∀ i j, IsReal (W1p i j)) (hb1 : ∀ j, IsReal (b1p j))
    (hW2 : ∀ i j, IsReal (W2 i j)) (hb2 : ∀ j, IsReal (b2 j)) (j : Fin 128) : IsReal (layerRow y W1p b1p W2 b2 j) :=
  relu_isReal _ (fun k => affine_isReal _ _ _ (fun i => relu_isReal _ (fun i' => affine_isReal _ _ _ hy hW1 hb1 i') i) hW2 hb2 k) j

/-! ## The reciprocal square root of a positive real is a real -/

theorem rsqrt_isReal {x : EReal} (hx : IsReal x) (hpos : 0 < x) : IsReal (Ideal.rsqrt x) := by
  obtain ⟨a, rfl⟩ := hx
  have ha : 0 < a := by exact_mod_cast hpos
  rw [Ideal.rsqrt_coe, if_neg (not_lt.mpr ha.le), if_neg ha.ne']
  exact ⟨_, rfl⟩

/-! ## The stacked parameters, one layer at a time -/

open Idealize.ShloMosaic.ValueIdx in
/-- Layer `l`'s matrix out of three stacked ones. -/
def mat (l : Fin 3) (x : (⟨3, ![3, 128, 128]⟩ : Shape).Idx → EReal) : Fin 128 → Fin 128 → EReal := fun k j => x (ix3 l k j)

open Idealize.ShloMosaic.ValueIdx in
/-- Layer `l`'s vector out of three stacked ones. -/
def vec (l : Fin 3) (x : (⟨2, ![3, 128]⟩ : Shape).Idx → EReal) : Fin 128 → EReal := fun j => x (ix2 l j)

/-- The normalisation's `ε`, the binary value of the single-precision literal `1e-5`. -/
def epsBN : EReal := Ideal.ofBits .f32 0x3727C5AC#32

open Idealize.ShloMosaic.ValueIdx in
/-- Layer `l`'s `r = 1/√(σ² + ε)`. -/
def rs (l : Fin 3) (var : (⟨2, ![3, 128]⟩ : Shape).Idx → EReal) : Fin 128 → EReal := fun j => Ideal.rsqrt (var (ix2 l j) + epsBN)

/-! ## The head's last step: log-softmax of a row of 47 logits -/

/-- The row's maximum, folded from `-∞`. -/
def rowMax (l : Fin 47 → EReal) : EReal := (Finset.univ : Finset (Fin 47)).fold max (Ideal.ofBits .f32 0xFF800000#32) l

/-- `(l − max l) − log Σ exp (l − max l)`. -/
def logSoftmaxRow (l : Fin 47 → EReal) : Fin 47 → EReal :=
  fun q => (l q - rowMax l) - Ideal.log (∑ c : Fin 47, Ideal.exp (l c - rowMax l))

/-- The head on a row: a rectified affine map to 128 features, an affine map to 47 logits, log-softmax. -/
def headRow (h : Fin 128 → EReal) (lw1 : Fin 128 → Fin 128 → EReal) (lb1 : Fin 128 → EReal)
    (lw2 : Fin 128 → Fin 47 → EReal) (lb2 : Fin 47 → EReal) : Fin 47 → EReal :=
  logSoftmaxRow (affine (relu (affine h lw1 lb1)) lw2 lb2)

end Cert.GinSpec

end
-- ==== Proof.KParams.lean ====
/-
  The parameters each kernel call is given, as the program prepares them on the host, read at an entry.

  Before a layer's call the program cuts the layer's matrices and vectors out of the stacks of three, folds the
  normalisation's scale `γ · 1/√(σ² + ε)` into the first weights' columns and into the first bias, and writes each bias
  as one row. At an entry these are GinSpec's `foldW`, `foldB`, `mat` and `vec` of the stacks: a slice reads the stack at
  the layer's index, a reshape that drops or adds a unit axis reads the same entry, a vector repeated over rows reads
  the vector.
-/
import proofs.«125315_j5282809775005_2_alg».proof.Proof.Gen.KernelIdeal
import proofs.«125315_j5282809775005_2_alg».proof.Proof.GinSpec
import Idealize.ShloMosaic.Lib.ValueIdx
import Idealize.ShloMosaic.Lib.Pipeline.Value
import Idealize.ShloMosaic.Lib.ValueLayout
import Idealize.ShloMosaic.PureOps.Ideal.Laws

noncomputable section

namespace Cert.GinKernelParams

open Cert.KernelIdeal Cert.KernelIdeal.Facts₀ Cert.GinSpec Idealize.ShloMosaic Idealize.ShloMosaic.ValueIdx

/-! ## One layer's slice of a stack of three -/

/-- Row `l` of three stacked vectors, the unit axis dropped: at `j`, the stack at `(l, j)`. -/
theorem row_apply (off : Fin 2 → Nat) (l : Fin 3) (h0 : off 0 = l.val) (h1 : off 1 = 0) (a : FVec Ideal S3x128 .f32)
    (hs : S3x128.Slices off S1x128) (hc : S1x128.ShapeCasts S128) (j : Fin 128) :
    shapeCast S128 (extractStridedSlice S1x128 off a hs) hc (ix1 j) = a (ix2 l j) := by
  refine (shapeCast_1a_a_apply _ hc j).trans ?_
  exact extractStridedSlice_apply off a hs (ix2 (0 : Fin 1) j) (ix2 l j) (fun ax => match ax with
    | ⟨0, _⟩ => by show l.val = off 0 + 0; omega
    | ⟨1, _⟩ => by show j.val = off 1 + j.val; omega)

/-- Matrix `l` of three stacked matrices, the unit axis dropped: at `(k, j)`, the stack at `(l, k, j)`. -/
theorem mat_apply (off : Fin 3 → Nat) (l : Fin 3) (h0 : off 0 = l.val) (h1 : off 1 = 0) (h2 : off 2 = 0)
    (a : FVec Ideal S3x128x128 .f32) (hs : S3x128x128.Slices off S1x128x128) (hc : S1x128x128.ShapeCasts S128x128)
    (k j : Fin 128) :
    shapeCast S128x128 (extractStridedSlice S1x128x128 off a hs) hc (ix2 k j) = a (ix3 l k j) := by
  refine (shapeCast_1ab_ab_apply _ hc k j).trans ?_
  exact extractStridedSlice_apply off a hs (ix3 (0 : Fin 1) k j) (ix3 l k j) (fun ax => match ax with
    | ⟨0, _⟩ => by show l.val = off 0 + 0; omega
    | ⟨1, _⟩ => by show k.val = off 1 + k.val; omega
    | ⟨2, _⟩ => by show j.val = off 2 + j.val; omega)

/-- A vector given a leading unit axis: at `(0, j)`, the vector at `j`. -/
theorem asRow_apply {n : Nat} (v : FVec Ideal ⟨1, ![n]⟩ .f32) (hc : (⟨1, ![n]⟩ : Shape).ShapeCasts ⟨2, ![1, n]⟩) (j : Fin n) :
    shapeCast ⟨2, ![1, n]⟩ v hc (ix2 (0 : Fin 1) j) = v (ix1 j) :=
  shapeCast_a_1a_apply v hc 0 j

/-- The normalisation's scale `γ · 1/√(σ² + ε)` of layer `l`, at `j`. -/
theorem scale_apply (off : Fin 2 → Nat) (l : Fin 3) (h0 : off 0 = l.val) (h1 : off 1 = 0) (a4 a7 : FVec Ideal S3x128 .f32)
    (hs : S3x128.Slices off S1x128) (hc : S1x128.ShapeCasts S128) (hb : S_.BroadcastsInDim S128 (![] : Fin 0 → Fin S128.rank))
    (j : Fin 128) :
    mulf (shapeCast S128 (extractStridedSlice S1x128 off a4 hs) hc)
        (Host.rsqrt (addf (shapeCast S128 (extractStridedSlice S1x128 off a7 hs) hc)
          (broadcastInDim S128 ![] hb (constant (F := Ideal) S_ .f32 0x3727C5AC#32)))) (ix1 j)
      = vec l a4 j * rs l a7 j := by
  rw [mulf_apply, row_apply off l h0 h1 a4 hs hc j]
  show a4 (ix2 l j) * Ideal.rsqrt (shapeCast S128 (extractStridedSlice S1x128 off a7 hs) hc (ix1 j) + Ideal.ofBits .f32 0x3727C5AC#32) = _
  rw [row_apply off l h0 h1 a7 hs hc j]
  rfl

/-- A vector repeated down the rows of a square matrix, through a unit axis: at `(k, j)`, the vector at `j`. -/
theorem overRows_apply (v : FVec Ideal S128 .f32) (h1 : S128.BroadcastsInDim S1x128 (![1] : Fin 1 → Fin S1x128.rank))
    (h2 : S1x128.BroadcastsInDim S128x128 (![0, 1] : Fin 2 → Fin S128x128.rank)) (k j : Fin 128) :
    broadcastInDim S128x128 ![0, 1] h2 (broadcastInDim S1x128 ![1] h1 v) (ix2 k j) = v (ix1 j) := by
  refine (broadcastInDim_apply _ h2 _ (ix2 k j) (ix2 (0 : Fin 1) j) (fun ax => match ax with
    | ⟨0, _⟩ => by show 0 = if (1 : Nat) = 1 then 0 else k.val; rw [if_pos rfl]
    | ⟨1, _⟩ => by show j.val = if (128 : Nat) = 1 then 0 else j.val; rw [if_neg (by decide)])).trans ?_
  exact broadcastInDim_apply _ h1 v (ix2 (0 : Fin 1) j) (ix1 j) (fun ax => match ax with
    | ⟨0, _⟩ => by show j.val = if (128 : Nat) = 1 then 0 else j.val; rw [if_neg (by decide)])

/-! ## Layer 0's parameters as the program prepares them -/

/-- Layer 0's first weights with the normalisation's scale folded into each column. -/
def w1pK0 (a2 : FVec Ideal S3x128x128 .f32) (a4 a7 : FVec Ideal S3x128 .f32) : FVec Ideal S128x128 .f32 :=
  mulf (shapeCast S128x128 (extractStridedSlice S1x128x128 ![0, 0, 0] a2 slices_S3x128x128_S1x128x128_0_0_0) shapeCasts_S1x128x128_S128x128)
    (broadcastInDim S128x128 ![0, 1] bcast_S1x128_S128x128_0_1
      (broadcastInDim S1x128 ![1] bcast_S128_S1x128_1
        (mulf (shapeCast S128 (extractStridedSlice S1x128 ![0, 0] a4 slices_S3x128_S1x128_0_0) shapeCasts_S1x128_S128)
          (Host.rsqrt (addf (shapeCast S128 (extractStridedSlice S1x128 ![0, 0] a7 slices_S3x128_S1x128_0_0) shapeCasts_S1x128_S128)
            (broadcastInDim S128 ![] bcast_S_S128 (constant (F := Ideal) S_ .f32 0x3727C5AC#32)))))))

theorem w1pK0_apply (a2 : FVec Ideal S3x128x128 .f32) (a4 a7 : FVec Ideal S3x128 .f32) (k j : Fin 128) :
    w1pK0 a2 a4 a7 (ix2 k j) = foldW (mat 0 a2) (vec 0 a4) (rs 0 a7) k j := by
  unfold w1pK0
  rw [mulf_apply, mat_apply ![0, 0, 0] 0 rfl rfl rfl, overRows_apply, scale_apply ![0, 0] 0 rfl rfl]
  rfl

/-- Layer 0's first bias with the normalisation folded in, as one row. -/
def b1pK0 (a3 a4 a5 a6 a7 : FVec Ideal S3x128 .f32) : FVec Ideal S1x128 .f32 :=
  shapeCast S1x128
    (addf
      (mulf
        (subf (shapeCast S128 (extractStridedSlice S1x128 ![0, 0] a3 slices_S3x128_S1x128_0_0) shapeCasts_S1x128_S128)
          (shapeCast S128 (extractStridedSlice S1x128 ![0, 0] a6 slices_S3x128_S1x128_0_0) shapeCasts_S1x128_S128))
        (mulf (shapeCast S128 (extractStridedSlice S1x128 ![0, 0] a4 slices_S3x128_S1x128_0_0) shapeCasts_S1x128_S128)
          (Host.rsqrt (addf (shapeCast S128 (extractStridedSlice S1x128 ![0, 0] a7 slices_S3x128_S1x128_0_0) shapeCasts_S1x128_S128)
            (broadcastInDim S128 ![] bcast_S_S128 (constant (F := Ideal) S_ .f32 0x3727C5AC#32))))))
      (shapeCast S128 (extractStridedSlice S1x128 ![0, 0] a5 slices_S3x128_S1x128_0_0) shapeCasts_S1x128_S128))
    shapeCasts_S128_S1x128

theorem b1pK0_apply (a3 a4 a5 a6 a7 : FVec Ideal S3x128 .f32) (j : Fin 128) :
    b1pK0 a3 a4 a5 a6 a7 (ix2 0 j) = foldB (vec 0 a3) (vec 0 a6) (vec 0 a4) (rs 0 a7) (vec 0 a5) j := by
  unfold b1pK0
  rw [asRow_apply, addf_apply, mulf_apply, subf_apply, scale_apply ![0, 0] 0 rfl rfl,
    row_apply ![0, 0] 0 rfl rfl a3, row_apply ![0, 0] 0 rfl rfl a6, row_apply ![0, 0] 0 rfl rfl a5]
  rfl

/-- Layer 0's second weights. -/
def w2K0 (a8 : FVec Ideal S3x128x128 .f32) : FVec Ideal S128x128 .f32 :=
  shapeCast S128x128 (extractStridedSlice S1x128x128 ![0, 0, 0] a8 slices_S3x128x128_S1x128x128_0_0_0) shapeCasts_S1x128x128_S128x128

theorem w2K0_apply (a8 : FVec Ideal S3x128x128 .f32) (k j : Fin 128) : w2K0 a8 (ix2 k j) = mat 0 a8 k j :=
  mat_apply ![0, 0, 0] 0 rfl rfl rfl a8 _ _ k j

/-- Layer 0's second bias, as one row. -/
def b2K0 (a9 : FVec Ideal S3x128 .f32) : FVec Ideal S1x128 .f32 :=
  shapeCast S1x128 (shapeCast S128 (extractStridedSlice S1x128 ![0, 0] a9 slices_S3x128_S1x128_0_0) shapeCasts_S1x128_S128)
    shapeCasts_S128_S1x128

theorem b2K0_apply (a9 : FVec Ideal S3x128 .f32) (j : Fin 128) : b2K0 a9 (ix2 0 j) = vec 0 a9 j :=
  (asRow_apply _ _ j).trans (row_apply ![0, 0] 0 rfl rfl a9 _ _ j)

/-! ## Layer 1's parameters as the program prepares them -/

/-- Layer 1's first weights with the normalisation's scale folded into each column. -/
def w1pK1 (a2 : FVec Ideal S3x128x128 .f32) (a4 a7 : FVec Ideal S3x128 .f32) : FVec Ideal S128x128 .f32 :=
  mulf (shapeCast S128x128 (extractStridedSlice S1x128x128 ![1, 0, 0] a2 slices_S3x128x128_S1x128x128_1_0_0) shapeCasts_S1x128x128_S128x128)
    (broadcastInDim S128x128 ![0, 1] bcast_S1x128_S128x128_0_1
      (broadcastInDim S1x128 ![1] bcast_S128_S1x128_1
        (mulf (shapeCast S128 (extractStridedSlice S1x128 ![1, 0] a4 slices_S3x128_S1x128_1_0) shapeCasts_S1x128_S128)
          (Host.rsqrt (addf (shapeCast S128 (extractStridedSlice S1x128 ![1, 0] a7 slices_S3x128_S1x128_1_0) shapeCasts_S1x128_S128)
            (broadcastInDim S128 ![] bcast_S_S128 (constant (F := Ideal) S_ .f32 0x3727C5AC#32)))))))

theorem w1pK1_apply (a2 : FVec Ideal S3x128x128 .f32) (a4 a7 : FVec Ideal S3x128 .f32) (k j : Fin 128) :
    w1pK1 a2 a4 a7 (ix2 k j) = foldW (mat 1 a2) (vec 1 a4) (rs 1 a7) k j := by
  unfold w1pK1
  rw [mulf_apply, mat_apply ![1, 0, 0] 1 rfl rfl rfl, overRows_apply, scale_apply ![1, 0] 1 rfl rfl]
  rfl

/-- Layer 1's first bias with the normalisation folded in, as one row. -/
def b1pK1 (a3 a4 a5 a6 a7 : FVec Ideal S3x128 .f32) : FVec Ideal S1x128 .f32 :=
  shapeCast S1x128
    (addf
      (mulf
        (subf (shapeCast S128 (extractStridedSlice S1x128 ![1, 0] a3 slices_S3x128_S1x128_1_0) shapeCasts_S1x128_S128)
          (shapeCast S128 (extractStridedSlice S1x128 ![1, 0] a6 slices_S3x128_S1x128_1_0) shapeCasts_S1x128_S128))
        (mulf (shapeCast S128 (extractStridedSlice S1x128 ![1, 0] a4 slices_S3x128_S1x128_1_0) shapeCasts_S1x128_S128)
          (Host.rsqrt (addf (shapeCast S128 (extractStridedSlice S1x128 ![1, 0] a7 slices_S3x128_S1x128_1_0) shapeCasts_S1x128_S128)
            (broadcastInDim S128 ![] bcast_S_S128 (constant (F := Ideal) S_ .f32 0x3727C5AC#32))))))
      (shapeCast S128 (extractStridedSlice S1x128 ![1, 0] a5 slices_S3x128_S1x128_1_0) shapeCasts_S1x128_S128))
    shapeCasts_S128_S1x128

theorem b1pK1_apply (a3 a4 a5 a6 a7 : FVec Ideal S3x128 .f32) (j : Fin 128) :
    b1pK1 a3 a4 a5 a6 a7 (ix2 0 j) = foldB (vec 1 a3) (vec 1 a6) (vec 1 a4) (rs 1 a7) (vec 1 a5) j := by
  unfold b1pK1
  rw [asRow_apply, addf_apply, mulf_apply, subf_apply, scale_apply ![1, 0] 1 rfl rfl,
    row_apply ![1, 0] 1 rfl rfl a3, row_apply ![1, 0] 1 rfl rfl a6, row_apply ![1, 0] 1 rfl rfl a5]
  rfl

/-- Layer 1's second weights. -/
def w2K1 (a8 : FVec Ideal S3x128x128 .f32) : FVec Ideal S128x128 .f32 :=
  shapeCast S128x128 (extractStridedSlice S1x128x128 ![1, 0, 0] a8 slices_S3x128x128_S1x128x128_1_0_0) shapeCasts_S1x128x128_S128x128

theorem w2K1_apply (a8 : FVec Ideal S3x128x128 .f32) (k j : Fin 128) : w2K1 a8 (ix2 k j) = mat 1 a8 k j :=
  mat_apply ![1, 0, 0] 1 rfl rfl rfl a8 _ _ k j

/-- Layer 1's second bias, as one row. -/
def b2K1 (a9 : FVec Ideal S3x128 .f32) : FVec Ideal S1x128 .f32 :=
  shapeCast S1x128 (shapeCast S128 (extractStridedSlice S1x128 ![1, 0] a9 slices_S3x128_S1x128_1_0) shapeCasts_S1x128_S128)
    shapeCasts_S128_S1x128

theorem b2K1_apply (a9 : FVec Ideal S3x128 .f32) (j : Fin 128) : b2K1 a9 (ix2 0 j) = vec 1 a9 j :=
  (asRow_apply _ _ j).trans (row_apply ![1, 0] 1 rfl rfl a9 _ _ j)

/-! ## Layer 2's parameters as the program prepares them -/

/-- Layer 2's first weights with the normalisation's scale folded into each column. -/
def w1pK2 (a2 : FVec Ideal S3x128x128 .f32) (a4 a7 : FVec Ideal S3x128 .f32) : FVec Ideal S128x128 .f32 :=
  mulf (shapeCast S128x128 (extractStridedSlice S1x128x128 ![2, 0, 0] a2 slices_S3x128x128_S1x128x128_2_0_0) shapeCasts_S1x128x128_S128x128)
    (broadcastInDim S128x128 ![0, 1] bcast_S1x128_S128x128_0_1
      (broadcastInDim S1x128 ![1] bcast_S128_S1x128_1
        (mulf (shapeCast S128 (extractStridedSlice S1x128 ![2, 0] a4 slices_S3x128_S1x128_2_0) shapeCasts_S1x128_S128)
          (Host.rsqrt (addf (shapeCast S128 (extractStridedSlice S1x128 ![2, 0] a7 slices_S3x128_S1x128_2_0) shapeCasts_S1x128_S128)
            (broadcastInDim S128 ![] bcast_S_S128 (constant (F := Ideal) S_ .f32 0x3727C5AC#32)))))))

theorem w1pK2_apply (a2 : FVec Ideal S3x128x128 .f32) (a4 a7 : FVec Ideal S3x128 .f32) (k j : Fin 128) :
    w1pK2 a2 a4 a7 (ix2 k j) = foldW (mat 2 a2) (vec 2 a4) (rs 2 a7) k j := by
  unfold w1pK2
  rw [mulf_apply, mat_apply ![2, 0, 0] 2 rfl rfl rfl, overRows_apply, scale_apply ![2, 0] 2 rfl rfl]
  rfl

/-- Layer 2's first bias with the normalisation folded in, as one row. -/
def b1pK2 (a3 a4 a5 a6 a7 : FVec Ideal S3x128 .f32) : FVec Ideal S1x128 .f32 :=
  shapeCast S1x128
    (addf
      (mulf
        (subf (shapeCast S128 (extractStridedSlice S1x128 ![2, 0] a3 slices_S3x128_S1x128_2_0) shapeCasts_S1x128_S128)
          (shapeCast S128 (extractStridedSlice S1x128 ![2, 0] a6 slices_S3x128_S1x128_2_0) shapeCasts_S1x128_S128))
        (mulf (shapeCast S128 (extractStridedSlice S1x128 ![2, 0] a4 slices_S3x128_S1x128_2_0) shapeCasts_S1x128_S128)
          (Host.rsqrt (addf (shapeCast S128 (extractStridedSlice S1x128 ![2, 0] a7 slices_S3x128_S1x128_2_0) shapeCasts_S1x128_S128)
            (broadcastInDim S128 ![] bcast_S_S128 (constant (F := Ideal) S_ .f32 0x3727C5AC#32))))))
      (shapeCast S128 (extractStridedSlice S1x128 ![2, 0] a5 slices_S3x128_S1x128_2_0) shapeCasts_S1x128_S128))
    shapeCasts_S128_S1x128

theorem b1pK2_apply (a3 a4 a5 a6 a7 : FVec Ideal S3x128 .f32) (j : Fin 128) :
    b1pK2 a3 a4 a5 a6 a7 (ix2 0 j) = foldB (vec 2 a3) (vec 2 a6) (vec 2 a4) (rs 2 a7) (vec 2 a5) j := by
  unfold b1pK2
  rw [asRow_apply, addf_apply, mulf_apply, subf_apply, scale_apply ![2, 0] 2 rfl rfl,
    row_apply ![2, 0] 2 rfl rfl a3, row_apply ![2, 0] 2 rfl rfl a6, row_apply ![2, 0] 2 rfl rfl a5]
  rfl

/-- Layer 2's second weights. -/
def w2K2 (a8 : FVec Ideal S3x128x128 .f32) : FVec Ideal S128x128 .f32 :=
  shapeCast S128x128 (extractStridedSlice S1x128x128 ![2, 0, 0] a8 slices_S3x128x128_S1x128x128_2_0_0) shapeCasts_S1x128x128_S128x128

theorem w2K2_apply (a8 : FVec Ideal S3x128x128 .f32) (k j : Fin 128) : w2K2 a8 (ix2 k j) = mat 2 a8 k j :=
  mat_apply ![2, 0, 0] 2 rfl rfl rfl a8 _ _ k j

/-- Layer 2's second bias, as one row. -/
def b2K2 (a9 : FVec Ideal S3x128 .f32) : FVec Ideal S1x128 .f32 :=
  shapeCast S1x128 (shapeCast S128 (extractStridedSlice S1x128 ![2, 0] a9 slices_S3x128_S1x128_2_0) shapeCasts_S1x128_S128)
    shapeCasts_S128_S1x128

theorem b2K2_apply (a9 : FVec Ideal S3x128 .f32) (j : Fin 128) : b2K2 a9 (ix2 0 j) = vec 2 a9 j :=
  (asRow_apply _ _ j).trans (row_apply ![2, 0] 2 rfl rfl a9 _ _ j)

/-! ## The head's two biases, as rows -/

/-- The head's first bias, as one row. -/
def lb1K (a11 : FVec Ideal S128 .f32) : FVec Ideal S1x128 .f32 := shapeCast S1x128 a11 shapeCasts_S128_S1x128

theorem lb1K_apply (a11 : FVec Ideal S128 .f32) (j : Fin 128) : lb1K a11 (ix2 0 j) = a11 (ix1 j) :=
  asRow_apply a11 _ j

/-- The head's second bias, as one row. -/
def lb2K (a13 : FVec Ideal S47 .f32) : FVec Ideal S1x47 .f32 := shapeCast S1x47 a13 shapeCasts_S47_S1x47

theorem lb2K_apply (a13 : FVec Ideal S47 .f32) (c : Fin 47) : lb2K a13 (ix2 0 c) = a13 (ix1 c) :=
  asRow_apply a13 _ c

end Cert.GinKernelParams

end
-- ==== Proof.KPay.lean ====
/-
  The kernels' bodies read at an entry, on the extended reals.

  Each layer kernel stores, at row `p` and column `q`, the layer of GinSpec on row `p` of the sum of its two input
  blocks; the head kernel stores the head of GinSpec on that layer's row. A product of blocks is read as the sum over
  the contracted coordinate, a bias row repeated over the rows as the row, a change of format as the identity, the
  word `0x00000000` as `0`, a reduction along the columns as the fold of `max` from `-∞` or as the sum over the row.
-/
import proofs.«125315_j5282809775005_2_alg».proof.Proof.Gen.KernelIdeal.Skeleton
import proofs.«125315_j5282809775005_2_alg».proof.Proof.GinSpec
import Idealize.ShloMosaic.Lib.ValueIdx
import Idealize.ShloMosaic.Lib.Pipeline.Value
import Idealize.ShloMosaic.Lib.ValueLayout
import Idealize.ShloMosaic.PureOps.Ideal.Laws

noncomputable section

namespace Cert.GinKernelPay

open Cert.KernelIdeal Cert.KernelIdeal.Gen Cert.GinSpec Idealize.ShloMosaic Idealize.ShloMosaic.ValueIdx

/-! ## A product of a block with a weight matrix, read at an entry -/

theorem mm128_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem mm128_l1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem mm128_r0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem mm128_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry `(p, q)` of the product of a `5000 × 128` block with a `128 × 128` matrix, accumulated into zero: row `p` of
    the block against column `q` of the matrix. -/
theorem mm128_apply {φ₁ φ₂ : FTy} (y : FVec Ideal S5000x128 φ₁) (W : FVec Ideal S128x128 φ₂) (p : Fin 5000) (q : Fin 128) :
    matmul dot_S5000x128_S128x128_S5000x128_1_0_0_1_n_n none y W (constant S5000x128 .f32 0x00000000#32) (ix2 p q)
      = ∑ k : Fin 128, y (ix2 p k) * W (ix2 k q) := by
  refine (Ideal.matmul_constant_zero_apply dot_S5000x128_S128x128_S5000x128_1_0_0_1_n_n none y W (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact mm128_l0 _ _
      | ⟨1, _⟩ => exact (mm128_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (mm128_r0 _ _).trans hk
      | ⟨1, _⟩ => exact mm128_r1 _ _)
  rw [el, er]

theorem mm47_l0 (i : S5000x47.Idx) (c : dot_S5000x128_S128x47_S5000x47_1_0_0_1_n_n.contr.Idx) : (dot_S5000x128_S128x47_S5000x47_1_0_0_1_n_n.lhsIdx i c 0).val = (i 0).val := by
  unfold DotDims.lhsIdx
  rw [dif_neg (show ¬(0 : Fin S5000x128.rank) ∈ dot_S5000x128_S128x47_S5000x47_1_0_0_1_n_n.lhsBatch by decide),
    dif_pos (show (0 : Fin S5000x128.rank) ∈ dot_S5000x128_S128x47_S5000x47_1_0_0_1_n_n.lhsNonContracting by decide)]
  rfl
theorem mm47_l1 (i : S5000x47.Idx) (c : dot_S5000x128_S128x47_S5000x47_1_0_0_1_n_n.contr.Idx) : (dot_S5000x128_S128x47_S5000x47_1_0_0_1_n_n.lhsIdx i c 1).val = (c ⟨0, by decide⟩).val :=
  dot_S5000x128_S128x47_S5000x47_1_0_0_1_n_n.lhsIdx_val_of_single rfl i c
theorem mm47_r0 (i : S5000x47.Idx) (c : dot_S5000x128_S128x47_S5000x47_1_0_0_1_n_n.contr.Idx) : (dot_S5000x128_S128x47_S5000x47_1_0_0_1_n_n.rhsIdx i c 0).val = (c ⟨0, by decide⟩).val :=
  dot_S5000x128_S128x47_S5000x47_1_0_0_1_n_n.rhsIdx_val_of_single rfl i c
theorem mm47_r1 (i : S5000x47.Idx) (c : dot_S5000x128_S128x47_S5000x47_1_0_0_1_n_n.contr.Idx) : (dot_S5000x128_S128x47_S5000x47_1_0_0_1_n_n.rhsIdx i c 1).val = (i 1).val := by
  unfold DotDims.rhsIdx
  rw [dif_neg (show ¬(1 : Fin S128x47.rank) ∈ dot_S5000x128_S128x47_S5000x47_1_0_0_1_n_n.rhsBatch by decide),
    dif_pos (show (1 : Fin S128x47.rank) ∈ dot_S5000x128_S128x47_S5000x47_1_0_0_1_n_n.rhsNonContracting by decide)]
  rfl

/-- The same for a `128 × 47` matrix. -/
theorem mm47_apply {φ₁ φ₂ : FTy} (y : FVec Ideal S5000x128 φ₁) (W : FVec Ideal S128x47 φ₂) (p : Fin 5000) (q : Fin 47) :
    matmul dot_S5000x128_S128x47_S5000x47_1_0_0_1_n_n none y W (constant S5000x47 .f32 0x00000000#32) (ix2 p q)
      = ∑ k : Fin 128, y (ix2 p k) * W (ix2 k q) := by
  refine (Ideal.matmul_constant_zero_apply dot_S5000x128_S128x47_S5000x47_1_0_0_1_n_n none y W (ix2 p q)).trans ?_
  rw [← Equiv.sum_comp (contrEquiv1 dot_S5000x128_S128x47_S5000x47_1_0_0_1_n_n 128 rfl rfl).symm]
  refine Finset.sum_congr rfl fun k _ => ?_
  have hk := contrEquiv1_symm_val dot_S5000x128_S128x47_S5000x47_1_0_0_1_n_n 128 rfl rfl k
  have el : dot_S5000x128_S128x47_S5000x47_1_0_0_1_n_n.lhsIdx (ix2 p q) ((contrEquiv1 dot_S5000x128_S128x47_S5000x47_1_0_0_1_n_n 128 rfl rfl).symm k) = ix2 p k :=
    funext fun a => Fin.ext (by
      match a with
      | ⟨0, _⟩ => exact mm47_l0 _ _
      | ⟨1, _⟩ => exact (mm47_l1 _ _).trans hk)
  have er : dot_S5000x128_S128x47_S5000x47_1_0_0_1_n_n.rhsIdx (ix2 p q) ((contrEquiv1 dot_S5000x128_S128x47_S5000x47_1_0_0_1_n_n 128 rfl rfl).symm k) = ix2 k q :=
    funext fun a => Fin.ext (by
      match a with
      | ⟨0, _⟩ => exact (mm47_r0 _ _).trans hk
      | ⟨1, _⟩ => exact mm47_r1 _ _)
  rw [el, er]

/-! ## An affine map of a block's rows, and its rectification -/

/-- Entry `(p, q)` of `y · W + b` (the bias one row, repeated over the rows): the affine map of row `p`, at `q`. A change
    of format is the identity on the extended reals. -/
theorem affine128_apply (y : FVec Ideal S5000x128 .f32) (W : FVec Ideal S128x128 .f32) (b : FVec Ideal S1x128 .f32)
    (hlt : FTy.bits .bf16 < FTy.bits .f32) (hb : S1x128.Broadcasts S5000x128) (p : Fin 5000) (q : Fin 128) :
    addf (matmul dot_S5000x128_S128x128_S5000x128_1_0_0_1_n_n none (truncf .bf16 y hlt) (truncf .bf16 W hlt) (constant S5000x128 .f32 0x00000000#32))
        (broadcastTo S5000x128 b hb) (ix2 p q)
      = affine (fun k => y (ix2 p k)) (fun k j => W (ix2 k j)) (fun j => b (ix2 0 j)) q := by
  rw [addf_apply, mm128_apply, broadcastTo_1b_ab_apply]
  rfl

/-- The same into 47 columns. -/
theorem affine47_apply (y : FVec Ideal S5000x128 .f32) (W : FVec Ideal S128x47 .f32) (b : FVec Ideal S1x47 .f32)
    (hlt : FTy.bits .bf16 < FTy.bits .f32) (hb : S1x47.Broadcasts S5000x47) (p : Fin 5000) (q : Fin 47) :
    addf (matmul dot_S5000x128_S128x47_S5000x47_1_0_0_1_n_n none (truncf .bf16 y hlt) (truncf .bf16 W hlt) (constant S5000x47 .f32 0x00000000#32))
        (broadcastTo S5000x47 b hb) (ix2 p q)
      = affine (fun k => y (ix2 p k)) (fun k j => W (ix2 k j)) (fun j => b (ix2 0 j)) q := by
  rw [addf_apply, mm47_apply, broadcastTo_1b_ab_apply]
  rfl

/-- Entry `(p, q)` of `max (y · W + b) 0`: the rectified affine map of row `p`, at `q`. The word `0x00000000` denotes `0`. -/
theorem reluAffine128_apply (y : FVec Ideal S5000x128 .f32) (W : FVec Ideal S128x128 .f32) (b : FVec Ideal S1x128 .f32)
    (hlt : FTy.bits .bf16 < FTy.bits .f32) (hb : S1x128.Broadcasts S5000x128) (p : Fin 5000) (q : Fin 128) :
    maximumf (addf (matmul dot_S5000x128_S128x128_S5000x128_1_0_0_1_n_n none (truncf .bf16 y hlt) (truncf .bf16 W hlt)
        (constant S5000x128 .f32 0x00000000#32)) (broadcastTo S5000x128 b hb))
      (broadcast S5000x128 (Scalar.ofBits .f32 0x00000000#32)) (ix2 p q)
      = relu (affine (fun k => y (ix2 p k)) (fun k j => W (ix2 k j)) (fun j => b (ix2 0 j))) q := by
  rw [maximumf_apply, affine128_apply, broadcast_apply]
  exact congrArg (max _) Ideal.ofBits_zero_f32

/-- The rectified affine map of equal rows. -/
theorem relu_affine_congr {n k : Nat} {v v' : Fin n → EReal} (h : v = v') (W : Fin n → Fin k → EReal) (b : Fin k → EReal)
    (q : Fin k) : relu (affine v W b) q = relu (affine v' W b) q := by rw [h]

/-! ## The layer kernels' bodies -/

/-- The first layer's body at `(p, q)`: the layer on row `p` of the sum of its two input blocks. -/
theorem pay0_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = layerRow (fun k => x0 (ix2 p k) + x1 (ix2 p k)) (fun k j => x2 (ix2 k j)) (fun j => x3 (ix2 0 j))
          (fun k j => x4 (ix2 k j)) (fun j => x5 (ix2 0 j)) q := by
  unfold k0_pay1
  simp only [shapeCast_self]
  refine (reluAffine128_apply _ _ _ _ _ p q).trans ?_
  unfold layerRow
  refine relu_affine_congr (funext fun k => ?_) _ _ q
  exact reluAffine128_apply _ _ _ _ _ p k

/-- The second layer's body at `(p, q)`: the same layer. -/
theorem pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = layerRow (fun k => x0 (ix2 p k) + x1 (ix2 p k)) (fun k j => x2 (ix2 k j)) (fun j => x3 (ix2 0 j))
          (fun k j => x4 (ix2 k j)) (fun j => x5 (ix2 0 j)) q := by
  unfold k1_pay1
  simp only [shapeCast_self]
  refine (reluAffine128_apply _ _ _ _ _ p q).trans ?_
  unfold layerRow
  refine relu_affine_congr (funext fun k => ?_) _ _ q
  exact reluAffine128_apply _ _ _ _ _ p k

/-! ## A column kept as a unit axis, and repeated over the columns -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and a row's sum -/

/-- The index over row `p` with column `c` put back is `(p, c)`. -/
theorem lift47_eq (hr : S5000x47.Reduces [1] S5000) (p : Fin 5000) (c : Fin 47) : hr.lift (ix1 p) c = ix2 p c :=
  funext fun a => Fin.ext (by
    match a with
    | ⟨0, _⟩ => rfl
    | ⟨1, _⟩ => rfl)

/-- The maximum over the columns, at row `p`: the fold of `max` from `-∞` over the row. -/
theorem rowMax_apply (L : FVec Ideal S5000x47 .f32) (hr : S5000x47.Reduces [1] S5000) (hφ : FKind.Formats .f32)
    (hacc : (0xFF800000#32 : BitVec (FTy.bits .f32)) = FKind.maximumf.neutral .f32 hφ) (p : Fin 5000) :
    multiReduction (F := Ideal) .maximumf [1] S5000 L 0xFF800000#32 hr hφ hacc (ix1 p) = rowMax (fun c => L (ix2 p c)) := by
  refine (Ideal.multiReduction_maximumf_single L _ hr hφ hacc (ix1 p)).trans ?_
  have e : (L ∘ hr.lift (ix1 p)) = fun c : Fin 47 => L (ix2 p c) := funext fun c => congrArg L (lift47_eq hr p c)
  rw [e]
  rfl

/-- The sum over the columns, at row `p`. -/
theorem rowSum_apply (E : FVec Ideal S5000x47 .f32) (hr : S5000x47.Reduces [1] S5000) (hφ : FKind.Formats .f32)
    (hacc : (0x00000000#32 : BitVec (FTy.bits .f32)) = FKind.add.neutral .f32 hφ) (p : Fin 5000) :
    multiReduction (F := Ideal) .add [1] S5000 E 0x00000000#32 hr hφ hacc (ix1 p) = ∑ c : Fin 47, E (ix2 p c) := by
  refine (Ideal.multiReduction_add_single E _ hr hφ hacc (ix1 p)).trans ?_
  exact Finset.sum_congr rfl fun c _ => congrArg E (lift47_eq hr p c)

/-! ## The log-softmax of a block's rows -/

/-- Entry `(p, q)` of `(L − max L) − log Σ exp (L − max L)`, the maximum and the sum taken along each row and kept as a
    column: the log-softmax of row `p`, at `q`. -/
theorem logSoftmax_apply (L : FVec Ideal S5000x47 .f32) (hr : S5000x47.Reduces [1] S5000) (hc : S5000.ShapeCasts S5000x1)
    (hb : S5000x1.Broadcasts S5000x47) (hφ : FKind.Formats .f32)
    (hmax : (0xFF800000#32 : BitVec (FTy.bits .f32)) = FKind.maximumf.neutral .f32 hφ)
    (hadd : (0x00000000#32 : BitVec (FTy.bits .f32)) = FKind.add.neutral .f32 hφ) (p : Fin 5000) (q : Fin 47) :
    subf (subf L (broadcastTo S5000x47 (shapeCast S5000x1 (multiReduction .maximumf [1] S5000 L 0xFF800000#32 hr hφ hmax) hc) hb))
      (broadcastTo S5000x47 (log (shapeCast S5000x1 (multiReduction .add [1] S5000
        (exp (subf L (broadcastTo S5000x47 (shapeCast S5000x1 (multiReduction .maximumf [1] S5000 L 0xFF800000#32 hr hφ hmax) hc) hb)))
        0x00000000#32 hr hφ hadd) hc)) hb) (ix2 p q)
      = logSoftmaxRow (fun c => L (ix2 p c)) q := by
  have hm : ∀ c : Fin 47,
      broadcastTo S5000x47 (shapeCast S5000x1 (multiReduction .maximumf [1] S5000 L 0xFF800000#32 hr hφ hmax) hc) hb (ix2 p c)
        = rowMax (fun c => L (ix2 p c)) := fun c =>
    (broadcastTo_a1_ab_apply _ hb p c).trans ((shapeCast_a_a1_apply _ hc p 0).trans (rowMax_apply L hr hφ hmax p))
  rw [subf_apply, subf_apply, hm q, broadcastTo_a1_ab_apply]
  refine congrArg (fun t => (L (ix2 p q) - rowMax (fun c => L (ix2 p c))) - Ideal.log t) ?_
  refine (shapeCast_a_a1_apply _ hc p 0).trans ((rowSum_apply _ hr hφ hadd p).trans ?_)
  refine Finset.sum_congr rfl fun c _ => ?_
  exact congrArg (fun m => Ideal.exp (L (ix2 p c) - m)) (hm c)

/-! ## The head kernel's body -/

/-- The affine map of equal rows. -/
theorem affine_congr {n k : Nat} {v v' : Fin n → EReal} (h : v = v') (W : Fin n → Fin k → EReal) (b : Fin k → EReal)
    (q : Fin k) : affine v W b q = affine v' W b q := by rw [h]

/-- The log-softmax of equal rows. -/
theorem logSoftmaxRow_congr {l l' : Fin 47 → EReal} (h : l = l') (q : Fin 47) : logSoftmaxRow l q = logSoftmaxRow l' q := by
  rw [h]

/-- The head kernel's first part at `(p, k)`: the layer on row `p`, then the head's rectified affine map, at `k`. -/
theorem pay2in_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (p : Fin 5000) (k : Fin 128) :
    k2_pay2 (F := Ideal) x0 x1 x2 x3 x4 x5 x6 x7 (ix2 p k)
      = relu (affine (layerRow (fun k => x0 (ix2 p k) + x1 (ix2 p k)) (fun k j => x2 (ix2 k j)) (fun j => x3 (ix2 0 j))
            (fun k j => x4 (ix2 k j)) (fun j => x5 (ix2 0 j)))
          (fun k j => x6 (ix2 k j)) (fun j => x7 (ix2 0 j))) k := by
  unfold k2_pay2
  simp only [shapeCast_self]
  refine (reluAffine128_apply _ _ _ _ _ p k).trans ?_
  refine relu_affine_congr (funext fun k' => ?_) _ _ k
  unfold layerRow
  refine (reluAffine128_apply _ _ _ _ _ p k').trans ?_
  refine relu_affine_congr (funext fun k'' => ?_) _ _ k'
  exact reluAffine128_apply _ _ _ _ _ p k''

/-- The head kernel's body at `(p, q)`: the head on the layer's row `p`, at `q`. -/
theorem pay2_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 : Vec Ideal S128x47 .f32) (x9 : Vec Ideal S1x47 .f32) (p : Fin 5000) (q : Fin 47) :
    k2_pay1 (F := Ideal) (k2_pay2 (F := Ideal) x0 x1 x2 x3 x4 x5 x6 x7) x8 x9 (ix2 p q)
      = headRow (layerRow (fun k => x0 (ix2 p k) + x1 (ix2 p k)) (fun k j => x2 (ix2 k j)) (fun j => x3 (ix2 0 j))
            (fun k j => x4 (ix2 k j)) (fun j => x5 (ix2 0 j)))
          (fun k j => x6 (ix2 k j)) (fun j => x7 (ix2 0 j)) (fun k c => x8 (ix2 k c)) (fun c => x9 (ix2 0 c)) q := by
  unfold k2_pay1
  simp only [shapeCast_self]
  refine (logSoftmax_apply _ _ _ _ _ _ _ p q).trans ?_
  unfold headRow
  refine logSoftmaxRow_congr (funext fun c => ?_) q
  refine (affine47_apply _ _ _ _ _ p c).trans ?_
  refine affine_congr (funext fun k => ?_) _ _ c
  exact pay2in_apply x0 x1 x2 x3 x4 x5 x6 x7 p k

end Cert.GinKernelPay

end
-- ==== Proof.KReg0.lean ====
/-
  Region 0 of the kernel program, as one function of the arrays it finds. Each of its ten grid points takes a block of
  5000 rows of the aggregate and of the features, and the weights and biases whole, and writes back the layer's output
  for those rows. Row `n` of the output array therefore is the layer applied to row `n` of (aggregate + features): the
  blocks are restrictions of that one function, and the ten row blocks tile the array.
-/
import proofs.«125315_j5282809775005_2_alg».proof.Proof.Gen.KernelIdeal.Frame
import proofs.«125315_j5282809775005_2_alg».proof.Proof.GinSpec
import proofs.«125315_j5282809775005_2_alg».proof.Proof.KPay
import Idealize.ShloMosaic.Lib.Pipeline.Value
import Idealize.ShloMosaic.Lib.ValueIdx

set_option maxRecDepth 16384

noncomputable section

namespace Cert.GinKernelReg0

open Cert.KernelIdeal Cert.KernelIdeal.Gen Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays: entry `(n, q)` is the layer's output `q` on row `n` of `agg + h`. -/
def G (agg h : S50000x128.Idx → EReal) (w1 : S128x128.Idx → EReal) (b1 : S1x128.Idx → EReal)
    (w2 : S128x128.Idx → EReal) (b2 : S1x128.Idx → EReal) : S50000x128.Idx → EReal :=
  fun i => layerRow (fun k => agg (ix2 (i 0) k) + h (ix2 (i 0) k)) (fun k j => w1 (ix2 k j)) (fun j => b1 (ix2 0 j))
    (fun k j => w2 (ix2 k j)) (fun j => b2 (ix2 0 j)) (i 1)

/-- The printed index maps over the grid: the two row windows move with the output's block along the rows, every
    other block index is zero, and the output's row-block index is below ten. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every row block is some point's. -/
theorem idx_onto : ∀ (q0 : Fin 10), ∃ t : Fin cfg0.N, win0_6.index t = ![q0.val, 0] :=
  (by decide +kernel : ∀ (q0 : Fin 10), ∃ t : Fin grid0.N, win0_6.index t = ![q0.val, 0])

/-- The array row that row `p` of point `t`'s block is. -/
def row (t : Fin cfg0.N) (p : Fin 5000) : Fin 50000 :=
  ⟨win0_6.index t (0 : Fin 2) * 5000 + p.val, by have := (idx_facts t).2.2.2.2.2.2.2.2.2.2.2.2.1; have := p.isLt; omega⟩

/-- Where a block's entry sits in its array: the row windows at row `row t p`, the weights and biases where they are. -/
theorem emb6 (t : Fin cfg0.N) (p : Fin 5000) (q : Fin 128) : ((cfg0.win 6).blk t).view.emb (ix2 p q) = ix2 (row t p) q := by
  obtain ⟨e00, e01, e10, e11, e20, e21, e30, e31, e40, e41, e50, e51, e60, e61⟩ := idx_facts t
  funext a; apply Fin.ext
  match a with
  | ⟨0, _⟩ => show win0_6.index t (0 : Fin 2) * 5000 + 1 * p.val = win0_6.index t (0 : Fin 2) * 5000 + p.val; omega
  | ⟨1, _⟩ => show win0_6.index t (1 : Fin 2) * 128 + 1 * q.val = q.val; omega
theorem emb0 (t : Fin cfg0.N) (p : Fin 5000) (q : Fin 128) : ((cfg0.win 0).blk t).view.emb (ix2 p q) = ix2 (row t p) q := by
  obtain ⟨e00, e01, e10, e11, e20, e21, e30, e31, e40, e41, e50, e51, e60, e61⟩ := idx_facts t
  funext a; apply Fin.ext
  match a with
  | ⟨0, _⟩ => show win0_0.index t (0 : Fin 2) * 5000 + 1 * p.val = win0_6.index t (0 : Fin 2) * 5000 + p.val; omega
  | ⟨1, _⟩ => show win0_0.index t (1 : Fin 2) * 128 + 1 * q.val = q.val; omega
theorem emb1 (t : Fin cfg0.N) (p : Fin 5000) (q : Fin 128) : ((cfg0.win 1).blk t).view.emb (ix2 p q) = ix2 (row t p) q := by
  obtain ⟨e00, e01, e10, e11, e20, e21, e30, e31, e40, e41, e50, e51, e60, e61⟩ := idx_facts t
  funext a; apply Fin.ext
  match a with
  | ⟨0, _⟩ => show win0_1.index t (0 : Fin 2) * 5000 + 1 * p.val = win0_6.index t (0 : Fin 2) * 5000 + p.val; omega
  | ⟨1, _⟩ => show win0_1.index t (1 : Fin 2) * 128 + 1 * q.val = q.val; omega
theorem emb2 (t : Fin cfg0.N) (k : Fin 128) (q : Fin 128) : ((cfg0.win 2).blk t).view.emb (ix2 k q) = ix2 k q := by
  obtain ⟨e00, e01, e10, e11, e20, e21, e30, e31, e40, e41, e50, e51, e60, e61⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega
theorem emb3 (t : Fin cfg0.N) (k : Fin 1) (q : Fin 128) : ((cfg0.win 3).blk t).view.emb (ix2 k q) = ix2 k q := by
  obtain ⟨e00, e01, e10, e11, e20, e21, e30, e31, e40, e41, e50, e51, e60, e61⟩ := idx_facts t
  funext a; apply Fin.ext
  match a with
  | ⟨0, _⟩ => show win0_3.index t (0 : Fin 2) * 1 + 1 * k.val = k.val; omega
  | ⟨1, _⟩ => show win0_3.index t (1 : Fin 2) * 128 + 1 * q.val = q.val; omega
theorem emb4 (t : Fin cfg0.N) (k : Fin 128) (q : Fin 128) : ((cfg0.win 4).blk t).view.emb (ix2 k q) = ix2 k q := by
  obtain ⟨e00, e01, e10, e11, e20, e21, e30, e31, e40, e41, e50, e51, e60, e61⟩ := idx_facts t
  funext a; apply Fin.ext
  match a with
  | ⟨0, _⟩ => show win0_4.index t (0 : Fin 2) * 128 + 1 * k.val = k.val; omega
  | ⟨1, _⟩ => show win0_4.index t (1 : Fin 2) * 128 + 1 * q.val = q.val; omega
theorem emb5 (t : Fin cfg0.N) (k : Fin 1) (q : Fin 128) : ((cfg0.win 5).blk t).view.emb (ix2 k q) = ix2 k q := by
  obtain ⟨e00, e01, e10, e11, e20, e21, e30, e31, e40, e41, e50, e51, e60, e61⟩ := idx_facts t
  funext a; apply Fin.ext
  match a with
  | ⟨0, _⟩ => show win0_5.index t (0 : Fin 2) * 1 + 1 * k.val = k.val; omega
  | ⟨1, _⟩ => show win0_5.index t (1 : Fin 2) * 128 + 1 * q.val = q.val; omega

/-- Each input block, read at an entry, is its array at that place. -/
theorem blk0 (c : Dev nD) (t : Fin cfg0.N) (p : Fin 5000) (q : Fin 128) : iblk0 V c 0 t (ix2 p q) = V c main_v15 (ix2 (row t p) q) := by
  show V c main_v15 (((cfg0.win 0).blk t).view.emb (ix2 p q)) = _; rw [emb0]
theorem blk1 (c : Dev nD) (t : Fin cfg0.N) (p : Fin 5000) (q : Fin 128) : iblk0 V c 1 t (ix2 p q) = V c main_arg0 (ix2 (row t p) q) := by
  show V c main_arg0 (((cfg0.win 1).blk t).view.emb (ix2 p q)) = _; rw [emb1]
theorem blk2 (c : Dev nD) (t : Fin cfg0.N) (k : Fin 128) (q : Fin 128) : iblk0 V c 2 t (ix2 k q) = V c main_v34 (ix2 k q) := by
  show V c main_v34 (((cfg0.win 2).blk t).view.emb (ix2 k q)) = _; rw [emb2]
theorem blk3 (c : Dev nD) (t : Fin cfg0.N) (k : Fin 1) (q : Fin 128) : iblk0 V c 3 t (ix2 k q) = V c main_v38 (ix2 k q) := by
  show V c main_v38 (((cfg0.win 3).blk t).view.emb (ix2 k q)) = _; rw [emb3]
theorem blk4 (c : Dev nD) (t : Fin cfg0.N) (k : Fin 128) (q : Fin 128) : iblk0 V c 4 t (ix2 k q) = V c main_v40 (ix2 k q) := by
  show V c main_v40 (((cfg0.win 4).blk t).view.emb (ix2 k q)) = _; rw [emb4]
theorem blk5 (c : Dev nD) (t : Fin cfg0.N) (k : Fin 1) (q : Fin 128) : iblk0 V c 5 t (ix2 k q) = V c main_v43 (ix2 k q) := by
  show V c main_v43 (((cfg0.win 5).blk t).view.emb (ix2 k q)) = _; rw [emb5]

/-- WHAT POINT `t` WRITES BACK is block `t` of the layer of the arrays as the region finds them. -/
theorem flushed_eq (c : Dev nD) (t : Fin cfg0.N) :
    (dat0 V c).flushed 6 t = ((cfg0.win 6).blk t).view.read (Elt Ideal)
      (G (V c main_v15) (V c main_arg0) (V c main_v34) (V c main_v38) (V c main_v40) (V c main_v43)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (Cert.GinKernelPay.pay0_apply _ _ _ _ _ _ p q).trans ?_
  show _ = G _ _ _ _ _ _ (((cfg0.win 6).blk t).view.emb (ix2 p q))
  rw [emb6]
  unfold G
  simp only [blk0, blk1, blk2, blk3, blk4, blk5]

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v44).slice (win0_6.rect t)).set ↔ _
  rw [View.set_slice_whole, Rect.mem_set_unit]
  exact Iff.rfl

/-- The ten row blocks tile the array: row `n` is in the block of the point whose block index is `n / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the region: the layer of the arrays as the region finds them. -/
theorem final (c : Dev nD) :
    (dat0 V c).arrAt 6 cfg0.N = G (V c main_v15) (V c main_arg0) (V c main_v34) (V c main_v38) (V c main_v40) (V c main_v43) :=
  (dat0 V c).arrAt_eq_of_cover 6 _ (fun t _ => flushed_eq V c t) cover

end Cert.GinKernelReg0

end
-- ==== Proof.KReg1.lean ====
/-
  Region 1 of the kernel program, as one function of the arrays it finds. Each of its ten grid points takes a block of
  5000 rows of the aggregate and of the features, and the weights and biases whole, and writes back the layer's output
  for those rows. Row `n` of the output array therefore is the layer applied to row `n` of (aggregate + features): the
  blocks are restrictions of that one function, and the ten row blocks tile the array.
-/
import proofs.«125315_j5282809775005_2_alg».proof.Proof.Gen.KernelIdeal.Frame
import proofs.«125315_j5282809775005_2_alg».proof.Proof.GinSpec
import proofs.«125315_j5282809775005_2_alg».proof.Proof.KPay
import Idealize.ShloMosaic.Lib.Pipeline.Value
import Idealize.ShloMosaic.Lib.ValueIdx

set_option maxRecDepth 16384

noncomputable section

namespace Cert.GinKernelReg1

open Cert.KernelIdeal Cert.KernelIdeal.Gen Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays: entry `(n, q)` is the layer's output `q` on row `n` of `agg + h`. -/
def G (agg h : S50000x128.Idx → EReal) (w1 : S128x128.Idx → EReal) (b1 : S1x128.Idx → EReal)
    (w2 : S128x128.Idx → EReal) (b2 : S1x128.Idx → EReal) : S50000x128.Idx → EReal :=
  fun i => layerRow (fun k => agg (ix2 (i 0) k) + h (ix2 (i 0) k)) (fun k j => w1 (ix2 k j)) (fun j => b1 (ix2 0 j))
    (fun k j => w2 (ix2 k j)) (fun j => b2 (ix2 0 j)) (i 1)

/-- The printed index maps over the grid: the two row windows move with the output's block along the rows, every
    other block index is zero, and the output's row-block index is below ten. -/
theorem idx_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every row block is some point's. -/
theorem idx_onto : ∀ (q0 : Fin 10), ∃ t : Fin cfg1.N, win1_6.index t = ![q0.val, 0] :=
  (by decide +kernel : ∀ (q0 : Fin 10), ∃ t : Fin grid1.N, win1_6.index t = ![q0.val, 0])

/-- The array row that row `p` of point `t`'s block is. -/
def row (t : Fin cfg1.N) (p : Fin 5000) : Fin 50000 :=
  ⟨win1_6.index t (0 : Fin 2) * 5000 + p.val, by have := (idx_facts t).2.2.2.2.2.2.2.2.2.2.2.2.1; have := p.isLt; omega⟩

/-- Where a block's entry sits in its array: the row windows at row `row t p`, the weights and biases where they are. -/
theorem emb6 (t : Fin cfg1.N) (p : Fin 5000) (q : Fin 128) : ((cfg1.win 6).blk t).view.emb (ix2 p q) = ix2 (row t p) q := by
  obtain ⟨e00, e01, e10, e11, e20, e21, e30, e31, e40, e41, e50, e51, e60, e61⟩ := idx_facts t
  funext a; apply Fin.ext
  match a with
  | ⟨0, _⟩ => show win1_6.index t (0 : Fin 2) * 5000 + 1 * p.val = win1_6.index t (0 : Fin 2) * 5000 + p.val; omega
  | ⟨1, _⟩ => show win1_6.index t (1 : Fin 2) * 128 + 1 * q.val = q.val; omega
theorem emb0 (t : Fin cfg1.N) (p : Fin 5000) (q : Fin 128) : ((cfg1.win 0).blk t).view.emb (ix2 p q) = ix2 (row t p) q := by
  obtain ⟨e00, e01, e10, e11, e20, e21, e30, e31, e40, e41, e50, e51, e60, e61⟩ := idx_facts t
  funext a; apply Fin.ext
  match a with
  | ⟨0, _⟩ => show win1_0.index t (0 : Fin 2) * 5000 + 1 * p.val = win1_6.index t (0 : Fin 2) * 5000 + p.val; omega
  | ⟨1, _⟩ => show win1_0.index t (1 : Fin 2) * 128 + 1 * q.val = q.val; omega
theorem emb1 (t : Fin cfg1.N) (p : Fin 5000) (q : Fin 128) : ((cfg1.win 1).blk t).view.emb (ix2 p q) = ix2 (row t p) q := by
  obtain ⟨e00, e01, e10, e11, e20, e21, e30, e31, e40, e41, e50, e51, e60, e61⟩ := idx_facts t
  funext a; apply Fin.ext
  match a with
  | ⟨0, _⟩ => show win1_1.index t (0 : Fin 2) * 5000 + 1 * p.val = win1_6.index t (0 : Fin 2) * 5000 + p.val; omega
  | ⟨1, _⟩ => show win1_1.index t (1 : Fin 2) * 128 + 1 * q.val = q.val; omega
theorem emb2 (t : Fin cfg1.N) (k : Fin 128) (q : Fin 128) : ((cfg1.win 2).blk t).view.emb (ix2 k q) = ix2 k q := by
  obtain ⟨e00, e01, e10, e11, e20, e21, e30, e31, e40, e41, e50, e51, e60, e61⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega
theorem emb3 (t : Fin cfg1.N) (k : Fin 1) (q : Fin 128) : ((cfg1.win 3).blk t).view.emb (ix2 k q) = ix2 k q := by
  obtain ⟨e00, e01, e10, e11, e20, e21, e30, e31, e40, e41, e50, e51, e60, e61⟩ := idx_facts t
  funext a; apply Fin.ext
  match a with
  | ⟨0, _⟩ => show win1_3.index t (0 : Fin 2) * 1 + 1 * k.val = k.val; omega
  | ⟨1, _⟩ => show win1_3.index t (1 : Fin 2) * 128 + 1 * q.val = q.val; omega
theorem emb4 (t : Fin cfg1.N) (k : Fin 128) (q : Fin 128) : ((cfg1.win 4).blk t).view.emb (ix2 k q) = ix2 k q := by
  obtain ⟨e00, e01, e10, e11, e20, e21, e30, e31, e40, e41, e50, e51, e60, e61⟩ := idx_facts t
  funext a; apply Fin.ext
  match a with
  | ⟨0, _⟩ => show win1_4.index t (0 : Fin 2) * 128 + 1 * k.val = k.val; omega
  | ⟨1, _⟩ => show win1_4.index t (1 : Fin 2) * 128 + 1 * q.val = q.val; omega
theorem emb5 (t : Fin cfg1.N) (k : Fin 1) (q : Fin 128) : ((cfg1.win 5).blk t).view.emb (ix2 k q) = ix2 k q := by
  obtain ⟨e00, e01, e10, e11, e20, e21, e30, e31, e40, e41, e50, e51, e60, e61⟩ := idx_facts t
  funext a; apply Fin.ext
  match a with
  | ⟨0, _⟩ => show win1_5.index t (0 : Fin 2) * 1 + 1 * k.val = k.val; omega
  | ⟨1, _⟩ => show win1_5.index t (1 : Fin 2) * 128 + 1 * q.val = q.val; omega

/-- Each input block, read at an entry, is its array at that place. -/
theorem blk0 (c : Dev nD) (t : Fin cfg1.N) (p : Fin 5000) (q : Fin 128) : iblk1 V c 0 t (ix2 p q) = V c main_v56 (ix2 (row t p) q) := by
  show V c main_v56 (((cfg1.win 0).blk t).view.emb (ix2 p q)) = _; rw [emb0]
theorem blk1 (c : Dev nD) (t : Fin cfg1.N) (p : Fin 5000) (q : Fin 128) : iblk1 V c 1 t (ix2 p q) = V c main_v44 (ix2 (row t p) q) := by
  show V c main_v44 (((cfg1.win 1).blk t).view.emb (ix2 p q)) = _; rw [emb1]
theorem blk2 (c : Dev nD) (t : Fin cfg1.N) (k : Fin 128) (q : Fin 128) : iblk1 V c 2 t (ix2 k q) = V c main_v75 (ix2 k q) := by
  show V c main_v75 (((cfg1.win 2).blk t).view.emb (ix2 k q)) = _; rw [emb2]
theorem blk3 (c : Dev nD) (t : Fin cfg1.N) (k : Fin 1) (q : Fin 128) : iblk1 V c 3 t (ix2 k q) = V c main_v79 (ix2 k q) := by
  show V c main_v79 (((cfg1.win 3).blk t).view.emb (ix2 k q)) = _; rw [emb3]
theorem blk4 (c : Dev nD) (t : Fin cfg1.N) (k : Fin 128) (q : Fin 128) : iblk1 V c 4 t (ix2 k q) = V c main_v81 (ix2 k q) := by
  show V c main_v81 (((cfg1.win 4).blk t).view.emb (ix2 k q)) = _; rw [emb4]
theorem blk5 (c : Dev nD) (t : Fin cfg1.N) (k : Fin 1) (q : Fin 128) : iblk1 V c 5 t (ix2 k q) = V c main_v84 (ix2 k q) := by
  show V c main_v84 (((cfg1.win 5).blk t).view.emb (ix2 k q)) = _; rw [emb5]

/-- WHAT POINT `t` WRITES BACK is block `t` of the layer of the arrays as the region finds them. -/
theorem flushed_eq (c : Dev nD) (t : Fin cfg1.N) :
    (dat1 V c).flushed 6 t = ((cfg1.win 6).blk t).view.read (Elt Ideal)
      (G (V c main_v56) (V c main_v44) (V c main_v75) (V c main_v79) (V c main_v81) (V c main_v84)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (Cert.GinKernelPay.pay1_apply _ _ _ _ _ _ p q).trans ?_
  show _ = G _ _ _ _ _ _ (((cfg1.win 6).blk t).view.emb (ix2 p q))
  rw [emb6]
  unfold G
  simp only [blk0, blk1, blk2, blk3, blk4, blk5]

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v85).slice (win1_6.rect t)).set ↔ _
  rw [View.set_slice_whole, Rect.mem_set_unit]
  exact Iff.rfl

/-- The ten row blocks tile the array: row `n` is in the block of the point whose block index is `n / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the region: the layer of the arrays as the region finds them. -/
theorem final (c : Dev nD) :
    (dat1 V c).arrAt 6 cfg1.N = G (V c main_v56) (V c main_v44) (V c main_v75) (V c main_v79) (V c main_v81) (V c main_v84) :=
  (dat1 V c).arrAt_eq_of_cover 6 _ (fun t _ => flushed_eq V c t) cover

end Cert.GinKernelReg1

end
-- ==== Proof.KReg2.lean ====
/-
  The last region of the kernel program, as one function of the arrays it finds. Each of its ten grid points takes a
  block of 5000 rows of the aggregate and of the features, and the third layer's and the head's weights and biases whole,
  and writes back the 47 log-probabilities of those rows: the third layer, the head's rectified affine map, its affine
  map to the logits, and the log-softmax of each row. Row `n` of the output is that chain applied to row `n` of
  (aggregate + features); the ten row blocks tile the array.
-/
import proofs.«125315_j5282809775005_2_alg».proof.Proof.Gen.KernelIdeal.Frame
import proofs.«125315_j5282809775005_2_alg».proof.Proof.GinSpec
import proofs.«125315_j5282809775005_2_alg».proof.Proof.KPay
import Idealize.ShloMosaic.Lib.Pipeline.Value
import Idealize.ShloMosaic.Lib.ValueIdx

set_option maxRecDepth 16384

noncomputable section

namespace Cert.GinKernelReg2

open Cert.KernelIdeal Cert.KernelIdeal.Gen Cert.GinSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The third layer and the head on whole arrays: entry `(n, q)` is log-probability `q` of row `n`. -/
def G (agg h : S50000x128.Idx → EReal) (w1 : S128x128.Idx → EReal) (b1 : S1x128.Idx → EReal)
    (w2 : S128x128.Idx → EReal) (b2 : S1x128.Idx → EReal) (lw1 : S128x128.Idx → EReal) (lb1 : S1x128.Idx → EReal)
    (lw2 : S128x47.Idx → EReal) (lb2 : S1x47.Idx → EReal) : S50000x47.Idx → EReal :=
  fun i => headRow (layerRow (fun k => agg (ix2 (i 0) k) + h (ix2 (i 0) k)) (fun k j => w1 (ix2 k j)) (fun j => b1 (ix2 0 j))
      (fun k j => w2 (ix2 k j)) (fun j => b2 (ix2 0 j)))
    (fun k j => lw1 (ix2 k j)) (fun j => lb1 (ix2 0 j)) (fun k c => lw2 (ix2 k c)) (fun c => lb2 (ix2 0 c)) (i 1)

/-- The printed index maps over the grid: the two row windows move with the output's block along the rows, every
    other block index is zero, and the output's row-block index is below ten. -/
theorem idx_facts : ∀ t : Fin cfg2.N, win2_0.index t (0 : Fin 2) = win2_10.index t (0 : Fin 2)
    ∧ win2_0.index t (1 : Fin 2) = 0
    ∧ win2_1.index t (0 : Fin 2) = win2_10.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) ≤ 9 ∧ win2_10.index t (1 : Fin 2) = 0 :=
  (by decide +kernel : ∀ t : Fin grid2.N, _)

/-- Every row block is some point's. -/
theorem idx_onto : ∀ (q0 : Fin 10), ∃ t : Fin cfg2.N, win2_10.index t = ![q0.val, 0] :=
  (by decide +kernel : ∀ (q0 : Fin 10), ∃ t : Fin grid2.N, win2_10.index t = ![q0.val, 0])

/-- The array row that row `p` of point `t`'s block is. -/
def row (t : Fin cfg2.N) (p : Fin 5000) : Fin 50000 :=
  ⟨win2_10.index t (0 : Fin 2) * 5000 + p.val, by
    obtain ⟨e00, e01, e10, e11, e20, e21, e30, e31, e40, e41, e50, e51, e60, e61, e70, e71, e80, e81, e90, e91, eA0, eA1⟩ := idx_facts t
    have := p.isLt; omega⟩

/-- Where a block's entry sits in its array: the row windows at row `row t p`, the weights and biases where they are. -/
theorem emb10 (t : Fin cfg2.N) (p : Fin 5000) (q : Fin 47) : ((cfg2.win 10).blk t).view.emb (ix2 p q) = ix2 (row t p) q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_10.index t (0 : Fin 2) * 5000 + 1 * p.val = win2_10.index t (0 : Fin 2) * 5000 + p.val; omega
  | ⟨1, _⟩ => show win2_10.index t (1 : Fin 2) * 47 + 1 * q.val = q.val; omega
theorem emb0 (t : Fin cfg2.N) (p : Fin 5000) (q : Fin 128) : ((cfg2.win 0).blk t).view.emb (ix2 p q) = ix2 (row t p) q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_0.index t (0 : Fin 2) * 5000 + 1 * p.val = win2_10.index t (0 : Fin 2) * 5000 + p.val; omega
  | ⟨1, _⟩ => show win2_0.index t (1 : Fin 2) * 128 + 1 * q.val = q.val; omega
theorem emb1 (t : Fin cfg2.N) (p : Fin 5000) (q : Fin 128) : ((cfg2.win 1).blk t).view.emb (ix2 p q) = ix2 (row t p) q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_1.index t (0 : Fin 2) * 5000 + 1 * p.val = win2_10.index t (0 : Fin 2) * 5000 + p.val; omega
  | ⟨1, _⟩ => show win2_1.index t (1 : Fin 2) * 128 + 1 * q.val = q.val; omega
theorem emb2 (t : Fin cfg2.N) (p : Fin 128) (q : Fin 128) : ((cfg2.win 2).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_2.index t (0 : Fin 2) * 128 + 1 * p.val = p.val; omega
  | ⟨1, _⟩ => show win2_2.index t (1 : Fin 2) * 128 + 1 * q.val = q.val; omega
theorem emb3 (t : Fin cfg2.N) (p : Fin 1) (q : Fin 128) : ((cfg2.win 3).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_3.index t (0 : Fin 2) * 1 + 1 * p.val = p.val; omega
  | ⟨1, _⟩ => show win2_3.index t (1 : Fin 2) * 128 + 1 * q.val = q.val; omega
theorem emb4 (t : Fin cfg2.N) (p : Fin 128) (q : Fin 128) : ((cfg2.win 4).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_4.index t (0 : Fin 2) * 128 + 1 * p.val = p.val; omega
  | ⟨1, _⟩ => show win2_4.index t (1 : Fin 2) * 128 + 1 * q.val = q.val; omega
theorem emb5 (t : Fin cfg2.N) (p : Fin 1) (q : Fin 128) : ((cfg2.win 5).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_5.index t (0 : Fin 2) * 1 + 1 * p.val = p.val; omega
  | ⟨1, _⟩ => show win2_5.index t (1 : Fin 2) * 128 + 1 * q.val = q.val; omega
theorem emb6 (t : Fin cfg2.N) (p : Fin 128) (q : Fin 128) : ((cfg2.win 6).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_6.index t (0 : Fin 2) * 128 + 1 * p.val = p.val; omega
  | ⟨1, _⟩ => show win2_6.index t (1 : Fin 2) * 128 + 1 * q.val = q.val; omega
theorem emb7 (t : Fin cfg2.N) (p : Fin 1) (q : Fin 128) : ((cfg2.win 7).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_7.index t (0 : Fin 2) * 1 + 1 * p.val = p.val; omega
  | ⟨1, _⟩ => show win2_7.index t (1 : Fin 2) * 128 + 1 * q.val = q.val; omega
theorem emb8 (t : Fin cfg2.N) (p : Fin 128) (q : Fin 47) : ((cfg2.win 8).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_8.index t (0 : Fin 2) * 128 + 1 * p.val = p.val; omega
  | ⟨1, _⟩ => show win2_8.index t (1 : Fin 2) * 47 + 1 * q.val = q.val; omega
theorem emb9 (t : Fin cfg2.N) (p : Fin 1) (q : Fin 47) : ((cfg2.win 9).blk t).view.emb (ix2 p q) = ix2 p q := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win2_9.index t (0 : Fin 2) * 1 + 1 * p.val = p.val; omega
  | ⟨1, _⟩ => show win2_9.index t (1 : Fin 2) * 47 + 1 * q.val = q.val; omega

/-- Each input block, read at an entry, is its array at that place. -/
theorem blk0 (c : Dev nD) (t : Fin cfg2.N) (p : Fin 5000) (q : Fin 128) : iblk2 V c 0 t (ix2 p q) = V c main_v97 (ix2 (row t p) q) := by
  show V c main_v97 (((cfg2.win 0).blk t).view.emb (ix2 p q)) = _; rw [emb0]
theorem blk1 (c : Dev nD) (t : Fin cfg2.N) (p : Fin 5000) (q : Fin 128) : iblk2 V c 1 t (ix2 p q) = V c main_v85 (ix2 (row t p) q) := by
  show V c main_v85 (((cfg2.win 1).blk t).view.emb (ix2 p q)) = _; rw [emb1]
theorem blk2 (c : Dev nD) (t : Fin cfg2.N) (p : Fin 128) (q : Fin 128) : iblk2 V c 2 t (ix2 p q) = V c main_v116 (ix2 p q) := by
  show V c main_v116 (((cfg2.win 2).blk t).view.emb (ix2 p q)) = _; rw [emb2]
theorem blk3 (c : Dev nD) (t : Fin cfg2.N) (p : Fin 1) (q : Fin 128) : iblk2 V c 3 t (ix2 p q) = V c main_v120 (ix2 p q) := by
  show V c main_v120 (((cfg2.win 3).blk t).view.emb (ix2 p q)) = _; rw [emb3]
theorem blk4 (c : Dev nD) (t : Fin cfg2.N) (p : Fin 128) (q : Fin 128) : iblk2 V c 4 t (ix2 p q) = V c main_v122 (ix2 p q) := by
  show V c main_v122 (((cfg2.win 4).blk t).view.emb (ix2 p q)) = _; rw [emb4]
theorem blk5 (c : Dev nD) (t : Fin cfg2.N) (p : Fin 1) (q : Fin 128) : iblk2 V c 5 t (ix2 p q) = V c main_v125 (ix2 p q) := by
  show V c main_v125 (((cfg2.win 5).blk t).view.emb (ix2 p q)) = _; rw [emb5]
theorem blk6 (c : Dev nD) (t : Fin cfg2.N) (p : Fin 128) (q : Fin 128) : iblk2 V c 6 t (ix2 p q) = V c main_arg10 (ix2 p q) := by
  show V c main_arg10 (((cfg2.win 6).blk t).view.emb (ix2 p q)) = _; rw [emb6]
theorem blk7 (c : Dev nD) (t : Fin cfg2.N) (p : Fin 1) (q : Fin 128) : iblk2 V c 7 t (ix2 p q) = V c main_v126 (ix2 p q) := by
  show V c main_v126 (((cfg2.win 7).blk t).view.emb (ix2 p q)) = _; rw [emb7]
theorem blk8 (c : Dev nD) (t : Fin cfg2.N) (p : Fin 128) (q : Fin 47) : iblk2 V c 8 t (ix2 p q) = V c main_arg12 (ix2 p q) := by
  show V c main_arg12 (((cfg2.win 8).blk t).view.emb (ix2 p q)) = _; rw [emb8]
theorem blk9 (c : Dev nD) (t : Fin cfg2.N) (p : Fin 1) (q : Fin 47) : iblk2 V c 9 t (ix2 p q) = V c main_v127 (ix2 p q) := by
  show V c main_v127 (((cfg2.win 9).blk t).view.emb (ix2 p q)) = _; rw [emb9]

/-- WHAT POINT `t` WRITES BACK is block `t` of the chain of the arrays as the region finds them. -/
theorem flushed_eq (c : Dev nD) (t : Fin cfg2.N) :
    (dat2 V c).flushed 10 t = ((cfg2.win 10).blk t).view.read (Elt Ideal)
      (G (V c main_v97) (V c main_v85) (V c main_v116) (V c main_v120) (V c main_v122) (V c main_v125) (V c main_arg10) (V c main_v126) (V c main_arg12) (V c main_v127)) := by
  show (cfg2.win 10).cut (grid2.coords t) ((dat2 V c).after 10 t) = _
  rw [after2_10]
  unfold out2_10
  rw [View.canon_unit_zero hz]
  simp only [View.ld_unit_zero (S := S5000x128) hz, View.ld_unit_zero (S := S128x128) hz, View.ld_unit_zero (S := S1x128) hz,
    View.ld_unit_zero (S := S128x47) hz, View.ld_unit_zero (S := S1x47) hz]
  funext j
  obtain ⟨p, q, rfl⟩ : ∃ (p : Fin 5000) (q : Fin 47), j = ix2 p q := ⟨j 0, j 1, eq_ix2 j⟩
  refine (Cert.GinKernelPay.pay2_apply _ _ _ _ _ _ _ _ _ _ p q).trans ?_
  show _ = G _ _ _ _ _ _ _ _ _ _ (((cfg2.win 10).blk t).view.emb (ix2 p q))
  rw [emb10]
  unfold G
  simp only [blk0, blk1, blk2, blk3, blk4, blk5, blk6, blk7, blk8, blk9]

/-- An index of the array is in point `t`'s block iff each coordinate is in the block's range on its axis. -/
theorem mem_blk (t : Fin cfg2.N) (i : S50000x47.Idx) :
    i ∈ ((cfg2.win 10).blk t).view.set ↔ ∀ a : Fin 2, win2_10.index t a * S5000x47.size a ≤ (i a).val ∧ (i a).val < win2_10.index t a * S5000x47.size a + S5000x47.size a := by
  show i ∈ ((View.whole main_v128).slice (win2_10.rect t)).set ↔ _
  rw [View.set_slice_whole, Rect.mem_set_unit]
  exact Iff.rfl

/-- The ten row blocks tile the array: row `n` is in the block of the point whose block index is `n / 5000`. -/
theorem cover (i : S50000x47.Idx) : ∃ t : Fin cfg2.N, (cfg2.win 10).flush t = true ∧ i ∈ ((cfg2.win 10).blk t).view.set := by
  have hi0 : (i 0).val < 50000 := (i 0).isLt
  have hi1 : (i 1).val < 47 := (i 1).isLt
  obtain ⟨t, ht⟩ := idx_onto ⟨(i 0).val / 5000, by omega⟩
  have q0 : win2_10.index t (0 : Fin 2) = (i 0).val / 5000 := congrFun ht 0
  have q1 : win2_10.index t (1 : Fin 2) = 0 := congrFun ht 1
  refine ⟨t, flush2_10 t, ?_⟩
  rw [mem_blk]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 47 ≤ (i 1).val ∧ (i 1).val < win2_10.index t (1 : Fin 2) * 47 + 47; omega

/-- THE OUTPUT ARRAY after the region: the chain of the arrays as the region finds them. -/
theorem final (c : Dev nD) :
    (dat2 V c).arrAt 10 cfg2.N = G (V c main_v97) (V c main_v85) (V c main_v116) (V c main_v120) (V c main_v122) (V c main_v125) (V c main_arg10) (V c main_v126) (V c main_arg12) (V c main_v127) :=
  (dat2 V c).arrAt_eq_of_cover 10 _ (fun t _ => flushed_eq V c t) cover

end Cert.GinKernelReg2

end
-- ==== Proof.KHost.lean ====
/-
  What each region of the kernel program finds in the arrays it reads, as terms of the program's arguments.
  Between the regions the program runs host operations: it splits the edge list, gathers and sums the neighbours'
  rows, slices each layer's parameters and folds the normalisation into the first linear map. Reading the buffer
  contents at each boundary back through those operations names every region's operands, and with each region's
  output known as one function of its operands the three regions chain: the features after layer one, after layer
  two, and the log-probabilities.
-/
import proofs.«125315_j5282809775005_2_alg».proof.Proof.Gen.KernelIdeal.Frame
import proofs.«125315_j5282809775005_2_alg».proof.Proof.GinSpec
import Idealize.ShloMosaic.Lib.StableHlo.Run
import proofs.«125315_j5282809775005_2_alg».proof.Proof.KParams
import proofs.«125315_j5282809775005_2_alg».proof.Proof.KReg0
import proofs.«125315_j5282809775005_2_alg».proof.Proof.KReg1
import proofs.«125315_j5282809775005_2_alg».proof.Proof.KReg2

set_option maxRecDepth 16384

noncomputable section

namespace Cert.GinKernelHost

open Cert.KernelIdeal Cert.KernelIdeal.Gen Cert.GinSpec Cert.GinKernelParams
open Idealize.ShloMosaic Idealize.ShloMosaic.TcCoe Idealize.SL.Sem Idealize.ShloMosaic.StableHlo

/-- The edge list's sources and destinations, each as one flat list of node numbers. -/
def srcK (a1 : IVec S2x800000 32) : IVec S800000 32 :=
  shapeCast _ (extractStridedSlice S1x800000 ![0, 0] a1 slices_S2x800000_S1x800000_0_0) shapeCasts_S1x800000_S800000
def dstK (a1 : IVec S2x800000 32) : IVec S800000 32 :=
  shapeCast _ (extractStridedSlice S1x800000 ![1, 0] a1 slices_S2x800000_S1x800000_1_0) shapeCasts_S1x800000_S800000

/-- The neighbour aggregate: the rows of `h` gathered at the edges' sources (a negative node number counted from the
    end) and summed into the rows the edges' destinations name, from zero. -/
def aggK (h : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (extf .f32 (Host.gather gather_S50000x128_S800000x1_S800000x128_1_0_n_n_0_1_1128 (truncf .bf16 h bitsLt_bf16_f32)
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s))) bitsLt_bf16_f32)

variable (m : (ℓ : Loc nD τ sig) → Buf (Elt Ideal) ℓ) (ρ : Dev nD → PrngReg)

/-! ## The first stretch: from the launch memory -/

theorem w1_arg0 (c : Dev nD) : V1 m ρ c main_arg0 = (m ((c.tc : Thread nD τ).loc main_arg0)) := by
  show StableHlo.after hostOps0 (W0 m ρ c) (Proc.devRef .tc main_arg0) = _
  after_results
theorem w1_arg2 (c : Dev nD) : W1 m ρ c (Proc.devRef .tc main_arg2) = (m ((c.tc : Thread nD τ).loc main_arg2)) := by
  show StableHlo.after hostOps0 (W0 m ρ c) (Proc.devRef .tc main_arg2) = _
  after_results
theorem w1_arg3 (c : Dev nD) : W1 m ρ c (Proc.devRef .tc main_arg3) = (m ((c.tc : Thread nD τ).loc main_arg3)) := by
  show StableHlo.after hostOps0 (W0 m ρ c) (Proc.devRef .tc main_arg3) = _
  after_results
theorem w1_arg4 (c : Dev nD) : W1 m ρ c (Proc.devRef .tc main_arg4) = (m ((c.tc : Thread nD τ).loc main_arg4)) := by
  show StableHlo.after hostOps0 (W0 m ρ c) (Proc.devRef .tc main_arg4) = _
  after_results
theorem w1_arg5 (c : Dev nD) : W1 m ρ c (Proc.devRef .tc main_arg5) = (m ((c.tc : Thread nD τ).loc main_arg5)) := by
  show StableHlo.after hostOps0 (W0 m ρ c) (Proc.devRef .tc main_arg5) = _
  after_results
theorem w1_arg6 (c : Dev nD) : W1 m ρ c (Proc.devRef .tc main_arg6) = (m ((c.tc : Thread nD τ).loc main_arg6)) := by
  show StableHlo.after hostOps0 (W0 m ρ c) (Proc.devRef .tc main_arg6) = _
  after_results
theorem w1_arg7 (c : Dev nD) : W1 m ρ c (Proc.devRef .tc main_arg7) = (m ((c.tc : Thread nD τ).loc main_arg7)) := by
  show StableHlo.after hostOps0 (W0 m ρ c) (Proc.devRef .tc main_arg7) = _
  after_results
theorem w1_arg8 (c : Dev nD) : W1 m ρ c (Proc.devRef .tc main_arg8) = (m ((c.tc : Thread nD τ).loc main_arg8)) := by
  show StableHlo.after hostOps0 (W0 m ρ c) (Proc.devRef .tc main_arg8) = _
  after_results
theorem w1_arg9 (c : Dev nD) : W1 m ρ c (Proc.devRef .tc main_arg9) = (m ((c.tc : Thread nD τ).loc main_arg9)) := by
  show StableHlo.after hostOps0 (W0 m ρ c) (Proc.devRef .tc main_arg9) = _
  after_results
theorem w1_arg10 (c : Dev nD) : W1 m ρ c (Proc.devRef .tc main_arg10) = (m ((c.tc : Thread nD τ).loc main_arg10)) := by
  show StableHlo.after hostOps0 (W0 m ρ c) (Proc.devRef .tc main_arg10) = _
  after_results
theorem w1_arg11 (c : Dev nD) : W1 m ρ c (Proc.devRef .tc main_arg11) = (m ((c.tc : Thread nD τ).loc main_arg11)) := by
  show StableHlo.after hostOps0 (W0 m ρ c) (Proc.devRef .tc main_arg11) = _
  after_results
theorem w1_arg12 (c : Dev nD) : W1 m ρ c (Proc.devRef .tc main_arg12) = (m ((c.tc : Thread nD τ).loc main_arg12)) := by
  show StableHlo.after hostOps0 (W0 m ρ c) (Proc.devRef .tc main_arg12) = _
  after_results
theorem w1_arg13 (c : Dev nD) : W1 m ρ c (Proc.devRef .tc main_arg13) = (m ((c.tc : Thread nD τ).loc main_arg13)) := by
  show StableHlo.after hostOps0 (W0 m ρ c) (Proc.devRef .tc main_arg13) = _
  after_results
theorem w1_v1 (c : Dev nD) : W1 m ρ c (Proc.devRef .tc main_v1) = srcK (m ((c.tc : Thread nD τ).loc main_arg1)) := by
  show StableHlo.after hostOps0 (W0 m ρ c) (Proc.devRef .tc main_v1) = _
  after_results
  rfl
theorem w1_v3 (c : Dev nD) : W1 m ρ c (Proc.devRef .tc main_v3) = dstK (m ((c.tc : Thread nD τ).loc main_arg1)) := by
  show StableHlo.after hostOps0 (W0 m ρ c) (Proc.devRef .tc main_v3) = _
  after_results
  rfl

set_option maxHeartbeats 4000000 in
theorem e0_v15 (c : Dev nD) : V1 m ρ c main_v15 = aggK (m ((c.tc : Thread nD τ).loc main_arg0)) (srcK (m ((c.tc : Thread nD τ).loc main_arg1))) (dstK (m ((c.tc : Thread nD τ).loc main_arg1))) := by
  show StableHlo.after hostOps0 (W0 m ρ c) (Proc.devRef .tc main_v15) = _
  after_results_simp
  rfl
set_option maxHeartbeats 4000000 in
theorem e0_v34 (c : Dev nD) : V1 m ρ c main_v34 = w1pK0 (m ((c.tc : Thread nD τ).loc main_arg2)) (m ((c.tc : Thread nD τ).loc main_arg4)) (m ((c.tc : Thread nD τ).loc main_arg7)) := by
  show StableHlo.after hostOps0 (W0 m ρ c) (Proc.devRef .tc main_v34) = _
  after_results_simp
  rfl
set_option maxHeartbeats 4000000 in
theorem e0_v38 (c : Dev nD) : V1 m ρ c main_v38 = b1pK0 (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps0 (W0 m ρ c) (Proc.devRef .tc main_v38) = _
  after_results_simp
  rfl
set_option maxHeartbeats 4000000 in
theorem e0_v40 (c : Dev nD) : V1 m ρ c main_v40 = w2K0 (m ((c.tc : Thread nD τ).loc main_arg8)) := by
  show StableHlo.after hostOps0 (W0 m ρ c) (Proc.devRef .tc main_v40) = _
  after_results_simp
  rfl
set_option maxHeartbeats 4000000 in
theorem e0_v43 (c : Dev nD) : V1 m ρ c main_v43 = b2K0 (m ((c.tc : Thread nD τ).loc main_arg9)) := by
  show StableHlo.after hostOps0 (W0 m ρ c) (Proc.devRef .tc main_v43) = _
  after_results_simp
  rfl

/-- The features after the first layer. -/
def hK1 (a0 : FVec Ideal S50000x128 .f32) (a1 : IVec S2x800000 32) (a2 : FVec Ideal S3x128x128 .f32) (a3 a4 a5 a6 a7 : FVec Ideal S3x128 .f32)
    (a8 : FVec Ideal S3x128x128 .f32) (a9 : FVec Ideal S3x128 .f32) : S50000x128.Idx → EReal :=
  Cert.GinKernelReg0.G (aggK a0 (srcK a1) (dstK a1)) a0 (w1pK0 a2 a4 a7) (b1pK0 a3 a4 a5 a6 a7) (w2K0 a8) (b2K0 a9)

/-- Region 0 leaves the first layer's output in its output array. -/
theorem w2_v44 (c : Dev nD) : W2 m ρ c (Proc.devRef .tc main_v44) = hK1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W2_arr m ρ c 6).trans ?_
  rw [Cert.GinKernelReg0.final (V1 m ρ) c, e0_v15, w1_arg0, e0_v34, e0_v38, e0_v40, e0_v43]
  rfl

/-! ## The second stretch: from region 0's exit -/
theorem w2_arg2 (c : Dev nD) : W2 m ρ c (Proc.devRef .tc main_arg2) = (m ((c.tc : Thread nD τ).loc main_arg2)) :=
  (W2_of_ne m ρ c main_arg2 (by decide)).trans (w1_arg2 m ρ c)
theorem w2_arg3 (c : Dev nD) : W2 m ρ c (Proc.devRef .tc main_arg3) = (m ((c.tc : Thread nD τ).loc main_arg3)) :=
  (W2_of_ne m ρ c main_arg3 (by decide)).trans (w1_arg3 m ρ c)
theorem w2_arg4 (c : Dev nD) : W2 m ρ c (Proc.devRef .tc main_arg4) = (m ((c.tc : Thread nD τ).loc main_arg4)) :=
  (W2_of_ne m ρ c main_arg4 (by decide)).trans (w1_arg4 m ρ c)
theorem w2_arg5 (c : Dev nD) : W2 m ρ c (Proc.devRef .tc main_arg5) = (m ((c.tc : Thread nD τ).loc main_arg5)) :=
  (W2_of_ne m ρ c main_arg5 (by decide)).trans (w1_arg5 m ρ c)
theorem w2_arg6 (c : Dev nD) : W2 m ρ c (Proc.devRef .tc main_arg6) = (m ((c.tc : Thread nD τ).loc main_arg6)) :=
  (W2_of_ne m ρ c main_arg6 (by decide)).trans (w1_arg6 m ρ c)
theorem w2_arg7 (c : Dev nD) : W2 m ρ c (Proc.devRef .tc main_arg7) = (m ((c.tc : Thread nD τ).loc main_arg7)) :=
  (W2_of_ne m ρ c main_arg7 (by decide)).trans (w1_arg7 m ρ c)
theorem w2_arg8 (c : Dev nD) : W2 m ρ c (Proc.devRef .tc main_arg8) = (m ((c.tc : Thread nD τ).loc main_arg8)) :=
  (W2_of_ne m ρ c main_arg8 (by decide)).trans (w1_arg8 m ρ c)
theorem w2_arg9 (c : Dev nD) : W2 m ρ c (Proc.devRef .tc main_arg9) = (m ((c.tc : Thread nD τ).loc main_arg9)) :=
  (W2_of_ne m ρ c main_arg9 (by decide)).trans (w1_arg9 m ρ c)
theorem w2_arg10 (c : Dev nD) : W2 m ρ c (Proc.devRef .tc main_arg10) = (m ((c.tc : Thread nD τ).loc main_arg10)) :=
  (W2_of_ne m ρ c main_arg10 (by decide)).trans (w1_arg10 m ρ c)
theorem w2_arg11 (c : Dev nD) : W2 m ρ c (Proc.devRef .tc main_arg11) = (m ((c.tc : Thread nD τ).loc main_arg11)) :=
  (W2_of_ne m ρ c main_arg11 (by decide)).trans (w1_arg11 m ρ c)
theorem w2_arg12 (c : Dev nD) : W2 m ρ c (Proc.devRef .tc main_arg12) = (m ((c.tc : Thread nD τ).loc main_arg12)) :=
  (W2_of_ne m ρ c main_arg12 (by decide)).trans (w1_arg12 m ρ c)
theorem w2_arg13 (c : Dev nD) : W2 m ρ c (Proc.devRef .tc main_arg13) = (m ((c.tc : Thread nD τ).loc main_arg13)) :=
  (W2_of_ne m ρ c main_arg13 (by decide)).trans (w1_arg13 m ρ c)
theorem w2_v1 (c : Dev nD) : W2 m ρ c (Proc.devRef .tc main_v1) = srcK (m ((c.tc : Thread nD τ).loc main_arg1)) :=
  (W2_of_ne m ρ c main_v1 (by decide)).trans (w1_v1 m ρ c)
theorem w2_v3 (c : Dev nD) : W2 m ρ c (Proc.devRef .tc main_v3) = dstK (m ((c.tc : Thread nD τ).loc main_arg1)) :=
  (W2_of_ne m ρ c main_v3 (by decide)).trans (w1_v3 m ρ c)
theorem w3_arg2 (c : Dev nD) : W3 m ρ c (Proc.devRef .tc main_arg2) = (m ((c.tc : Thread nD τ).loc main_arg2)) := by
  refine Eq.trans ?_ (w2_arg2 m ρ c)
  show StableHlo.after hostOps1 (W2 m ρ c) (Proc.devRef .tc main_arg2) = _
  after_results
theorem w3_arg3 (c : Dev nD) : W3 m ρ c (Proc.devRef .tc main_arg3) = (m ((c.tc : Thread nD τ).loc main_arg3)) := by
  refine Eq.trans ?_ (w2_arg3 m ρ c)
  show StableHlo.after hostOps1 (W2 m ρ c) (Proc.devRef .tc main_arg3) = _
  after_results
theorem w3_arg4 (c : Dev nD) : W3 m ρ c (Proc.devRef .tc main_arg4) = (m ((c.tc : Thread nD τ).loc main_arg4)) := by
  refine Eq.trans ?_ (w2_arg4 m ρ c)
  show StableHlo.after hostOps1 (W2 m ρ c) (Proc.devRef .tc main_arg4) = _
  after_results
theorem w3_arg5 (c : Dev nD) : W3 m ρ c (Proc.devRef .tc main_arg5) = (m ((c.tc : Thread nD τ).loc main_arg5)) := by
  refine Eq.trans ?_ (w2_arg5 m ρ c)
  show StableHlo.after hostOps1 (W2 m ρ c) (Proc.devRef .tc main_arg5) = _
  after_results
theorem w3_arg6 (c : Dev nD) : W3 m ρ c (Proc.devRef .tc main_arg6) = (m ((c.tc : Thread nD τ).loc main_arg6)) := by
  refine Eq.trans ?_ (w2_arg6 m ρ c)
  show StableHlo.after hostOps1 (W2 m ρ c) (Proc.devRef .tc main_arg6) = _
  after_results
theorem w3_arg7 (c : Dev nD) : W3 m ρ c (Proc.devRef .tc main_arg7) = (m ((c.tc : Thread nD τ).loc main_arg7)) := by
  refine Eq.trans ?_ (w2_arg7 m ρ c)
  show StableHlo.after hostOps1 (W2 m ρ c) (Proc.devRef .tc main_arg7) = _
  after_results
theorem w3_arg8 (c : Dev nD) : W3 m ρ c (Proc.devRef .tc main_arg8) = (m ((c.tc : Thread nD τ).loc main_arg8)) := by
  refine Eq.trans ?_ (w2_arg8 m ρ c)
  show StableHlo.after hostOps1 (W2 m ρ c) (Proc.devRef .tc main_arg8) = _
  after_results
theorem w3_arg9 (c : Dev nD) : W3 m ρ c (Proc.devRef .tc main_arg9) = (m ((c.tc : Thread nD τ).loc main_arg9)) := by
  refine Eq.trans ?_ (w2_arg9 m ρ c)
  show StableHlo.after hostOps1 (W2 m ρ c) (Proc.devRef .tc main_arg9) = _
  after_results
theorem w3_arg10 (c : Dev nD) : W3 m ρ c (Proc.devRef .tc main_arg10) = (m ((c.tc : Thread nD τ).loc main_arg10)) := by
  refine Eq.trans ?_ (w2_arg10 m ρ c)
  show StableHlo.after hostOps1 (W2 m ρ c) (Proc.devRef .tc main_arg10) = _
  after_results
theorem w3_arg11 (c : Dev nD) : W3 m ρ c (Proc.devRef .tc main_arg11) = (m ((c.tc : Thread nD τ).loc main_arg11)) := by
  refine Eq.trans ?_ (w2_arg11 m ρ c)
  show StableHlo.after hostOps1 (W2 m ρ c) (Proc.devRef .tc main_arg11) = _
  after_results
theorem w3_arg12 (c : Dev nD) : W3 m ρ c (Proc.devRef .tc main_arg12) = (m ((c.tc : Thread nD τ).loc main_arg12)) := by
  refine Eq.trans ?_ (w2_arg12 m ρ c)
  show StableHlo.after hostOps1 (W2 m ρ c) (Proc.devRef .tc main_arg12) = _
  after_results
theorem w3_arg13 (c : Dev nD) : W3 m ρ c (Proc.devRef .tc main_arg13) = (m ((c.tc : Thread nD τ).loc main_arg13)) := by
  refine Eq.trans ?_ (w2_arg13 m ρ c)
  show StableHlo.after hostOps1 (W2 m ρ c) (Proc.devRef .tc main_arg13) = _
  after_results
theorem w3_v1 (c : Dev nD) : W3 m ρ c (Proc.devRef .tc main_v1) = srcK (m ((c.tc : Thread nD τ).loc main_arg1)) := by
  refine Eq.trans ?_ (w2_v1 m ρ c)
  show StableHlo.after hostOps1 (W2 m ρ c) (Proc.devRef .tc main_v1) = _
  after_results
theorem w3_v3 (c : Dev nD) : W3 m ρ c (Proc.devRef .tc main_v3) = dstK (m ((c.tc : Thread nD τ).loc main_arg1)) := by
  refine Eq.trans ?_ (w2_v3 m ρ c)
  show StableHlo.after hostOps1 (W2 m ρ c) (Proc.devRef .tc main_v3) = _
  after_results

theorem w3_h (c : Dev nD) : V3 m ρ c main_v44 = W2 m ρ c (Proc.devRef .tc main_v44) := by
  show StableHlo.after hostOps1 (W2 m ρ c) (Proc.devRef .tc main_v44) = _
  after_results
set_option maxHeartbeats 4000000 in
theorem e1_agg (c : Dev nD) : V3 m ρ c main_v56 = aggK (W2 m ρ c (Proc.devRef .tc main_v44)) (W2 m ρ c (Proc.devRef .tc main_v1)) (W2 m ρ c (Proc.devRef .tc main_v3)) := by
  show StableHlo.after hostOps1 (W2 m ρ c) (Proc.devRef .tc main_v56) = _
  after_results_simp
  rfl
set_option maxHeartbeats 4000000 in
theorem e1_w1p (c : Dev nD) : V3 m ρ c main_v75 = w1pK1 (W2 m ρ c (Proc.devRef .tc main_arg2)) (W2 m ρ c (Proc.devRef .tc main_arg4)) (W2 m ρ c (Proc.devRef .tc main_arg7)) := by
  show StableHlo.after hostOps1 (W2 m ρ c) (Proc.devRef .tc main_v75) = _
  after_results_simp
  rfl
set_option maxHeartbeats 4000000 in
theorem e1_b1p (c : Dev nD) : V3 m ρ c main_v79 = b1pK1 (W2 m ρ c (Proc.devRef .tc main_arg3)) (W2 m ρ c (Proc.devRef .tc main_arg4)) (W2 m ρ c (Proc.devRef .tc main_arg5)) (W2 m ρ c (Proc.devRef .tc main_arg6)) (W2 m ρ c (Proc.devRef .tc main_arg7)) := by
  show StableHlo.after hostOps1 (W2 m ρ c) (Proc.devRef .tc main_v79) = _
  after_results_simp
  rfl
set_option maxHeartbeats 4000000 in
theorem e1_w2 (c : Dev nD) : V3 m ρ c main_v81 = w2K1 (W2 m ρ c (Proc.devRef .tc main_arg8)) := by
  show StableHlo.after hostOps1 (W2 m ρ c) (Proc.devRef .tc main_v81) = _
  after_results_simp
  rfl
set_option maxHeartbeats 4000000 in
theorem e1_b2 (c : Dev nD) : V3 m ρ c main_v84 = b2K1 (W2 m ρ c (Proc.devRef .tc main_arg9)) := by
  show StableHlo.after hostOps1 (W2 m ρ c) (Proc.devRef .tc main_v84) = _
  after_results_simp
  rfl

/-- The features after the second layer. -/
def hK2 (a0 : FVec Ideal S50000x128 .f32) (a1 : IVec S2x800000 32) (a2 : FVec Ideal S3x128x128 .f32) (a3 a4 a5 a6 a7 : FVec Ideal S3x128 .f32)
    (a8 : FVec Ideal S3x128x128 .f32) (a9 : FVec Ideal S3x128 .f32) : S50000x128.Idx → EReal :=
  Cert.GinKernelReg1.G (aggK (hK1 a0 a1 a2 a3 a4 a5 a6 a7 a8 a9) (srcK a1) (dstK a1)) (hK1 a0 a1 a2 a3 a4 a5 a6 a7 a8 a9)
    (w1pK1 a2 a4 a7) (b1pK1 a3 a4 a5 a6 a7) (w2K1 a8) (b2K1 a9)

/-- Region 1 leaves the second layer's output in its output array. -/
theorem w4_v85 (c : Dev nD) : W4 m ρ c (Proc.devRef .tc main_v85) = hK2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 6).trans ?_
  rw [Cert.GinKernelReg1.final (V3 m ρ) c, e1_agg, w3_h, e1_w1p, e1_b1p, e1_w2, e1_b2, w2_v44, w2_v1, w2_v3, w2_arg2, w2_arg3, w2_arg4,
    w2_arg5, w2_arg6, w2_arg7, w2_arg8, w2_arg9]
  rfl

/-! ## The third stretch: from region 1's exit -/
theorem w4_arg2 (c : Dev nD) : W4 m ρ c (Proc.devRef .tc main_arg2) = (m ((c.tc : Thread nD τ).loc main_arg2)) :=
  (W4_of_ne m ρ c main_arg2 (by decide)).trans (w3_arg2 m ρ c)
theorem w4_arg3 (c : Dev nD) : W4 m ρ c (Proc.devRef .tc main_arg3) = (m ((c.tc : Thread nD τ).loc main_arg3)) :=
  (W4_of_ne m ρ c main_arg3 (by decide)).trans (w3_arg3 m ρ c)
theorem w4_arg4 (c : Dev nD) : W4 m ρ c (Proc.devRef .tc main_arg4) = (m ((c.tc : Thread nD τ).loc main_arg4)) :=
  (W4_of_ne m ρ c main_arg4 (by decide)).trans (w3_arg4 m ρ c)
theorem w4_arg5 (c : Dev nD) : W4 m ρ c (Proc.devRef .tc main_arg5) = (m ((c.tc : Thread nD τ).loc main_arg5)) :=
  (W4_of_ne m ρ c main_arg5 (by decide)).trans (w3_arg5 m ρ c)
theorem w4_arg6 (c : Dev nD) : W4 m ρ c (Proc.devRef .tc main_arg6) = (m ((c.tc : Thread nD τ).loc main_arg6)) :=
  (W4_of_ne m ρ c main_arg6 (by decide)).trans (w3_arg6 m ρ c)
theorem w4_arg7 (c : Dev nD) : W4 m ρ c (Proc.devRef .tc main_arg7) = (m ((c.tc : Thread nD τ).loc main_arg7)) :=
  (W4_of_ne m ρ c main_arg7 (by decide)).trans (w3_arg7 m ρ c)
theorem w4_arg8 (c : Dev nD) : W4 m ρ c (Proc.devRef .tc main_arg8) = (m ((c.tc : Thread nD τ).loc main_arg8)) :=
  (W4_of_ne m ρ c main_arg8 (by decide)).trans (w3_arg8 m ρ c)
theorem w4_arg9 (c : Dev nD) : W4 m ρ c (Proc.devRef .tc main_arg9) = (m ((c.tc : Thread nD τ).loc main_arg9)) :=
  (W4_of_ne m ρ c main_arg9 (by decide)).trans (w3_arg9 m ρ c)
theorem w4_arg10 (c : Dev nD) : W4 m ρ c (Proc.devRef .tc main_arg10) = (m ((c.tc : Thread nD τ).loc main_arg10)) :=
  (W4_of_ne m ρ c main_arg10 (by decide)).trans (w3_arg10 m ρ c)
theorem w4_arg11 (c : Dev nD) : W4 m ρ c (Proc.devRef .tc main_arg11) = (m ((c.tc : Thread nD τ).loc main_arg11)) :=
  (W4_of_ne m ρ c main_arg11 (by decide)).trans (w3_arg11 m ρ c)
theorem w4_arg12 (c : Dev nD) : W4 m ρ c (Proc.devRef .tc main_arg12) = (m ((c.tc : Thread nD τ).loc main_arg12)) :=
  (W4_of_ne m ρ c main_arg12 (by decide)).trans (w3_arg12 m ρ c)
theorem w4_arg13 (c : Dev nD) : W4 m ρ c (Proc.devRef .tc main_arg13) = (m ((c.tc : Thread nD τ).loc main_arg13)) :=
  (W4_of_ne m ρ c main_arg13 (by decide)).trans (w3_arg13 m ρ c)
theorem w4_v1 (c : Dev nD) : W4 m ρ c (Proc.devRef .tc main_v1) = srcK (m ((c.tc : Thread nD τ).loc main_arg1)) :=
  (W4_of_ne m ρ c main_v1 (by decide)).trans (w3_v1 m ρ c)
theorem w4_v3 (c : Dev nD) : W4 m ρ c (Proc.devRef .tc main_v3) = dstK (m ((c.tc : Thread nD τ).loc main_arg1)) :=
  (W4_of_ne m ρ c main_v3 (by decide)).trans (w3_v3 m ρ c)

theorem w5_h (c : Dev nD) : V5 m ρ c main_v85 = W4 m ρ c (Proc.devRef .tc main_v85) := by
  show StableHlo.after hostOps2 (W4 m ρ c) (Proc.devRef .tc main_v85) = _
  after_results
set_option maxHeartbeats 4000000 in
theorem e2_agg (c : Dev nD) : V5 m ρ c main_v97 = aggK (W4 m ρ c (Proc.devRef .tc main_v85)) (W4 m ρ c (Proc.devRef .tc main_v1)) (W4 m ρ c (Proc.devRef .tc main_v3)) := by
  show StableHlo.after hostOps2 (W4 m ρ c) (Proc.devRef .tc main_v97) = _
  after_results_simp
  rfl
set_option maxHeartbeats 4000000 in
theorem e2_w1p (c : Dev nD) : V5 m ρ c main_v116 = w1pK2 (W4 m ρ c (Proc.devRef .tc main_arg2)) (W4 m ρ c (Proc.devRef .tc main_arg4)) (W4 m ρ c (Proc.devRef .tc main_arg7)) := by
  show StableHlo.after hostOps2 (W4 m ρ c) (Proc.devRef .tc main_v116) = _
  after_results_simp
  rfl
set_option maxHeartbeats 4000000 in
theorem e2_b1p (c : Dev nD) : V5 m ρ c main_v120 = b1pK2 (W4 m ρ c (Proc.devRef .tc main_arg3)) (W4 m ρ c (Proc.devRef .tc main_arg4)) (W4 m ρ c (Proc.devRef .tc main_arg5)) (W4 m ρ c (Proc.devRef .tc main_arg6)) (W4 m ρ c (Proc.devRef .tc main_arg7)) := by
  show StableHlo.after hostOps2 (W4 m ρ c) (Proc.devRef .tc main_v120) = _
  after_results_simp
  rfl
set_option maxHeartbeats 4000000 in
theorem e2_w2 (c : Dev nD) : V5 m ρ c main_v122 = w2K2 (W4 m ρ c (Proc.devRef .tc main_arg8)) := by
  show StableHlo.after hostOps2 (W4 m ρ c) (Proc.devRef .tc main_v122) = _
  after_results_simp
  rfl
set_option maxHeartbeats 4000000 in
theorem e2_b2 (c : Dev nD) : V5 m ρ c main_v125 = b2K2 (W4 m ρ c (Proc.devRef .tc main_arg9)) := by
  show StableHlo.after hostOps2 (W4 m ρ c) (Proc.devRef .tc main_v125) = _
  after_results_simp
  rfl

theorem e2_lw1 (c : Dev nD) : V5 m ρ c main_arg10 = W4 m ρ c (Proc.devRef .tc main_arg10) := by
  show StableHlo.after hostOps2 (W4 m ρ c) (Proc.devRef .tc main_arg10) = _
  after_results
theorem e2_lw2 (c : Dev nD) : V5 m ρ c main_arg12 = W4 m ρ c (Proc.devRef .tc main_arg12) := by
  show StableHlo.after hostOps2 (W4 m ρ c) (Proc.devRef .tc main_arg12) = _
  after_results
theorem e2_lb1 (c : Dev nD) : V5 m ρ c main_v126 = lb1K (W4 m ρ c (Proc.devRef .tc main_arg11)) := by
  show StableHlo.after hostOps2 (W4 m ρ c) (Proc.devRef .tc main_v126) = _
  after_results
  rfl
theorem e2_lb2 (c : Dev nD) : V5 m ρ c main_v127 = lb2K (W4 m ρ c (Proc.devRef .tc main_arg13)) := by
  show StableHlo.after hostOps2 (W4 m ρ c) (Proc.devRef .tc main_v127) = _
  after_results
  rfl

/-- The log-probabilities: the third layer and the head on the features after the second layer. -/
def outK (a0 : FVec Ideal S50000x128 .f32) (a1 : IVec S2x800000 32) (a2 : FVec Ideal S3x128x128 .f32) (a3 a4 a5 a6 a7 : FVec Ideal S3x128 .f32)
    (a8 : FVec Ideal S3x128x128 .f32) (a9 : FVec Ideal S3x128 .f32) (a10 : FVec Ideal S128x128 .f32) (a11 : FVec Ideal S128 .f32)
    (a12 : FVec Ideal S128x47 .f32) (a13 : FVec Ideal S47 .f32) : S50000x47.Idx → EReal :=
  Cert.GinKernelReg2.G (aggK (hK2 a0 a1 a2 a3 a4 a5 a6 a7 a8 a9) (srcK a1) (dstK a1)) (hK2 a0 a1 a2 a3 a4 a5 a6 a7 a8 a9)
    (w1pK2 a2 a4 a7) (b1pK2 a3 a4 a5 a6 a7) (w2K2 a8) (b2K2 a9) a10 (lb1K a11) a12 (lb2K a13)

/-- THE RESULT BUFFER at the last boundary: the log-probabilities as one term of the program's arguments. -/
theorem kernel_value (c : Dev nD) : W6 m ρ c (Proc.devRef .tc main_v128) = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W6_arr m ρ c 10).trans ?_
  rw [Cert.GinKernelReg2.final (V5 m ρ) c, e2_agg, w5_h, e2_w1p, e2_b1p, e2_w2, e2_b2, e2_lw1, e2_lb1, e2_lw2, e2_lb2, w4_v85, w4_v1, w4_v3,
    w4_arg2, w4_arg3, w4_arg4, w4_arg5, w4_arg6, w4_arg7, w4_arg8, w4_arg9, w4_arg10, w4_arg11, w4_arg12, w4_arg13]
  rfl

end Cert.GinKernelHost

end
-- ==== Proof.PreFacts.lean ====
/-
  What the precondition says, entry by entry.

  The precondition is a conjunction of fourteen reductions by `and`: for each of the thirteen float arrays, that every
  entry `x` has `max x (-x) < +∞`; and for the running variance, that every entry is `≥ 0`. On the extended reals
  `max x (-x) < ⊤` excludes both infinities, so the entry is a real.
-/
import Idealize.ShloMosaic.Lib.ValueIdx
import Idealize.ShloMosaic.Lib.ReduceAll
import Idealize.ShloMosaic.PureOps.Ideal.Laws
import proofs.«125315_j5282809775005_2_alg».proof.Pre_finite_inputs
import proofs.«125315_j5282809775005_2_alg».proof.Proof.GinSpec

noncomputable section

namespace Cert.GinPre

open Cert.Pre_finite_inputs Cert.GinSpec Idealize.ShloMosaic

/-- The rank-0 shape has one index. -/
instance : Subsingleton S_.Idx := ⟨fun a b => funext fun d => d.elim0⟩

/-- The pattern `0x7F800000` denotes `+∞`. -/
theorem ofBits_inf : Ideal.ofBits .f32 0x7F800000#32 = (⊤ : EReal) := by simp [Ideal.ofBits, Ideal.ieee]

/-- The pattern `0x00000000` denotes `0`. -/
theorem ofBits_zero : Ideal.ofBits .f32 0x00000000#32 = (0 : EReal) := by simp [Ideal.ofBits, Ideal.ieee]

/-- `max x (-x) < +∞` excludes both infinities. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- `x ≥ 0` as a comparison word. -/
theorem nonneg_of_ge (x : EReal)
    (h : Ideal.cmp .oge x (Ideal.ofBits .f32 0x00000000#32) = 1#1) : (0 : EReal) ≤ x := by
  rw [ofBits_zero] at h
  by_contra hx
  simp [Ideal.cmp, hx] at h

/-- A reduction by `and` over all axes of `|x| < +∞` that is 1 makes every entry of `x` a real. -/
theorem all_finite {s : Shape} {axes : List (Fin s.rank)} (x : FVec Ideal s .f32)
    (dims : Fin S_.rank → Fin s.rank) (hb : S_.BroadcastsInDim s dims) (hr : s.ReducesTo axes S_) (hu : 0 < S_.numel)
    (init : IVec S_ 1) (j : S_.Idx)
    (e : Host.reduce IntOp.andi
          (cmpf .olt (Host.absf x) (broadcastInDim s dims hb (constant (F := Ideal) S_ .f32 0x7F800000#32))) init hr hu j = 1#1) :
    ∀ i, IsReal (x i) := fun i =>
  isReal_of_abs_lt (x i) (Host.reduce_andi_all _ init hr hu j e i)

/-- A reduction by `and` over all axes of `x ≥ 0` that is 1 makes every entry of `x` nonnegative. -/
theorem all_nonneg {s : Shape} {axes : List (Fin s.rank)} (x : FVec Ideal s .f32)
    (dims : Fin S_.rank → Fin s.rank) (hb : S_.BroadcastsInDim s dims) (hr : s.ReducesTo axes S_) (hu : 0 < S_.numel)
    (init : IVec S_ 1) (j : S_.Idx)
    (e : Host.reduce IntOp.andi
          (cmpf .oge x (broadcastInDim s dims hb (constant (F := Ideal) S_ .f32 0x00000000#32))) init hr hu j = 1#1) :
    ∀ i, (0 : EReal) ≤ x i := fun i =>
  nonneg_of_ge (x i) (Host.reduce_andi_all _ init hr hu j e i)

/-- THE PRECONDITION DECODED: every float entry is a real, and the running variance is nonnegative. -/
theorem pre_facts [Cert.Pre_finite_inputs.Facts]
    (a0 : FVec Ideal S50000x128 .f32) (a1 : IVec S2x800000 32) (a2 : FVec Ideal S3x128x128 .f32)
    (a3 a4 a5 a6 a7 : FVec Ideal S3x128 .f32) (a8 : FVec Ideal S3x128x128 .f32) (a9 : FVec Ideal S3x128 .f32)
    (a10 : FVec Ideal S128x128 .f32) (a11 : FVec Ideal S128 .f32) (a12 : FVec Ideal S128x47 .f32) (a13 : FVec Ideal S47 .f32)
    (h : Cert.Pre_finite_inputs.fn (F := Ideal) a0 a1 a2 a3 a4 a5 a6 a7 a8 a9 a10 a11 a12 a13 = (fun _ => 1#1)) :
    (∀ i, IsReal (a0 i)) ∧ (∀ i, IsReal (a2 i)) ∧ (∀ i, IsReal (a3 i)) ∧ (∀ i, IsReal (a4 i)) ∧ (∀ i, IsReal (a5 i))
    ∧ (∀ i, IsReal (a6 i)) ∧ (∀ i, IsReal (a7 i)) ∧ (∀ i, IsReal (a8 i)) ∧ (∀ i, IsReal (a9 i)) ∧ (∀ i, IsReal (a10 i))
    ∧ (∀ i, IsReal (a11 i)) ∧ (∀ i, IsReal (a12 i)) ∧ (∀ i, IsReal (a13 i)) ∧ (∀ i, (0 : EReal) ≤ a7 i) := by
  have e := congrFun h ValueIdx.ix0
  dsimp only [fn, fn_part1, fn_part2, fn_part3] at e
  simp only [andi, IntOp.andi_eq_one] at e
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := e
  exact ⟨all_finite a0 _ _ _ _ _ _ e0, all_finite a2 _ _ _ _ _ _ e2, all_finite a3 _ _ _ _ _ _ e3,
    all_finite a4 _ _ _ _ _ _ e4, all_finite a5 _ _ _ _ _ _ e5, all_finite a6 _ _ _ _ _ _ e6,
    all_finite a7 _ _ _ _ _ _ e7, all_finite a8 _ _ _ _ _ _ e8, all_finite a9 _ _ _ _ _ _ e9,
    all_finite a10 _ _ _ _ _ _ e10, all_finite a11 _ _ _ _ _ _ e11, all_finite a12 _ _ _ _ _ _ e12,
    all_finite a13 _ _ _ _ _ _ e13, all_nonneg a7 _ _ _ _ _ _ e14⟩

end Cert.GinPre

end
-- ==== Proof.RefSegs.lean ====
/-
  The reference program's line of 210 host operations, cut into four segments where a layer's output is complete
  (after each of the three layers; the head is the fourth), and what every segment leaves untouched: the program's
  arguments, and the two flat index lists once the first segment has written them.
-/
import proofs.«125315_j5282809775005_2_alg».proof.Proof.RefRunP
import proofs.«125315_j5282809775005_2_alg».proof.Proof.RefReadP

set_option maxRecDepth 16384

noncomputable section

namespace Cert.GinRefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 40000000 in
/-- Operations 1 … 64 of the reference's @main. -/
abbrev seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v13 main_arg0 main_v14 (addf : (⟨S50000x128, .f32⟩ : BufTy).Contents (Elt F) → (⟨S50000x128, .f32⟩ : BufTy).Contents (Elt F) → (⟨S50000x128, .f32⟩ : BufTy).Contents (Elt F)),
    unary main_arg2 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v17 main_v21 main_v22 (addf : (⟨S50000x128, .f32⟩ : BufTy).Contents (Elt F) → (⟨S50000x128, .f32⟩ : BufTy).Contents (Elt F) → (⟨S50000x128, .f32⟩ : BufTy).Contents (Elt F)),
    unary main_arg6 main_v23 ((extractStridedSlice S1x128 ![0, 0] · slices_S3x128_S1x128_0_0) : (⟨S3x128, .f32⟩ : BufTy).Contents (Elt F) → (⟨S1x128, .f32⟩ : BufTy).Contents (Elt F)),
    reshape main_v23 main_v24 rfl shapeCasts_S1x128_S128,
    unary main_v24 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v22 main_v26 main_v27 (subf : (⟨S50000x128, .f32⟩ : BufTy).Contents (Elt F) → (⟨S50000x128, .f32⟩ : BufTy).Contents (Elt F) → (⟨S50000x128, .f32⟩ : BufTy).Contents (Elt F)),
    unary main_arg7 main_v28 ((extractStridedSlice S1x128 ![0, 0] · slices_S3x128_S1x128_0_0) : (⟨S3x128, .f32⟩ : BufTy).Contents (Elt F) → (⟨S1x128, .f32⟩ : BufTy).Contents (Elt F)),
    reshape main_v28 main_v29 rfl shapeCasts_S1x128_S128,
    nullary main_cst_1 (constant S_ .f32 0x3727C5AC#32),
    unary main_cst_1 main_v30 (broadcastInDim S128 ![] bcast_S_S128 : (⟨S_, .f32⟩ : BufTy).Contents (Elt F) → (⟨S128, .f32⟩ : BufTy).Contents (Elt F)),
    binary main_v29 main_v30 main_v31 (addf : (⟨S128, .f32⟩ : BufTy).Contents (Elt F) → (⟨S128, .f32⟩ : BufTy).Contents (Elt F) → (⟨S128, .f32⟩ : BufTy).Contents (Elt F)),
    unary main_v31 main_v32 (Host.rsqrt : (⟨S128, .f32⟩ : BufTy).Contents (Elt F) → (⟨S128, .f32⟩ : BufTy).Contents (Elt F)),
    unary main_v32 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v27 main_v34 main_v35 (mulf : (⟨S50000x128, .f32⟩ : BufTy).Contents (Elt F) → (⟨S50000x128, .f32⟩ : BufTy).Contents (Elt F) → (⟨S50000x128, .f32⟩ : BufTy).Contents (Elt F)),
    unary main_arg4 main_v36 ((extractStridedSlice S1x128 ![0, 0] · slices_S3x128_S1x128_0_0) : (⟨S3x128, .f32⟩ : BufTy).Contents (Elt F) → (⟨S1x128, .f32⟩ : BufTy).Contents (Elt F)),
    reshape main_v36 main_v37 rfl shapeCasts_S1x128_S128,
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v35 main_v39 main_v40 (mulf : (⟨S50000x128, .f32⟩ : BufTy).Contents (Elt F) → (⟨S50000x128, .f32⟩ : BufTy).Contents (Elt F) → (⟨S50000x128, .f32⟩ : BufTy).Contents (Elt F)),
    unary main_arg5 main_v41 ((extractStridedSlice S1x128 ![0, 0] · slices_S3x128_S1x128_0_0) : (⟨S3x128, .f32⟩ : BufTy).Contents (Elt F) → (⟨S1x128, .f32⟩ : BufTy).Contents (Elt F)),
    reshape main_v41 main_v42 rfl shapeCasts_S1x128_S128,
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v40 main_v44 main_v45 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v45) (TRef.of (T := ⟨S50000x128, .f32⟩) main_call0_v0) (TRef.of (T := ⟨S50000x128, .f32⟩) main_v46) maximumf,
    unary main_arg8 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v47 main_v48 rfl shapeCasts_S1x128x128_S128x128,
    binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v54) (TRef.of (T := ⟨S50000x128, .f32⟩) main_call1_v0) (TRef.of (T := ⟨S50000x128, .f32⟩) main_v55) maximumf ]

set_option maxHeartbeats 40000000 in
/-- Operations 65 … 124 of the reference's @main. -/
abbrev seg1 : List (HloOp τ sig (Elt F)) :=
  [ nullary main_c_2 (constantI S_ 32 0#32),
    unary main_c_2 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v63 (broadcastInDim S50000x128 ![] bcast_S_S50000x128 : (⟨S_, .f32⟩ : BufTy).Contents (Elt F) → (⟨S50000x128, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v65 main_v55 main_v66 (addf : (⟨S50000x128, .f32⟩ : BufTy).Contents (Elt F) → (⟨S50000x128, .f32⟩ : BufTy).Contents (Elt F) → (⟨S50000x128, .f32⟩ : BufTy).Contents (Elt F)),
    unary main_arg2 main_v67 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v67 main_v68 rfl shapeCasts_S1x128x128_S128x128,
    binary main_v66 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v70 ((extractStridedSlice S1x128 ![1, 0] · slices_S3x128_S1x128_1_0) : (⟨S3x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v69 main_v73 main_v74 (addf : (⟨S50000x128, .f32⟩ : BufTy).Contents (Elt F) → (⟨S50000x128, .f32⟩ : BufTy).Contents (Elt F) → (⟨S50000x128, .f32⟩ : BufTy).Contents (Elt F)),
    unary main_arg6 main_v75 ((extractStridedSlice S1x128 ![1, 0] · slices_S3x128_S1x128_1_0) : (⟨S3x128, .f32⟩ : BufTy).Contents (Elt F) → (⟨S1x128, .f32⟩ : BufTy).Contents (Elt F)),
    reshape main_v75 main_v76 rfl shapeCasts_S1x128_S128,
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v74 main_v78 main_v79 (subf : (⟨S50000x128, .f32⟩ : BufTy).Contents (Elt F) → (⟨S50000x128, .f32⟩ : BufTy).Contents (Elt F) → (⟨S50000x128, .f32⟩ : BufTy).Contents (Elt F)),
    unary main_arg7 main_v80 ((extractStridedSlice S1x128 ![1, 0] · slices_S3x128_S1x128_1_0) : (⟨S3x128, .f32⟩ : BufTy).Contents (Elt F) → (⟨S1x128, .f32⟩ : BufTy).Contents (Elt F)),
    reshape main_v80 main_v81 rfl shapeCasts_S1x128_S128,
    nullary main_cst_5 (constant S_ .f32 0x3727C5AC#32),
    unary main_cst_5 main_v82 (broadcastInDim S128 ![] bcast_S_S128 : (⟨S_, .f32⟩ : BufTy).Contents (Elt F) → (⟨S128, .f32⟩ : BufTy).Contents (Elt F)),
    binary main_v81 main_v82 main_v83 (addf : (⟨S128, .f32⟩ : BufTy).Contents (Elt F) → (⟨S128, .f32⟩ : BufTy).Contents (Elt F) → (⟨S128, .f32⟩ : BufTy).Contents (Elt F)),
    unary main_v83 main_v84 (Host.rsqrt : (⟨S128, .f32⟩ : BufTy).Contents (Elt F) → (⟨S128, .f32⟩ : BufTy).Contents (Elt F)),
    unary main_v84 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v79 main_v86 main_v87 (mulf : (⟨S50000x128, .f32⟩ : BufTy).Contents (Elt F) → (⟨S50000x128, .f32⟩ : BufTy).Contents (Elt F) → (⟨S50000x128, .f32⟩ : BufTy).Contents (Elt F)),
    unary main_arg4 main_v88 ((extractStridedSlice S1x128 ![1, 0] · slices_S3x128_S1x128_1_0) : (⟨S3x128, .f32⟩ : BufTy).Contents (Elt F) → (⟨S1x128, .f32⟩ : BufTy).Contents (Elt F)),
    reshape main_v88 main_v89 rfl shapeCasts_S1x128_S128,
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v87 main_v91 main_v92 (mulf : (⟨S50000x128, .f32⟩ : BufTy).Contents (Elt F) → (⟨S50000x128, .f32⟩ : BufTy).Contents (Elt F) → (⟨S50000x128, .f32⟩ : BufTy).Contents (Elt F)),
    unary main_arg5 main_v93 ((extractStridedSlice S1x128 ![1, 0] · slices_S3x128_S1x128_1_0) : (⟨S3x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v92 main_v96 main_v97 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v97) (TRef.of (T := ⟨S50000x128, .f32⟩) main_call2_v0) (TRef.of (T := ⟨S50000x128, .f32⟩) main_v98) maximumf,
    unary main_arg8 main_v99 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v99 main_v100 rfl shapeCasts_S1x128x128_S128x128,
    binary main_v98 main_v100 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v102 ((extractStridedSlice S1x128 ![1, 0] · slices_S3x128_S1x128_1_0) : (⟨S3x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v101 main_v105 main_v106 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v106) (TRef.of (T := ⟨S50000x128, .f32⟩) main_call3_v0) (TRef.of (T := ⟨S50000x128, .f32⟩) main_v107) maximumf ]

set_option maxHeartbeats 40000000 in
/-- Operations 125 … 184 of the reference's @main. -/
abbrev seg2 : List (HloOp τ sig (Elt F)) :=
  [ nullary main_c_6 (constantI S_ 32 0#32),
    unary main_c_6 main_v108 (broadcastInDim S800000 ![] bcast_S_S800000 : (⟨S_, .i32⟩ : BufTy).Contents (Elt F) → (⟨S800000, .i32⟩ : BufTy).Contents (Elt F)),
    binary main_v1 main_v108 main_v109 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v110 (broadcastInDim S800000 ![] bcast_S_S800000 : (⟨S_, .i32⟩ : BufTy).Contents (Elt F) → (⟨S800000, .i32⟩ : BufTy).Contents (Elt F)),
    binary main_v1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v107 main_v113 main_v114 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_8 (constant S_ .f32 0x00000000#32),
    unary main_cst_8 main_v115 (broadcastInDim S50000x128 ![] bcast_S_S50000x128 : (⟨S_, .f32⟩ : BufTy).Contents (Elt F) → (⟨S50000x128, .f32⟩ : BufTy).Contents (Elt F)),
    unary main_v3 main_v116 (broadcastInDim S800000x1 ![0] bcast_S800000_S800000x1_0 : (⟨S800000, .i32⟩ : BufTy).Contents (Elt F) → (⟨S800000x1, .i32⟩ : BufTy).Contents (Elt F)),
    ternary main_v115 main_v116 main_v114 main_v117 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v117 main_v107 main_v118 (addf : (⟨S50000x128, .f32⟩ : BufTy).Contents (Elt F) → (⟨S50000x128, .f32⟩ : BufTy).Contents (Elt F) → (⟨S50000x128, .f32⟩ : BufTy).Contents (Elt F)),
    unary main_arg2 main_v119 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v119 main_v120 rfl shapeCasts_S1x128x128_S128x128,
    binary main_v118 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v122 ((extractStridedSlice S1x128 ![2, 0] · slices_S3x128_S1x128_2_0) : (⟨S3x128, .f32⟩ : BufTy).Contents (Elt F) → (⟨S1x128, .f32⟩ : BufTy).Contents (Elt F)),
    reshape main_v122 main_v123 rfl shapeCasts_S1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S50000x128 ![0, 1] bcast_S1x128_S50000x128_0_1 : (⟨S1x128, .f32⟩ : BufTy).Contents (Elt F) → (⟨S50000x128, .f32⟩ : BufTy).Contents (Elt F)),
    binary main_v121 main_v125 main_v126 (addf : (⟨S50000x128, .f32⟩ : BufTy).Contents (Elt F) → (⟨S50000x128, .f32⟩ : BufTy).Contents (Elt F) → (⟨S50000x128, .f32⟩ : BufTy).Contents (Elt F)),
    unary main_arg6 main_v127 ((extractStridedSlice S1x128 ![2, 0] · slices_S3x128_S1x128_2_0) : (⟨S3x128, .f32⟩ : BufTy).Contents (Elt F) → (⟨S1x128, .f32⟩ : BufTy).Contents (Elt F)),
    reshape main_v127 main_v128 rfl shapeCasts_S1x128_S128,
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v126 main_v130 main_v131 (subf : (⟨S50000x128, .f32⟩ : BufTy).Contents (Elt F) → (⟨S50000x128, .f32⟩ : BufTy).Contents (Elt F) → (⟨S50000x128, .f32⟩ : BufTy).Contents (Elt F)),
    unary main_arg7 main_v132 ((extractStridedSlice S1x128 ![2, 0] · slices_S3x128_S1x128_2_0) : (⟨S3x128, .f32⟩ : BufTy).Contents (Elt F) → (⟨S1x128, .f32⟩ : BufTy).Contents (Elt F)),
    reshape main_v132 main_v133 rfl shapeCasts_S1x128_S128,
    nullary main_cst_9 (constant S_ .f32 0x3727C5AC#32),
    unary main_cst_9 main_v134 (broadcastInDim S128 ![] bcast_S_S128 : (⟨S_, .f32⟩ : BufTy).Contents (Elt F) → (⟨S128, .f32⟩ : BufTy).Contents (Elt F)),
    binary main_v133 main_v134 main_v135 (addf : (⟨S128, .f32⟩ : BufTy).Contents (Elt F) → (⟨S128, .f32⟩ : BufTy).Contents (Elt F) → (⟨S128, .f32⟩ : BufTy).Contents (Elt F)),
    unary main_v135 main_v136 (Host.rsqrt : (⟨S128, .f32⟩ : BufTy).Contents (Elt F) → (⟨S128, .f32⟩ : BufTy).Contents (Elt F)),
    unary main_v136 main_v137 (broadcastInDim S1x128 ![1] bcast_S128_S1x128_1 : (⟨S128, .f32⟩ : BufTy).Contents (Elt F) → (⟨S1x128, .f32⟩ : BufTy).Contents (Elt F)),
    unary main_v137 main_v138 (broadcastInDim S50000x128 ![0, 1] bcast_S1x128_S50000x128_0_1 : (⟨S1x128, .f32⟩ : BufTy).Contents (Elt F) → (⟨S50000x128, .f32⟩ : BufTy).Contents (Elt F)),
    binary main_v131 main_v138 main_v139 (mulf : (⟨S50000x128, .f32⟩ : BufTy).Contents (Elt F) → (⟨S50000x128, .f32⟩ : BufTy).Contents (Elt F) → (⟨S50000x128, .f32⟩ : BufTy).Contents (Elt F)),
    unary main_arg4 main_v140 ((extractStridedSlice S1x128 ![2, 0] · slices_S3x128_S1x128_2_0) : (⟨S3x128, .f32⟩ : BufTy).Contents (Elt F) → (⟨S1x128, .f32⟩ : BufTy).Contents (Elt F)),
    reshape main_v140 main_v141 rfl shapeCasts_S1x128_S128,
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v139 main_v143 main_v144 (mulf : (⟨S50000x128, .f32⟩ : BufTy).Contents (Elt F) → (⟨S50000x128, .f32⟩ : BufTy).Contents (Elt F) → (⟨S50000x128, .f32⟩ : BufTy).Contents (Elt F)),
    unary main_arg5 main_v145 ((extractStridedSlice S1x128 ![2, 0] · slices_S3x128_S1x128_2_0) : (⟨S3x128, .f32⟩ : BufTy).Contents (Elt F) → (⟨S1x128, .f32⟩ : BufTy).Contents (Elt F)),
    reshape main_v145 main_v146 rfl shapeCasts_S1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v144 main_v148 main_v149 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v149) (TRef.of (T := ⟨S50000x128, .f32⟩) main_call4_v0) (TRef.of (T := ⟨S50000x128, .f32⟩) main_v150) maximumf,
    unary main_arg8 main_v151 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v151 main_v152 rfl shapeCasts_S1x128x128_S128x128,
    binary main_v150 main_v152 main_v153 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v153 main_v157 main_v158 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v158) (TRef.of (T := ⟨S50000x128, .f32⟩) main_call5_v0) (TRef.of (T := ⟨S50000x128, .f32⟩) main_v159) maximumf ]

set_option maxHeartbeats 40000000 in
/-- Operations 185 … 210 of the reference's @main. -/
abbrev seg3 : List (HloOp τ sig (Elt F)) :=
  [ binary main_v159 main_arg10 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v163) (TRef.of (T := ⟨S50000x128, .f32⟩) main_call6_v0) (TRef.of (T := ⟨S50000x128, .f32⟩) main_v164) maximumf,
    binary main_v164 main_arg12 main_v165 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    unary main_arg13 main_v166 (broadcastInDim S1x47 ![1] bcast_S47_S1x47_1 : (⟨S47, .f32⟩ : BufTy).Contents (Elt F) → (⟨S1x47, .f32⟩ : BufTy).Contents (Elt F)),
    unary main_v166 main_v167 (broadcastInDim S50000x47 ![0, 1] bcast_S1x47_S50000x47_0_1 : (⟨S1x47, .f32⟩ : BufTy).Contents (Elt F) → (⟨S50000x47, .f32⟩ : BufTy).Contents (Elt F)),
    binary main_v165 main_v167 main_v168 (addf : (⟨S50000x47, .f32⟩ : BufTy).Contents (Elt F) → (⟨S50000x47, .f32⟩ : BufTy).Contents (Elt F) → (⟨S50000x47, .f32⟩ : BufTy).Contents (Elt F)),
    TRef.nullary (TRef.of (T := ⟨S_, .f32⟩) main_call7_cst) (constant S_ .f32 0xFF800000#32),
    TRef.binary (TRef.of (T := ⟨S50000x47, .f32⟩) main_v168) (TRef.of (T := ⟨S_, .f32⟩) main_call7_cst) (TRef.of (T := ⟨S50000, .f32⟩) main_call7_v0) (fun x v => Host.reduce FloatOps.maximumf x v reducesTo_S50000x47_S50000_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S50000, .f32⟩) main_call7_v1) (broadcastInDim S50000 ![] bcast_S_S50000),
    TRef.binary (TRef.of (T := ⟨S50000, .f32⟩) main_call7_v1) (TRef.of (T := ⟨S50000, .f32⟩) main_call7_v0) (TRef.of (T := ⟨S50000, .f32⟩) main_call7_v2) maximumf,
    TRef.unary (TRef.of (T := ⟨S50000, .f32⟩) main_call7_v2) (TRef.of (T := ⟨S50000x1, .f32⟩) main_call7_v3) (broadcastInDim S50000x1 ![0] bcast_S50000_S50000x1_0),
    TRef.unary (TRef.of (T := ⟨S50000x1, .f32⟩) main_call7_v3) (TRef.of (T := ⟨S50000x47, .f32⟩) main_call7_v4) (broadcastInDim S50000x47 ![0, 1] bcast_S50000x1_S50000x47_0_1),
    TRef.binary (TRef.of (T := ⟨S50000x47, .f32⟩) main_v168) (TRef.of (T := ⟨S50000x47, .f32⟩) main_call7_v4) (TRef.of (T := ⟨S50000x47, .f32⟩) main_call7_v5) subf,
    TRef.unary (TRef.of (T := ⟨S50000x47, .f32⟩) main_call7_v5) (TRef.of (T := ⟨S50000x47, .f32⟩) main_call7_v6) Host.exp,
    TRef.nullary (TRef.of (T := ⟨S_, .f32⟩) main_call7_cst_1) (constant S_ .f32 0x00000000#32),
    TRef.binary (TRef.of (T := ⟨S50000x47, .f32⟩) main_call7_v6) (TRef.of (T := ⟨S_, .f32⟩) main_call7_cst_1) (TRef.of (T := ⟨S50000, .f32⟩) main_call7_v7) (fun x v => Host.reduceAdd x v reducesTo_S50000x47_S50000_d1 h_S_),
    TRef.unary (TRef.of (T := ⟨S50000, .f32⟩) main_call7_v7) (TRef.of (T := ⟨S50000x1, .f32⟩) main_call7_v8) (broadcastInDim S50000x1 ![0] bcast_S50000_S50000x1_0),
    TRef.unary (TRef.of (T := ⟨S50000x1, .f32⟩) main_call7_v8) (TRef.of (T := ⟨S50000x1, .f32⟩) main_call7_v9) Host.log,
    TRef.unary (TRef.of (T := ⟨S50000x1, .f32⟩) main_call7_v9) (TRef.of (T := ⟨S50000x47, .f32⟩) main_call7_v10) (broadcastInDim S50000x47 ![0, 1] bcast_S50000x1_S50000x47_0_1),
    TRef.binary (TRef.of (T := ⟨S50000x47, .f32⟩) main_call7_v5) (TRef.of (T := ⟨S50000x47, .f32⟩) main_call7_v10) (TRef.of (T := ⟨S50000x47, .f32⟩) main_v169) subf ]

/-- The four segments are the program's line. -/
theorem ops_split : (ops : List (HloOp τ sig (Elt F))) = seg0 ++ (seg1 ++ (seg2 ++ seg3)) := rfl

/-- Running a line is running its first part, then the rest from what the first part leaves. -/
theorem after_append (l1 l2 : List (HloOp τ sig (Elt F))) (V : Valuation τ sig (Elt F)) :
    after (l1 ++ l2) V = after l2 (after l1 V) := by
  induction l1 generalizing V with
  | nil => rfl
  | cons op l ih => simp only [List.cons_append, after_cons, ih]

theorem after_ops (V : Valuation τ sig (Elt F)) :
    after ops V = after seg3 (after seg2 (after seg1 (after seg0 V))) := by
  rw [ops_split, after_append, after_append, after_append]

section Segments

variable (V : Valuation τ sig (Elt Ideal))

/-! ## What each segment leaves untouched -/

theorem s0_keep_arg0 : after seg0 V (Proc.devRef .tc main_arg0) = V (Proc.devRef .tc main_arg0) := by after_results
theorem s0_keep_arg1 : after seg0 V (Proc.devRef .tc main_arg1) = V (Proc.devRef .tc main_arg1) := by after_results
theorem s0_keep_arg2 : after seg0 V (Proc.devRef .tc main_arg2) = V (Proc.devRef .tc main_arg2) := by after_results
theorem s0_keep_arg3 : after seg0 V (Proc.devRef .tc main_arg3) = V (Proc.devRef .tc main_arg3) := by after_results
theorem s0_keep_arg4 : after seg0 V (Proc.devRef .tc main_arg4) = V (Proc.devRef .tc main_arg4) := by after_results
theorem s0_keep_arg5 : after seg0 V (Proc.devRef .tc main_arg5) = V (Proc.devRef .tc main_arg5) := by after_results
theorem s0_keep_arg6 : after seg0 V (Proc.devRef .tc main_arg6) = V (Proc.devRef .tc main_arg6) := by after_results
theorem s0_keep_arg7 : after seg0 V (Proc.devRef .tc main_arg7) = V (Proc.devRef .tc main_arg7) := by after_results
theorem s0_keep_arg8 : after seg0 V (Proc.devRef .tc main_arg8) = V (Proc.devRef .tc main_arg8) := by after_results
theorem s0_keep_arg9 : after seg0 V (Proc.devRef .tc main_arg9) = V (Proc.devRef .tc main_arg9) := by after_results
theorem s0_keep_arg10 : after seg0 V (Proc.devRef .tc main_arg10) = V (Proc.devRef .tc main_arg10) := by after_results
theorem s0_keep_arg11 : after seg0 V (Proc.devRef .tc main_arg11) = V (Proc.devRef .tc main_arg11) := by after_results
theorem s0_keep_arg12 : after seg0 V (Proc.devRef .tc main_arg12) = V (Proc.devRef .tc main_arg12) := by after_results
theorem s0_keep_arg13 : after seg0 V (Proc.devRef .tc main_arg13) = V (Proc.devRef .tc main_arg13) := by after_results
theorem s1_keep_arg0 : after seg1 V (Proc.devRef .tc main_arg0) = V (Proc.devRef .tc main_arg0) := by after_results
theorem s1_keep_arg1 : after seg1 V (Proc.devRef .tc main_arg1) = V (Proc.devRef .tc main_arg1) := by after_results
theorem s1_keep_arg2 : after seg1 V (Proc.devRef .tc main_arg2) = V (Proc.devRef .tc main_arg2) := by after_results
theorem s1_keep_arg3 : after seg1 V (Proc.devRef .tc main_arg3) = V (Proc.devRef .tc main_arg3) := by after_results
theorem s1_keep_arg4 : after seg1 V (Proc.devRef .tc main_arg4) = V (Proc.devRef .tc main_arg4) := by after_results
theorem s1_keep_arg5 : after seg1 V (Proc.devRef .tc main_arg5) = V (Proc.devRef .tc main_arg5) := by after_results
theorem s1_keep_arg6 : after seg1 V (Proc.devRef .tc main_arg6) = V (Proc.devRef .tc main_arg6) := by after_results
theorem s1_keep_arg7 : after seg1 V (Proc.devRef .tc main_arg7) = V (Proc.devRef .tc main_arg7) := by after_results
theorem s1_keep_arg8 : after seg1 V (Proc.devRef .tc main_arg8) = V (Proc.devRef .tc main_arg8) := by after_results
theorem s1_keep_arg9 : after seg1 V (Proc.devRef .tc main_arg9) = V (Proc.devRef .tc main_arg9) := by after_results
theorem s1_keep_arg10 : after seg1 V (Proc.devRef .tc main_arg10) = V (Proc.devRef .tc main_arg10) := by after_results
theorem s1_keep_arg11 : after seg1 V (Proc.devRef .tc main_arg11) = V (Proc.devRef .tc main_arg11) := by after_results
theorem s1_keep_arg12 : after seg1 V (Proc.devRef .tc main_arg12) = V (Proc.devRef .tc main_arg12) := by after_results
theorem s1_keep_arg13 : after seg1 V (Proc.devRef .tc main_arg13) = V (Proc.devRef .tc main_arg13) := by after_results
theorem s1_keep_v1 : after seg1 V (Proc.devRef .tc main_v1) = V (Proc.devRef .tc main_v1) := by after_results
theorem s1_keep_v3 : after seg1 V (Proc.devRef .tc main_v3) = V (Proc.devRef .tc main_v3) := by after_results
theorem s2_keep_arg0 : after seg2 V (Proc.devRef .tc main_arg0) = V (Proc.devRef .tc main_arg0) := by after_results
theorem s2_keep_arg1 : after seg2 V (Proc.devRef .tc main_arg1) = V (Proc.devRef .tc main_arg1) := by after_results
theorem s2_keep_arg2 : after seg2 V (Proc.devRef .tc main_arg2) = V (Proc.devRef .tc main_arg2) := by after_results
theorem s2_keep_arg3 : after seg2 V (Proc.devRef .tc main_arg3) = V (Proc.devRef .tc main_arg3) := by after_results
theorem s2_keep_arg4 : after seg2 V (Proc.devRef .tc main_arg4) = V (Proc.devRef .tc main_arg4) := by after_results
theorem s2_keep_arg5 : after seg2 V (Proc.devRef .tc main_arg5) = V (Proc.devRef .tc main_arg5) := by after_results
theorem s2_keep_arg6 : after seg2 V (Proc.devRef .tc main_arg6) = V (Proc.devRef .tc main_arg6) := by after_results
theorem s2_keep_arg7 : after seg2 V (Proc.devRef .tc main_arg7) = V (Proc.devRef .tc main_arg7) := by after_results
theorem s2_keep_arg8 : after seg2 V (Proc.devRef .tc main_arg8) = V (Proc.devRef .tc main_arg8) := by after_results
theorem s2_keep_arg9 : after seg2 V (Proc.devRef .tc main_arg9) = V (Proc.devRef .tc main_arg9) := by after_results
theorem s2_keep_arg10 : after seg2 V (Proc.devRef .tc main_arg10) = V (Proc.devRef .tc main_arg10) := by after_results
theorem s2_keep_arg11 : after seg2 V (Proc.devRef .tc main_arg11) = V (Proc.devRef .tc main_arg11) := by after_results
theorem s2_keep_arg12 : after seg2 V (Proc.devRef .tc main_arg12) = V (Proc.devRef .tc main_arg12) := by after_results
theorem s2_keep_arg13 : after seg2 V (Proc.devRef .tc main_arg13) = V (Proc.devRef .tc main_arg13) := by after_results
theorem s2_keep_v1 : after seg2 V (Proc.devRef .tc main_v1) = V (Proc.devRef .tc main_v1) := by after_results
theorem s2_keep_v3 : after seg2 V (Proc.devRef .tc main_v3) = V (Proc.devRef .tc main_v3) := by after_results
theorem s3_keep_arg0 : after seg3 V (Proc.devRef .tc main_arg0) = V (Proc.devRef .tc main_arg0) := by after_results
theorem s3_keep_arg1 : after seg3 V (Proc.devRef .tc main_arg1) = V (Proc.devRef .tc main_arg1) := by after_results
theorem s3_keep_arg2 : after seg3 V (Proc.devRef .tc main_arg2) = V (Proc.devRef .tc main_arg2) := by after_results
theorem s3_keep_arg3 : after seg3 V (Proc.devRef .tc main_arg3) = V (Proc.devRef .tc main_arg3) := by after_results
theorem s3_keep_arg4 : after seg3 V (Proc.devRef .tc main_arg4) = V (Proc.devRef .tc main_arg4) := by after_results
theorem s3_keep_arg5 : after seg3 V (Proc.devRef .tc main_arg5) = V (Proc.devRef .tc main_arg5) := by after_results
theorem s3_keep_arg6 : after seg3 V (Proc.devRef .tc main_arg6) = V (Proc.devRef .tc main_arg6) := by after_results
theorem s3_keep_arg7 : after seg3 V (Proc.devRef .tc main_arg7) = V (Proc.devRef .tc main_arg7) := by after_results
theorem s3_keep_arg8 : after seg3 V (Proc.devRef .tc main_arg8) = V (Proc.devRef .tc main_arg8) := by after_results
theorem s3_keep_arg9 : after seg3 V (Proc.devRef .tc main_arg9) = V (Proc.devRef .tc main_arg9) := by after_results
theorem s3_keep_arg10 : after seg3 V (Proc.devRef .tc main_arg10) = V (Proc.devRef .tc main_arg10) := by after_results
theorem s3_keep_arg11 : after seg3 V (Proc.devRef .tc main_arg11) = V (Proc.devRef .tc main_arg11) := by after_results
theorem s3_keep_arg12 : after seg3 V (Proc.devRef .tc main_arg12) = V (Proc.devRef .tc main_arg12) := by after_results
theorem s3_keep_arg13 : after seg3 V (Proc.devRef .tc main_arg13) = V (Proc.devRef .tc main_arg13) := by after_results

/-! ## What each segment computes -/

theorem s0_v1 : after seg0 V (Proc.devRef .tc main_v1) = val_main_v1 (F := Ideal) (V (Proc.devRef .tc main_arg1)) := by
  after_results
  rfl
theorem s0_v3 : after seg0 V (Proc.devRef .tc main_v3) = val_main_v3 (F := Ideal) (V (Proc.devRef .tc main_arg1)) := by
  after_results
  rfl

end Segments

end Cert.GinRefRun

end
-- ==== Proof.RefCasts.lean ====
/-
  The buffers that the reference's called functions (the rectifier, the log-softmax) read and write are named through
  typed references; a value passes into and out of such a buffer through a transport along the buffer's type, which is
  the identity because the buffer's type is the value's. One statement per buffer and per spelling of the value's type
  (as a buffer's contents, or as a vector of extended reals), each checked on its own.
-/
import proofs.«125315_j5282809775005_2_alg».proof.Proof.RefRunP
import Idealize.ShloMosaic.PureOps.Ideal

set_option maxRecDepth 16384

noncomputable section

namespace Cert.GinRefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

theorem tb_main_call0_cst (p1 : (main_call0_cst : Ref sig .tc).ty = ⟨S_, .f32⟩) (p2 : (main_call0_cst : Ref sig .tc).space ≠ .host) (p3 : (main_call0_cst : Ref sig .tc).isScoped = false) (v : (⟨S_, .f32⟩ : BufTy).Contents (Elt F)) :
    (TRef.of (T := ⟨S_, .f32⟩) main_call0_cst p1 p2 p3).toBuf v = v := rfl
theorem ob_main_call0_cst (p1 : (main_call0_cst : Ref sig .tc).ty = ⟨S_, .f32⟩) (p2 : (main_call0_cst : Ref sig .tc).space ≠ .host) (p3 : (main_call0_cst : Ref sig .tc).isScoped = false) (v : (⟨S_, .f32⟩ : BufTy).Contents (Elt F)) :
    (TRef.of (T := ⟨S_, .f32⟩) main_call0_cst p1 p2 p3).ofBuf v = v := rfl
theorem tbv_main_call0_cst (p1 : (main_call0_cst : Ref sig .tc).ty = ⟨S_, .f32⟩) (p2 : (main_call0_cst : Ref sig .tc).space ≠ .host) (p3 : (main_call0_cst : Ref sig .tc).isScoped = false) (v : FVec Ideal S_ .f32) :
    (TRef.of (T := ⟨S_, .f32⟩) main_call0_cst p1 p2 p3).toBuf (Val := Elt Ideal) v = v := rfl
theorem obv_main_call0_cst (p1 : (main_call0_cst : Ref sig .tc).ty = ⟨S_, .f32⟩) (p2 : (main_call0_cst : Ref sig .tc).space ≠ .host) (p3 : (main_call0_cst : Ref sig .tc).isScoped = false) (v : FVec Ideal S_ .f32) :
    (TRef.of (T := ⟨S_, .f32⟩) main_call0_cst p1 p2 p3).ofBuf (Val := Elt Ideal) v = v := rfl
theorem tb_main_call0_v0 (p1 : (main_call0_v0 : Ref sig .tc).ty = ⟨S50000x128, .f32⟩) (p2 : (main_call0_v0 : Ref sig .tc).space ≠ .host) (p3 : (main_call0_v0 : Ref sig .tc).isScoped = false) (v : (⟨S50000x128, .f32⟩ : BufTy).Contents (Elt F)) :
    (TRef.of (T := ⟨S50000x128, .f32⟩) main_call0_v0 p1 p2 p3).toBuf v = v := rfl
theorem ob_main_call0_v0 (p1 : (main_call0_v0 : Ref sig .tc).ty = ⟨S50000x128, .f32⟩) (p2 : (main_call0_v0 : Ref sig .tc).space ≠ .host) (p3 : (main_call0_v0 : Ref sig .tc).isScoped = false) (v : (⟨S50000x128, .f32⟩ : BufTy).Contents (Elt F)) :
    (TRef.of (T := ⟨S50000x128, .f32⟩) main_call0_v0 p1 p2 p3).ofBuf v = v := rfl
theorem tbv_main_call0_v0 (p1 : (main_call0_v0 : Ref sig .tc).ty = ⟨S50000x128, .f32⟩) (p2 : (main_call0_v0 : Ref sig .tc).space ≠ .host) (p3 : (main_call0_v0 : Ref sig .tc).isScoped = false) (v : FVec Ideal S50000x128 .f32) :
    (TRef.of (T := ⟨S50000x128, .f32⟩) main_call0_v0 p1 p2 p3).toBuf (Val := Elt Ideal) v = v := rfl
theorem obv_main_call0_v0 (p1 : (main_call0_v0 : Ref sig .tc).ty = ⟨S50000x128, .f32⟩) (p2 : (main_call0_v0 : Ref sig .tc).space ≠ .host) (p3 : (main_call0_v0 : Ref sig .tc).isScoped = false) (v : FVec Ideal S50000x128 .f32) :
    (TRef.of (T := ⟨S50000x128, .f32⟩) main_call0_v0 p1 p2 p3).ofBuf (Val := Elt Ideal) v = v := rfl
theorem tb_main_v45 (p1 : (main_v45 : Ref sig .tc).ty = ⟨S50000x128, .f32⟩) (p2 : (main_v45 : Ref sig .tc).space ≠ .host) (p3 : (main_v45 : Ref sig .tc).isScoped = false) (v : (⟨S50000x128, .f32⟩ : BufTy).Contents (Elt F)) :
    (TRef.of (T := ⟨S50000x128, .f32⟩) main_v45 p1 p2 p3).toBuf v = v := rfl
theorem ob_main_v45 (p1 : (main_v45 : Ref sig .tc).ty = ⟨S50000x128, .f32⟩) (p2 : (main_v45 : Ref sig .tc).space ≠ .host) (p3 : (main_v45 : Ref sig .tc).isScoped = false) (v : (⟨S50000x128, .f32⟩ : BufTy).Contents (Elt F)) :
    (TRef.of (T := ⟨S50000x128, .f32⟩) main_v45 p1 p2 p3).ofBuf v = v := rfl
theorem tbv_main_v45 (p1 : (main_v45 : Ref sig .tc).ty = ⟨S50000x128, .f32⟩) (p2 : (main_v45 : Ref sig .tc).space ≠ .host) (p3 : (main_v45 : Ref sig .tc).isScoped = false) (v : FVec Ideal S50000x128 .f32) :
    (TRef.of (T := ⟨S50000x128, .f32⟩) main_v45 p1 p2 p3).toBuf (Val := Elt Ideal) v = v := rfl
theorem obv_main_v45 (p1 : (main_v45 : Ref sig .tc).ty = ⟨S50000x128, .f32⟩) (p2 : (main_v45 : Ref sig .tc).space ≠ .host) (p3 : (main_v45 : Ref sig .tc).isScoped = false) (v : FVec Ideal S50000x128 .f32) :
    (TRef.of (T := ⟨S50000x128, .f32⟩) main_v45 p1 p2 p3).ofBuf (Val := Elt Ideal) v = v := rfl
theorem tb_main_v46 (p1 : (main_v46 : Ref sig .tc).ty = ⟨S50000x128, .f32⟩) (p2 : (main_v46 : Ref sig .tc).space ≠ .host) (p3 : (main_v46 : Ref sig .tc).isScoped = false) (v : (⟨S50000x128, .f32⟩ : BufTy).Contents (Elt F)) :
    (TRef.of (T := ⟨S50000x128, .f32⟩) main_v46 p1 p2 p3).toBuf v = v := rfl
theorem ob_main_v46 (p1 : (main_v46 : Ref sig .tc).ty = ⟨S50000x128, .f32⟩) (p2 : (main_v46 : Ref sig .tc).space ≠ .host) (p3 : (main_v46 : Ref sig .tc).isScoped = false) (v : (⟨S50000x128, .f32⟩ : BufTy).Contents (Elt F)) :
    (TRef.of (T := ⟨S50000x128, .f32⟩) main_v46 p1 p2 p3).ofBuf v = v := rfl
theorem tbv_main_v46 (p1 : (main_v46 : Ref sig .tc).ty = ⟨S50000x128, .f32⟩) (p2 : (main_v46 : Ref sig .tc).space ≠ .host) (p3 : (main_v46 : Ref sig .tc).isScoped = false) (v : FVec Ideal S50000x128 .f32) :
    (TRef.of (T := ⟨S50000x128, .f32⟩) main_v46 p1 p2 p3).toBuf (Val := Elt Ideal) v = v := rfl
theorem obv_main_v46 (p1 : (main_v46 : Ref sig .tc).ty = ⟨S50000x128, .f32⟩) (p2 : (main_v46 : Ref sig .tc).space ≠ .host) (p3 : (main_v46 : Ref sig .tc).isScoped = false) (v : FVec Ideal S50000x128 .f32) :
    (TRef.of (T := ⟨S50000x128, .f32⟩) main_v46 p1 p2 p3).ofBuf (Val := Elt Ideal) v = v := rfl
theorem tb_main_call1_cst (p1 : (main_call1_cst : Ref sig .tc).ty = ⟨S_, .f32⟩) (p2 : (main_call1_cst : Ref sig .tc).space ≠ .host) (p3 : (main_call1_cst : Ref sig .tc).isScoped = false) (v : (⟨S_, .f32⟩ : BufTy).Contents (Elt F)) :
    (TRef.of (T := ⟨S_, .f32⟩) main_call1_cst p1 p2 p3).toBuf v = v := rfl
theorem ob_main_call1_cst (p1 : (main_call1_cst : Ref sig .tc).ty = ⟨S_, .f32⟩) (p2 : (main_call1_cst : Ref sig .tc).space ≠ .host) (p3 : (main_call1_cst : Ref sig .tc).isScoped = false) (v : (⟨S_, .f32⟩ : BufTy).Contents (Elt F)) :
    (TRef.of (T := ⟨S_, .f32⟩) main_call1_cst p1 p2 p3).ofBuf v = v := rfl
theorem tbv_main_call1_cst (p1 : (main_call1_cst : Ref sig .tc).ty = ⟨S_, .f32⟩) (p2 : (main_call1_cst : Ref sig .tc).space ≠ .host) (p3 : (main_call1_cst : Ref sig .tc).isScoped = false) (v : FVec Ideal S_ .f32) :
    (TRef.of (T := ⟨S_, .f32⟩) main_call1_cst p1 p2 p3).toBuf (Val := Elt Ideal) v = v := rfl
theorem obv_main_call1_cst (p1 : (main_call1_cst : Ref sig .tc).ty = ⟨S_, .f32⟩) (p2 : (main_call1_cst : Ref sig .tc).space ≠ .host) (p3 : (main_call1_cst : Ref sig .tc).isScoped = false) (v : FVec Ideal S_ .f32) :
    (TRef.of (T := ⟨S_, .f32⟩) main_call1_cst p1 p2 p3).ofBuf (Val := Elt Ideal) v = v := rfl
theorem tb_main_call1_v0 (p1 : (main_call1_v0 : Ref sig .tc).ty = ⟨S50000x128, .f32⟩) (p2 : (main_call1_v0 : Ref sig .tc).space ≠ .host) (p3 : (main_call1_v0 : Ref sig .tc).isScoped = false) (v : (⟨S50000x128, .f32⟩ : BufTy).Contents (Elt F)) :
    (TRef.of (T := ⟨S50000x128, .f32⟩) main_call1_v0 p1 p2 p3).toBuf v = v := rfl
theorem ob_main_call1_v0 (p1 : (main_call1_v0 : Ref sig .tc).ty = ⟨S50000x128, .f32⟩) (p2 : (main_call1_v0 : Ref sig .tc).space ≠ .host) (p3 : (main_call1_v0 : Ref sig .tc).isScoped = false) (v : (⟨S50000x128, .f32⟩ : BufTy).Contents (Elt F)) :
    (TRef.of (T := ⟨S50000x128, .f32⟩) main_call1_v0 p1 p2 p3).ofBuf v = v := rfl
theorem tbv_main_call1_v0 (p1 : (main_call1_v0 : Ref sig .tc).ty = ⟨S50000x128, .f32⟩) (p2 : (main_call1_v0 : Ref sig .tc).space ≠ .host) (p3 : (main_call1_v0 : Ref sig .tc).isScoped = false) (v : FVec Ideal S50000x128 .f32) :
    (TRef.of (T := ⟨S50000x128, .f32⟩) main_call1_v0 p1 p2 p3).toBuf (Val := Elt Ideal) v = v := rfl
theorem obv_main_call1_v0 (p1 : (main_call1_v0 : Ref sig .tc).ty = ⟨S50000x128, .f32⟩) (p2 : (main_call1_v0 : Ref sig .tc).space ≠ .host) (p3 : (main_call1_v0 : Ref sig .tc).isScoped = false) (v : FVec Ideal S50000x128 .f32) :
    (TRef.of (T := ⟨S50000x128, .f32⟩) main_call1_v0 p1 p2 p3).ofBuf (Val := Elt Ideal) v = v := rfl
theorem tb_main_v54 (p1 : (main_v54 : Ref sig .tc).ty = ⟨S50000x128, .f32⟩) (p2 : (main_v54 : Ref sig .tc).space ≠ .host) (p3 : (main_v54 : Ref sig .tc).isScoped = false) (v : (⟨S50000x128, .f32⟩ : BufTy).Contents (Elt F)) :
    (TRef.of (T := ⟨S50000x128, .f32⟩) main_v54 p1 p2 p3).toBuf v = v := rfl
theorem ob_main_v54 (p1 : (main_v54 : Ref sig .tc).ty = ⟨S50000x128, .f32⟩) (p2 : (main_v54 : Ref sig .tc).space ≠ .host) (p3 : (main_v54 : Ref sig .tc).isScoped = false) (v : (⟨S50000x128, .f32⟩ : BufTy).Contents (Elt F)) :
    (TRef.of (T := ⟨S50000x128, .f32⟩) main_v54 p1 p2 p3).ofBuf v = v := rfl
theorem tbv_main_v54 (p1 : (main_v54 : Ref sig .tc).ty = ⟨S50000x128, .f32⟩) (p2 : (main_v54 : Ref sig .tc).space ≠ .host) (p3 : (main_v54 : Ref sig .tc).isScoped = false) (v : FVec Ideal S50000x128 .f32) :
    (TRef.of (T := ⟨S50000x128, .f32⟩) main_v54 p1 p2 p3).toBuf (Val := Elt Ideal) v = v := rfl
theorem obv_main_v54 (p1 : (main_v54 : Ref sig .tc).ty = ⟨S50000x128, .f32⟩) (p2 : (main_v54 : Ref sig .tc).space ≠ .host) (p3 : (main_v54 : Ref sig .tc).isScoped = false) (v : FVec Ideal S50000x128 .f32) :
    (TRef.of (T := ⟨S50000x128, .f32⟩) main_v54 p1 p2 p3).ofBuf (Val := Elt Ideal) v = v := rfl
theorem tb_main_v55 (p1 : (main_v55 : Ref sig .tc).ty = ⟨S50000x128, .f32⟩) (p2 : (main_v55 : Ref sig .tc).space ≠ .host) (p3 : (main_v55 : Ref sig .tc).isScoped = false) (v : (⟨S50000x128, .f32⟩ : BufTy).Contents (Elt F)) :
    (TRef.of (T := ⟨S50000x128, .f32⟩) main_v55 p1 p2 p3).toBuf v = v := rfl
theorem ob_main_v55 (p1 : (main_v55 : Ref sig .tc).ty = ⟨S50000x128, .f32⟩) (p2 : (main_v55 : Ref sig .tc).space ≠ .host) (p3 : (main_v55 : Ref sig .tc).isScoped = false) (v : (⟨S50000x128, .f32⟩ : BufTy).Contents (Elt F)) :
    (TRef.of (T := ⟨S50000x128, .f32⟩) main_v55 p1 p2 p3).ofBuf v = v := rfl
theorem tbv_main_v55 (p1 : (main_v55 : Ref sig .tc).ty = ⟨S50000x128, .f32⟩) (p2 : (main_v55 : Ref sig .tc).space ≠ .host) (p3 : (main_v55 : Ref sig .tc).isScoped = false) (v : FVec Ideal S50000x128 .f32) :
    (TRef.of (T := ⟨S50000x128, .f32⟩) main_v55 p1 p2 p3).toBuf (Val := Elt Ideal) v = v := rfl
theorem obv_main_v55 (p1 : (main_v55 : Ref sig .tc).ty = ⟨S50000x128, .f32⟩) (p2 : (main_v55 : Ref sig .tc).space ≠ .host) (p3 : (main_v55 : Ref sig .tc).isScoped = false) (v : FVec Ideal S50000x128 .f32) :
    (TRef.of (T := ⟨S50000x128, .f32⟩) main_v55 p1 p2 p3).ofBuf (Val := Elt Ideal) v = v := rfl
theorem tb_main_call2_cst (p1 : (main_call2_cst : Ref sig .tc).ty = ⟨S_, .f32⟩) (p2 : (main_call2_cst : Ref sig .tc).space ≠ .host) (p3 : (main_call2_cst : Ref sig .tc).isScoped = false) (v : (⟨S_, .f32⟩ : BufTy).Contents (Elt F)) :
    (TRef.of (T := ⟨S_, .f32⟩) main_call2_cst p1 p2 p3).toBuf v = v := rfl
theorem ob_main_call2_cst (p1 : (main_call2_cst : Ref sig .tc).ty = ⟨S_, .f32⟩) (p2 : (main_call2_cst : Ref sig .tc).space ≠ .host) (p3 : (main_call2_cst : Ref sig .tc).isScoped = false) (v : (⟨S_, .f32⟩ : BufTy).Contents (Elt F)) :
    (TRef.of (T := ⟨S_, .f32⟩) main_call2_cst p1 p2 p3).ofBuf v = v := rfl
theorem tbv_main_call2_cst (p1 : (main_call2_cst : Ref sig .tc).ty = ⟨S_, .f32⟩) (p2 : (main_call2_cst : Ref sig .tc).space ≠ .host) (p3 : (main_call2_cst : Ref sig .tc).isScoped = false) (v : FVec Ideal S_ .f32) :
    (TRef.of (T := ⟨S_, .f32⟩) main_call2_cst p1 p2 p3).toBuf (Val := Elt Ideal) v = v := rfl
theorem obv_main_call2_cst (p1 : (main_call2_cst : Ref sig .tc).ty = ⟨S_, .f32⟩) (p2 : (main_call2_cst : Ref sig .tc).space ≠ .host) (p3 : (main_call2_cst : Ref sig .tc).isScoped = false) (v : FVec Ideal S_ .f32) :
    (TRef.of (T := ⟨S_, .f32⟩) main_call2_cst p1 p2 p3).ofBuf (Val := Elt Ideal) v = v := rfl
theorem tb_main_call2_v0 (p1 : (main_call2_v0 : Ref sig .tc).ty = ⟨S50000x128, .f32⟩) (p2 : (main_call2_v0 : Ref sig .tc).space ≠ .host) (p3 : (main_call2_v0 : Ref sig .tc).isScoped = false) (v : (⟨S50000x128, .f32⟩ : BufTy).Contents (Elt F)) :
    (TRef.of (T := ⟨S50000x128, .f32⟩) main_call2_v0 p1 p2 p3).toBuf v = v := rfl
theorem ob_main_call2_v0 (p1 : (main_call2_v0 : Ref sig .tc).ty = ⟨S50000x128, .f32⟩) (p2 : (main_call2_v0 : Ref sig .tc).space ≠ .host) (p3 : (main_call2_v0 : Ref sig .tc).isScoped = false) (v : (⟨S50000x128, .f32⟩ : BufTy).Contents (Elt F)) :
    (TRef.of (T := ⟨S50000x128, .f32⟩) main_call2_v0 p1 p2 p3).ofBuf v = v := rfl
theorem tbv_main_call2_v0 (p1 : (main_call2_v0 : Ref sig .tc).ty = ⟨S50000x128, .f32⟩) (p2 : (main_call2_v0 : Ref sig .tc).space ≠ .host) (p3 : (main_call2_v0 : Ref sig .tc).isScoped = false) (v : FVec Ideal S50000x128 .f32) :
    (TRef.of (T := ⟨S50000x128, .f32⟩) main_call2_v0 p1 p2 p3).toBuf (Val := Elt Ideal) v = v := rfl
theorem obv_main_call2_v0 (p1 : (main_call2_v0 : Ref sig .tc).ty = ⟨S50000x128, .f32⟩) (p2 : (main_call2_v0 : Ref sig .tc).space ≠ .host) (p3 : (main_call2_v0 : Ref sig .tc).isScoped = false) (v : FVec Ideal S50000x128 .f32) :
    (TRef.of (T := ⟨S50000x128, .f32⟩) main_call2_v0 p1 p2 p3).ofBuf (Val := Elt Ideal) v = v := rfl
theorem tb_main_v97 (p1 : (main_v97 : Ref sig .tc).ty = ⟨S50000x128, .f32⟩) (p2 : (main_v97 : Ref sig .tc).space ≠ .host) (p3 : (main_v97 : Ref sig .tc).isScoped = false) (v : (⟨S50000x128, .f32⟩ : BufTy).Contents (Elt F)) :
    (TRef.of (T := ⟨S50000x128, .f32⟩) main_v97 p1 p2 p3).toBuf v = v := rfl
theorem ob_main_v97 (p1 : (main_v97 : Ref sig .tc).ty = ⟨S50000x128, .f32⟩) (p2 : (main_v97 : Ref sig .tc).space ≠ .host) (p3 : (main_v97 : Ref sig .tc).isScoped = false) (v : (⟨S50000x128, .f32⟩ : BufTy).Contents (Elt F)) :
    (TRef.of (T := ⟨S50000x128, .f32⟩) main_v97 p1 p2 p3).ofBuf v = v := rfl
theorem tbv_main_v97 (p1 : (main_v97 : Ref sig .tc).ty = ⟨S50000x128, .f32⟩) (p2 : (main_v97 : Ref sig .tc).space ≠ .host) (p3 : (main_v97 : Ref sig .tc).isScoped = false) (v : FVec Ideal S50000x128 .f32) :
    (TRef.of (T := ⟨S50000x128, .f32⟩) main_v97 p1 p2 p3).toBuf (Val := Elt Ideal) v = v := rfl
theorem obv_main_v97 (p1 : (main_v97 : Ref sig .tc).ty = ⟨S50000x128, .f32⟩) (p2 : (main_v97 : Ref sig .tc).space ≠ .host) (p3 : (main_v97 : Ref sig .tc).isScoped = false) (v : FVec Ideal S50000x128 .f32) :
    (TRef.of (T := ⟨S50000x128, .f32⟩) main_v97 p1 p2 p3).ofBuf (Val := Elt Ideal) v = v := rfl
theorem tb_main_v98 (p1 : (main_v98 : Ref sig .tc).ty = ⟨S50000x128, .f32⟩) (p2 : (main_v98 : Ref sig .tc).space ≠ .host) (p3 : (main_v98 : Ref sig .tc).isScoped = false) (v : (⟨S50000x128, .f32⟩ : BufTy).Contents (Elt F)) :
    (TRef.of (T := ⟨S50000x128, .f32⟩) main_v98 p1 p2 p3).toBuf v = v := rfl
theorem ob_main_v98 (p1 : (main_v98 : Ref sig .tc).ty = ⟨S50000x128, .f32⟩) (p2 : (main_v98 : Ref sig .tc).space ≠ .host) (p3 : (main_v98 : Ref sig .tc).isScoped = false) (v : (⟨S50000x128, .f32⟩ : BufTy).Contents (Elt F)) :
    (TRef.of (T := ⟨S50000x128, .f32⟩) main_v98 p1 p2 p3).ofBuf v = v := rfl
theorem tbv_main_v98 (p1 : (main_v98 : Ref sig .tc).ty = ⟨S50000x128, .f32⟩) (p2 : (main_v98 : Ref sig .tc).space ≠ .host) (p3 : (main_v98 : Ref sig .tc).isScoped = false) (v : FVec Ideal S50000x128 .f32) :
    (TRef.of (T := ⟨S50000x128, .f32⟩) main_v98 p1 p2 p3).toBuf (Val := Elt Ideal) v = v := rfl
theorem obv_main_v98 (p1 : (main_v98 : Ref sig .tc).ty = ⟨S50000x128, .f32⟩) (p2 : (main_v98 : Ref sig .tc).space ≠ .host) (p3 : (main_v98 : Ref sig .tc).isScoped = false) (v : FVec Ideal S50000x128 .f32) :
    (TRef.of (T := ⟨S50000x128, .f32⟩) main_v98 p1 p2 p3).ofBuf (Val := Elt Ideal) v = v := rfl
theorem tb_main_call3_cst (p1 : (main_call3_cst : Ref sig .tc).ty = ⟨S_, .f32⟩) (p2 : (main_call3_cst : Ref sig .tc).space ≠ .host) (p3 : (main_call3_cst : Ref sig .tc).isScoped = false) (v : (⟨S_, .f32⟩ : BufTy).Contents (Elt F)) :
    (TRef.of (T := ⟨S_, .f32⟩) main_call3_cst p1 p2 p3).toBuf v = v := rfl
theorem ob_main_call3_cst (p1 : (main_call3_cst : Ref sig .tc).ty = ⟨S_, .f32⟩) (p2 : (main_call3_cst : Ref sig .tc).space ≠ .host) (p3 : (main_call3_cst : Ref sig .tc).isScoped = false) (v : (⟨S_, .f32⟩ : BufTy).Contents (Elt F)) :
    (TRef.of (T := ⟨S_, .f32⟩) main_call3_cst p1 p2 p3).ofBuf v = v := rfl
theorem tbv_main_call3_cst (p1 : (main_call3_cst : Ref sig .tc).ty = ⟨S_, .f32⟩) (p2 : (main_call3_cst : Ref sig .tc).space ≠ .host) (p3 : (main_call3_cst : Ref sig .tc).isScoped = false) (v : FVec Ideal S_ .f32) :
    (TRef.of (T := ⟨S_, .f32⟩) main_call3_cst p1 p2 p3).toBuf (Val := Elt Ideal) v = v := rfl
theorem obv_main_call3_cst (p1 : (main_call3_cst : Ref sig .tc).ty = ⟨S_, .f32⟩) (p2 : (main_call3_cst : Ref sig .tc).space ≠ .host) (p3 : (main_call3_cst : Ref sig .tc).isScoped = false) (v : FVec Ideal S_ .f32) :
    (TRef.of (T := ⟨S_, .f32⟩) main_call3_cst p1 p2 p3).ofBuf (Val := Elt Ideal) v = v := rfl
theorem tb_main_call3_v0 (p1 : (main_call3_v0 : Ref sig .tc).ty = ⟨S50000x128, .f32⟩) (p2 : (main_call3_v0 : Ref sig .tc).space ≠ .host) (p3 : (main_call3_v0 : Ref sig .tc).isScoped = false) (v : (⟨S50000x128, .f32⟩ : BufTy).Contents (Elt F)) :
    (TRef.of (T := ⟨S50000x128, .f32⟩) main_call3_v0 p1 p2 p3).toBuf v = v := rfl
theorem ob_main_call3_v0 (p1 : (main_call3_v0 : Ref sig .tc).ty = ⟨S50000x128, .f32⟩) (p2 : (main_call3_v0 : Ref sig .tc).space ≠ .host) (p3 : (main_call3_v0 : Ref sig .tc).isScoped = false) (v : (⟨S50000x128, .f32⟩ : BufTy).Contents (Elt F)) :
    (TRef.of (T := ⟨S50000x128, .f32⟩) main_call3_v0 p1 p2 p3).ofBuf v = v := rfl
theorem tbv_main_call3_v0 (p1 : (main_call3_v0 : Ref sig .tc).ty = ⟨S50000x128, .f32⟩) (p2 : (main_call3_v0 : Ref sig .tc).space ≠ .host) (p3 : (main_call3_v0 : Ref sig .tc).isScoped = false) (v : FVec Ideal S50000x128 .f32) :
    (TRef.of (T := ⟨S50000x128, .f32⟩) main_call3_v0 p1 p2 p3).toBuf (Val := Elt Ideal) v = v := rfl
theorem obv_main_call3_v0 (p1 : (main_call3_v0 : Ref sig .tc).ty = ⟨S50000x128, .f32⟩) (p2 : (main_call3_v0 : Ref sig .tc).space ≠ .host) (p3 : (main_call3_v0 : Ref sig .tc).isScoped = false) (v : FVec Ideal S50000x128 .f32) :
    (TRef.of (T := ⟨S50000x128, .f32⟩) main_call3_v0 p1 p2 p3).ofBuf (Val := Elt Ideal) v = v := rfl
theorem tb_main_v106 (p1 : (main_v106 : Ref sig .tc).ty = ⟨S50000x128, .f32⟩) (p2 : (main_v106 : Ref sig .tc).space ≠ .host) (p3 : (main_v106 : Ref sig .tc).isScoped = false) (v : (⟨S50000x128, .f32⟩ : BufTy).Contents (Elt F)) :
    (TRef.of (T := ⟨S50000x128, .f32⟩) main_v106 p1 p2 p3).toBuf v = v := rfl
theorem ob_main_v106 (p1 : (main_v106 : Ref sig .tc).ty = ⟨S50000x128, .f32⟩) (p2 : (main_v106 : Ref sig .tc).space ≠ .host) (p3 : (main_v106 : Ref sig .tc).isScoped = false) (v : (⟨S50000x128, .f32⟩ : BufTy).Contents (Elt F)) :
    (TRef.of (T := ⟨S50000x128, .f32⟩) main_v106 p1 p2 p3).ofBuf v = v := rfl
theorem tbv_main_v106 (p1 : (main_v106 : Ref sig .tc).ty = ⟨S50000x128, .f32⟩) (p2 : (main_v106 : Ref sig .tc).space ≠ .host) (p3 : (main_v106 : Ref sig .tc).isScoped = false) (v : FVec Ideal S50000x128 .f32) :
    (TRef.of (T := ⟨S50000x128, .f32⟩) main_v106 p1 p2 p3).toBuf (Val := Elt Ideal) v = v := rfl
theorem obv_main_v106 (p1 : (main_v106 : Ref sig .tc).ty = ⟨S50000x128, .f32⟩) (p2 : (main_v106 : Ref sig .tc).space ≠ .host) (p3 : (main_v106 : Ref sig .tc).isScoped = false) (v : FVec Ideal S50000x128 .f32) :
    (TRef.of (T := ⟨S50000x128, .f32⟩) main_v106 p1 p2 p3).ofBuf (Val := Elt Ideal) v = v := rfl
theorem tb_main_v107 (p1 : (main_v107 : Ref sig .tc).ty = ⟨S50000x128, .f32⟩) (p2 : (main_v107 : Ref sig .tc).space ≠ .host) (p3 : (main_v107 : Ref sig .tc).isScoped = false) (v : (⟨S50000x128, .f32⟩ : BufTy).Contents (Elt F)) :
    (TRef.of (T := ⟨S50000x128, .f32⟩) main_v107 p1 p2 p3).toBuf v = v := rfl
theorem ob_main_v107 (p1 : (main_v107 : Ref sig .tc).ty = ⟨S50000x128, .f32⟩) (p2 : (main_v107 : Ref sig .tc).space ≠ .host) (p3 : (main_v107 : Ref sig .tc).isScoped = false) (v : (⟨S50000x128, .f32⟩ : BufTy).Contents (Elt F)) :
    (TRef.of (T := ⟨S50000x128, .f32⟩) main_v107 p1 p2 p3).ofBuf v = v := rfl
theorem tbv_main_v107 (p1 : (main_v107 : Ref sig .tc).ty = ⟨S50000x128, .f32⟩) (p2 : (main_v107 : Ref sig .tc).space ≠ .host) (p3 : (main_v107 : Ref sig .tc).isScoped = false) (v : FVec Ideal S50000x128 .f32) :
    (TRef.of (T := ⟨S50000x128, .f32⟩) main_v107 p1 p2 p3).toBuf (Val := Elt Ideal) v = v := rfl
theorem obv_main_v107 (p1 : (main_v107 : Ref sig .tc).ty = ⟨S50000x128, .f32⟩) (p2 : (main_v107 : Ref sig .tc).space ≠ .host) (p3 : (main_v107 : Ref sig .tc).isScoped = false) (v : FVec Ideal S50000x128 .f32) :
    (TRef.of (T := ⟨S50000x128, .f32⟩) main_v107 p1 p2 p3).ofBuf (Val := Elt Ideal) v = v := rfl
theorem tb_main_call4_cst (p1 : (main_call4_cst : Ref sig .tc).ty = ⟨S_, .f32⟩) (p2 : (main_call4_cst : Ref sig .tc).space ≠ .host) (p3 : (main_call4_cst : Ref sig .tc).isScoped = false) (v : (⟨S_, .f32⟩ : BufTy).Contents (Elt F)) :
    (TRef.of (T := ⟨S_, .f32⟩) main_call4_cst p1 p2 p3).toBuf v = v := rfl
theorem ob_main_call4_cst (p1 : (main_call4_cst : Ref sig .tc).ty = ⟨S_, .f32⟩) (p2 : (main_call4_cst : Ref sig .tc).space ≠ .host) (p3 : (main_call4_cst : Ref sig .tc).isScoped = false) (v : (⟨S_, .f32⟩ : BufTy).Contents (Elt F)) :
    (TRef.of (T := ⟨S_, .f32⟩) main_call4_cst p1 p2 p3).ofBuf v = v := rfl
theorem tbv_main_call4_cst (p1 : (main_call4_cst : Ref sig .tc).ty = ⟨S_, .f32⟩) (p2 : (main_call4_cst : Ref sig .tc).space ≠ .host) (p3 : (main_call4_cst : Ref sig .tc).isScoped = false) (v : FVec Ideal S_ .f32) :
    (TRef.of (T := ⟨S_, .f32⟩) main_call4_cst p1 p2 p3).toBuf (Val := Elt Ideal) v = v := rfl
theorem obv_main_call4_cst (p1 : (main_call4_cst : Ref sig .tc).ty = ⟨S_, .f32⟩) (p2 : (main_call4_cst : Ref sig .tc).space ≠ .host) (p3 : (main_call4_cst : Ref sig .tc).isScoped = false) (v : FVec Ideal S_ .f32) :
    (TRef.of (T := ⟨S_, .f32⟩) main_call4_cst p1 p2 p3).ofBuf (Val := Elt Ideal) v = v := rfl
theorem tb_main_call4_v0 (p1 : (main_call4_v0 : Ref sig .tc).ty = ⟨S50000x128, .f32⟩) (p2 : (main_call4_v0 : Ref sig .tc).space ≠ .host) (p3 : (main_call4_v0 : Ref sig .tc).isScoped = false) (v : (⟨S50000x128, .f32⟩ : BufTy).Contents (Elt F)) :
    (TRef.of (T := ⟨S50000x128, .f32⟩) main_call4_v0 p1 p2 p3).toBuf v = v := rfl
theorem ob_main_call4_v0 (p1 : (main_call4_v0 : Ref sig .tc).ty = ⟨S50000x128, .f32⟩) (p2 : (main_call4_v0 : Ref sig .tc).space ≠ .host) (p3 : (main_call4_v0 : Ref sig .tc).isScoped = false) (v : (⟨S50000x128, .f32⟩ : BufTy).Contents (Elt F)) :
    (TRef.of (T := ⟨S50000x128, .f32⟩) main_call4_v0 p1 p2 p3).ofBuf v = v := rfl
theorem tbv_main_call4_v0 (p1 : (main_call4_v0 : Ref sig .tc).ty = ⟨S50000x128, .f32⟩) (p2 : (main_call4_v0 : Ref sig .tc).space ≠ .host) (p3 : (main_call4_v0 : Ref sig .tc).isScoped = false) (v : FVec Ideal S50000x128 .f32) :
    (TRef.of (T := ⟨S50000x128, .f32⟩) main_call4_v0 p1 p2 p3).toBuf (Val := Elt Ideal) v = v := rfl
theorem obv_main_call4_v0 (p1 : (main_call4_v0 : Ref sig .tc).ty = ⟨S50000x128, .f32⟩) (p2 : (main_call4_v0 : Ref sig .tc).space ≠ .host) (p3 : (main_call4_v0 : Ref sig .tc).isScoped = false) (v : FVec Ideal S50000x128 .f32) :
    (TRef.of (T := ⟨S50000x128, .f32⟩) main_call4_v0 p1 p2 p3).ofBuf (Val := Elt Ideal) v = v := rfl
theorem tb_main_v149 (p1 : (main_v149 : Ref sig .tc).ty = ⟨S50000x128, .f32⟩) (p2 : (main_v149 : Ref sig .tc).space ≠ .host) (p3 : (main_v149 : Ref sig .tc).isScoped = false) (v : (⟨S50000x128, .f32⟩ : BufTy).Contents (Elt F)) :
    (TRef.of (T := ⟨S50000x128, .f32⟩) main_v149 p1 p2 p3).toBuf v = v := rfl
theorem ob_main_v149 (p1 : (main_v149 : Ref sig .tc).ty = ⟨S50000x128, .f32⟩) (p2 : (main_v149 : Ref sig .tc).space ≠ .host) (p3 : (main_v149 : Ref sig .tc).isScoped = false) (v : (⟨S50000x128, .f32⟩ : BufTy).Contents (Elt F)) :
    (TRef.of (T := ⟨S50000x128, .f32⟩) main_v149 p1 p2 p3).ofBuf v = v := rfl
theorem tbv_main_v149 (p1 : (main_v149 : Ref sig .tc).ty = ⟨S50000x128, .f32⟩) (p2 : (main_v149 : Ref sig .tc).space ≠ .host) (p3 : (main_v149 : Ref sig .tc).isScoped = false) (v : FVec Ideal S50000x128 .f32) :
    (TRef.of (T := ⟨S50000x128, .f32⟩) main_v149 p1 p2 p3).toBuf (Val := Elt Ideal) v = v := rfl
theorem obv_main_v149 (p1 : (main_v149 : Ref sig .tc).ty = ⟨S50000x128, .f32⟩) (p2 : (main_v149 : Ref sig .tc).space ≠ .host) (p3 : (main_v149 : Ref sig .tc).isScoped = false) (v : FVec Ideal S50000x128 .f32) :
    (TRef.of (T := ⟨S50000x128, .f32⟩) main_v149 p1 p2 p3).ofBuf (Val := Elt Ideal) v = v := rfl
theorem tb_main_v150 (p1 : (main_v150 : Ref sig .tc).ty = ⟨S50000x128, .f32⟩) (p2 : (main_v150 : Ref sig .tc).space ≠ .host) (p3 : (main_v150 : Ref sig .tc).isScoped = false) (v : (⟨S50000x128, .f32⟩ : BufTy).Contents (Elt F)) :
    (TRef.of (T := ⟨S50000x128, .f32⟩) main_v150 p1 p2 p3).toBuf v = v := rfl
theorem ob_main_v150 (p1 : (main_v150 : Ref sig .tc).ty = ⟨S50000x128, .f32⟩) (p2 : (main_v150 : Ref sig .tc).space ≠ .host) (p3 : (main_v150 : Ref sig .tc).isScoped = false) (v : (⟨S50000x128, .f32⟩ : BufTy).Contents (Elt F)) :
    (TRef.of (T := ⟨S50000x128, .f32⟩) main_v150 p1 p2 p3).ofBuf v = v := rfl
theorem tbv_main_v150 (p1 : (main_v150 : Ref sig .tc).ty = ⟨S50000x128, .f32⟩) (p2 : (main_v150 : Ref sig .tc).space ≠ .host) (p3 : (main_v150 : Ref sig .tc).isScoped = false) (v : FVec Ideal S50000x128 .f32) :
    (TRef.of (T := ⟨S50000x128, .f32⟩) main_v150 p1 p2 p3).toBuf (Val := Elt Ideal) v = v := rfl
theorem obv_main_v150 (p1 : (main_v150 : Ref sig .tc).ty = ⟨S50000x128, .f32⟩) (p2 : (main_v150 : Ref sig .tc).space ≠ .host) (p3 : (main_v150 : Ref sig .tc).isScoped = false) (v : FVec Ideal S50000x128 .f32) :
    (TRef.of (T := ⟨S50000x128, .f32⟩) main_v150 p1 p2 p3).ofBuf (Val := Elt Ideal) v = v := rfl
theorem tb_main_call5_cst (p1 : (main_call5_cst : Ref sig .tc).ty = ⟨S_, .f32⟩) (p2 : (main_call5_cst : Ref sig .tc).space ≠ .host) (p3 : (main_call5_cst : Ref sig .tc).isScoped = false) (v : (⟨S_, .f32⟩ : BufTy).Contents (Elt F)) :
    (TRef.of (T := ⟨S_, .f32⟩) main_call5_cst p1 p2 p3).toBuf v = v := rfl
theorem ob_main_call5_cst (p1 : (main_call5_cst : Ref sig .tc).ty = ⟨S_, .f32⟩) (p2 : (main_call5_cst : Ref sig .tc).space ≠ .host) (p3 : (main_call5_cst : Ref sig .tc).isScoped = false) (v : (⟨S_, .f32⟩ : BufTy).Contents (Elt F)) :
    (TRef.of (T := ⟨S_, .f32⟩) main_call5_cst p1 p2 p3).ofBuf v = v := rfl
theorem tbv_main_call5_cst (p1 : (main_call5_cst : Ref sig .tc).ty = ⟨S_, .f32⟩) (p2 : (main_call5_cst : Ref sig .tc).space ≠ .host) (p3 : (main_call5_cst : Ref sig .tc).isScoped = false) (v : FVec Ideal S_ .f32) :
    (TRef.of (T := ⟨S_, .f32⟩) main_call5_cst p1 p2 p3).toBuf (Val := Elt Ideal) v = v := rfl
theorem obv_main_call5_cst (p1 : (main_call5_cst : Ref sig .tc).ty = ⟨S_, .f32⟩) (p2 : (main_call5_cst : Ref sig .tc).space ≠ .host) (p3 : (main_call5_cst : Ref sig .tc).isScoped = false) (v : FVec Ideal S_ .f32) :
    (TRef.of (T := ⟨S_, .f32⟩) main_call5_cst p1 p2 p3).ofBuf (Val := Elt Ideal) v = v := rfl
theorem tb_main_call5_v0 (p1 : (main_call5_v0 : Ref sig .tc).ty = ⟨S50000x128, .f32⟩) (p2 : (main_call5_v0 : Ref sig .tc).space ≠ .host) (p3 : (main_call5_v0 : Ref sig .tc).isScoped = false) (v : (⟨S50000x128, .f32⟩ : BufTy).Contents (Elt F)) :
    (TRef.of (T := ⟨S50000x128, .f32⟩) main_call5_v0 p1 p2 p3).toBuf v = v := rfl
theorem ob_main_call5_v0 (p1 : (main_call5_v0 : Ref sig .tc).ty = ⟨S50000x128, .f32⟩) (p2 : (main_call5_v0 : Ref sig .tc).space ≠ .host) (p3 : (main_call5_v0 : Ref sig .tc).isScoped = false) (v : (⟨S50000x128, .f32⟩ : BufTy).Contents (Elt F)) :
    (TRef.of (T := ⟨S50000x128, .f32⟩) main_call5_v0 p1 p2 p3).ofBuf v = v := rfl
theorem tbv_main_call5_v0 (p1 : (main_call5_v0 : Ref sig .tc).ty = ⟨S50000x128, .f32⟩) (p2 : (main_call5_v0 : Ref sig .tc).space ≠ .host) (p3 : (main_call5_v0 : Ref sig .tc).isScoped = false) (v : FVec Ideal S50000x128 .f32) :
    (TRef.of (T := ⟨S50000x128, .f32⟩) main_call5_v0 p1 p2 p3).toBuf (Val := Elt Ideal) v = v := rfl
theorem obv_main_call5_v0 (p1 : (main_call5_v0 : Ref sig .tc).ty = ⟨S50000x128, .f32⟩) (p2 : (main_call5_v0 : Ref sig .tc).space ≠ .host) (p3 : (main_call5_v0 : Ref sig .tc).isScoped = false) (v : FVec Ideal S50000x128 .f32) :
    (TRef.of (T := ⟨S50000x128, .f32⟩) main_call5_v0 p1 p2 p3).ofBuf (Val := Elt Ideal) v = v := rfl
theorem tb_main_v158 (p1 : (main_v158 : Ref sig .tc).ty = ⟨S50000x128, .f32⟩) (p2 : (main_v158 : Ref sig .tc).space ≠ .host) (p3 : (main_v158 : Ref sig .tc).isScoped = false) (v : (⟨S50000x128, .f32⟩ : BufTy).Contents (Elt F)) :
    (TRef.of (T := ⟨S50000x128, .f32⟩) main_v158 p1 p2 p3).toBuf v = v := rfl
theorem ob_main_v158 (p1 : (main_v158 : Ref sig .tc).ty = ⟨S50000x128, .f32⟩) (p2 : (main_v158 : Ref sig .tc).space ≠ .host) (p3 : (main_v158 : Ref sig .tc).isScoped = false) (v : (⟨S50000x128, .f32⟩ : BufTy).Contents (Elt F)) :
    (TRef.of (T := ⟨S50000x128, .f32⟩) main_v158 p1 p2 p3).ofBuf v = v := rfl
theorem tbv_main_v158 (p1 : (main_v158 : Ref sig .tc).ty = ⟨S50000x128, .f32⟩) (p2 : (main_v158 : Ref sig .tc).space ≠ .host) (p3 : (main_v158 : Ref sig .tc).isScoped = false) (v : FVec Ideal S50000x128 .f32) :
    (TRef.of (T := ⟨S50000x128, .f32⟩) main_v158 p1 p2 p3).toBuf (Val := Elt Ideal) v = v := rfl
theorem obv_main_v158 (p1 : (main_v158 : Ref sig .tc).ty = ⟨S50000x128, .f32⟩) (p2 : (main_v158 : Ref sig .tc).space ≠ .host) (p3 : (main_v158 : Ref sig .tc).isScoped = false) (v : FVec Ideal S50000x128 .f32) :
    (TRef.of (T := ⟨S50000x128, .f32⟩) main_v158 p1 p2 p3).ofBuf (Val := Elt Ideal) v = v := rfl
theorem tb_main_v159 (p1 : (main_v159 : Ref sig .tc).ty = ⟨S50000x128, .f32⟩) (p2 : (main_v159 : Ref sig .tc).space ≠ .host) (p3 : (main_v159 : Ref sig .tc).isScoped = false) (v : (⟨S50000x128, .f32⟩ : BufTy).Contents (Elt F)) :
    (TRef.of (T := ⟨S50000x128, .f32⟩) main_v159 p1 p2 p3).toBuf v = v := rfl
theorem ob_main_v159 (p1 : (main_v159 : Ref sig .tc).ty = ⟨S50000x128, .f32⟩) (p2 : (main_v159 : Ref sig .tc).space ≠ .host) (p3 : (main_v159 : Ref sig .tc).isScoped = false) (v : (⟨S50000x128, .f32⟩ : BufTy).Contents (Elt F)) :
    (TRef.of (T := ⟨S50000x128, .f32⟩) main_v159 p1 p2 p3).ofBuf v = v := rfl
theorem tbv_main_v159 (p1 : (main_v159 : Ref sig .tc).ty = ⟨S50000x128, .f32⟩) (p2 : (main_v159 : Ref sig .tc).space ≠ .host) (p3 : (main_v159 : Ref sig .tc).isScoped = false) (v : FVec Ideal S50000x128 .f32) :
    (TRef.of (T := ⟨S50000x128, .f32⟩) main_v159 p1 p2 p3).toBuf (Val := Elt Ideal) v = v := rfl
theorem obv_main_v159 (p1 : (main_v159 : Ref sig .tc).ty = ⟨S50000x128, .f32⟩) (p2 : (main_v159 : Ref sig .tc).space ≠ .host) (p3 : (main_v159 : Ref sig .tc).isScoped = false) (v : FVec Ideal S50000x128 .f32) :
    (TRef.of (T := ⟨S50000x128, .f32⟩) main_v159 p1 p2 p3).ofBuf (Val := Elt Ideal) v = v := rfl
theorem tb_main_call6_cst (p1 : (main_call6_cst : Ref sig .tc).ty = ⟨S_, .f32⟩) (p2 : (main_call6_cst : Ref sig .tc).space ≠ .host) (p3 : (main_call6_cst : Ref sig .tc).isScoped = false) (v : (⟨S_, .f32⟩ : BufTy).Contents (Elt F)) :
    (TRef.of (T := ⟨S_, .f32⟩) main_call6_cst p1 p2 p3).toBuf v = v := rfl
theorem ob_main_call6_cst (p1 : (main_call6_cst : Ref sig .tc).ty = ⟨S_, .f32⟩) (p2 : (main_call6_cst : Ref sig .tc).space ≠ .host) (p3 : (main_call6_cst : Ref sig .tc).isScoped = false) (v : (⟨S_, .f32⟩ : BufTy).Contents (Elt F)) :
    (TRef.of (T := ⟨S_, .f32⟩) main_call6_cst p1 p2 p3).ofBuf v = v := rfl
theorem tbv_main_call6_cst (p1 : (main_call6_cst : Ref sig .tc).ty = ⟨S_, .f32⟩) (p2 : (main_call6_cst : Ref sig .tc).space ≠ .host) (p3 : (main_call6_cst : Ref sig .tc).isScoped = false) (v : FVec Ideal S_ .f32) :
    (TRef.of (T := ⟨S_, .f32⟩) main_call6_cst p1 p2 p3).toBuf (Val := Elt Ideal) v = v := rfl
theorem obv_main_call6_cst (p1 : (main_call6_cst : Ref sig .tc).ty = ⟨S_, .f32⟩) (p2 : (main_call6_cst : Ref sig .tc).space ≠ .host) (p3 : (main_call6_cst : Ref sig .tc).isScoped = false) (v : FVec Ideal S_ .f32) :
    (TRef.of (T := ⟨S_, .f32⟩) main_call6_cst p1 p2 p3).ofBuf (Val := Elt Ideal) v = v := rfl
theorem tb_main_call6_v0 (p1 : (main_call6_v0 : Ref sig .tc).ty = ⟨S50000x128, .f32⟩) (p2 : (main_call6_v0 : Ref sig .tc).space ≠ .host) (p3 : (main_call6_v0 : Ref sig .tc).isScoped = false) (v : (⟨S50000x128, .f32⟩ : BufTy).Contents (Elt F)) :
    (TRef.of (T := ⟨S50000x128, .f32⟩) main_call6_v0 p1 p2 p3).toBuf v = v := rfl
theorem ob_main_call6_v0 (p1 : (main_call6_v0 : Ref sig .tc).ty = ⟨S50000x128, .f32⟩) (p2 : (main_call6_v0 : Ref sig .tc).space ≠ .host) (p3 : (main_call6_v0 : Ref sig .tc).isScoped = false) (v : (⟨S50000x128, .f32⟩ : BufTy).Contents (Elt F)) :
    (TRef.of (T := ⟨S50000x128, .f32⟩) main_call6_v0 p1 p2 p3).ofBuf v = v := rfl
theorem tbv_main_call6_v0 (p1 : (main_call6_v0 : Ref sig .tc).ty = ⟨S50000x128, .f32⟩) (p2 : (main_call6_v0 : Ref sig .tc).space ≠ .host) (p3 : (main_call6_v0 : Ref sig .tc).isScoped = false) (v : FVec Ideal S50000x128 .f32) :
    (TRef.of (T := ⟨S50000x128, .f32⟩) main_call6_v0 p1 p2 p3).toBuf (Val := Elt Ideal) v = v := rfl
theorem obv_main_call6_v0 (p1 : (main_call6_v0 : Ref sig .tc).ty = ⟨S50000x128, .f32⟩) (p2 : (main_call6_v0 : Ref sig .tc).space ≠ .host) (p3 : (main_call6_v0 : Ref sig .tc).isScoped = false) (v : FVec Ideal S50000x128 .f32) :
    (TRef.of (T := ⟨S50000x128, .f32⟩) main_call6_v0 p1 p2 p3).ofBuf (Val := Elt Ideal) v = v := rfl
theorem tb_main_v163 (p1 : (main_v163 : Ref sig .tc).ty = ⟨S50000x128, .f32⟩) (p2 : (main_v163 : Ref sig .tc).space ≠ .host) (p3 : (main_v163 : Ref sig .tc).isScoped = false) (v : (⟨S50000x128, .f32⟩ : BufTy).Contents (Elt F)) :
    (TRef.of (T := ⟨S50000x128, .f32⟩) main_v163 p1 p2 p3).toBuf v = v := rfl
theorem ob_main_v163 (p1 : (main_v163 : Ref sig .tc).ty = ⟨S50000x128, .f32⟩) (p2 : (main_v163 : Ref sig .tc).space ≠ .host) (p3 : (main_v163 : Ref sig .tc).isScoped = false) (v : (⟨S50000x128, .f32⟩ : BufTy).Contents (Elt F)) :
    (TRef.of (T := ⟨S50000x128, .f32⟩) main_v163 p1 p2 p3).ofBuf v = v := rfl
theorem tbv_main_v163 (p1 : (main_v163 : Ref sig .tc).ty = ⟨S50000x128, .f32⟩) (p2 : (main_v163 : Ref sig .tc).space ≠ .host) (p3 : (main_v163 : Ref sig .tc).isScoped = false) (v : FVec Ideal S50000x128 .f32) :
    (TRef.of (T := ⟨S50000x128, .f32⟩) main_v163 p1 p2 p3).toBuf (Val := Elt Ideal) v = v := rfl
theorem obv_main_v163 (p1 : (main_v163 : Ref sig .tc).ty = ⟨S50000x128, .f32⟩) (p2 : (main_v163 : Ref sig .tc).space ≠ .host) (p3 : (main_v163 : Ref sig .tc).isScoped = false) (v : FVec Ideal S50000x128 .f32) :
    (TRef.of (T := ⟨S50000x128, .f32⟩) main_v163 p1 p2 p3).ofBuf (Val := Elt Ideal) v = v := rfl
theorem tb_main_v164 (p1 : (main_v164 : Ref sig .tc).ty = ⟨S50000x128, .f32⟩) (p2 : (main_v164 : Ref sig .tc).space ≠ .host) (p3 : (main_v164 : Ref sig .tc).isScoped = false) (v : (⟨S50000x128, .f32⟩ : BufTy).Contents (Elt F)) :
    (TRef.of (T := ⟨S50000x128, .f32⟩) main_v164 p1 p2 p3).toBuf v = v := rfl
theorem ob_main_v164 (p1 : (main_v164 : Ref sig .tc).ty = ⟨S50000x128, .f32⟩) (p2 : (main_v164 : Ref sig .tc).space ≠ .host) (p3 : (main_v164 : Ref sig .tc).isScoped = false) (v : (⟨S50000x128, .f32⟩ : BufTy).Contents (Elt F)) :
    (TRef.of (T := ⟨S50000x128, .f32⟩) main_v164 p1 p2 p3).ofBuf v = v := rfl
theorem tbv_main_v164 (p1 : (main_v164 : Ref sig .tc).ty = ⟨S50000x128, .f32⟩) (p2 : (main_v164 : Ref sig .tc).space ≠ .host) (p3 : (main_v164 : Ref sig .tc).isScoped = false) (v : FVec Ideal S50000x128 .f32) :
    (TRef.of (T := ⟨S50000x128, .f32⟩) main_v164 p1 p2 p3).toBuf (Val := Elt Ideal) v = v := rfl
theorem obv_main_v164 (p1 : (main_v164 : Ref sig .tc).ty = ⟨S50000x128, .f32⟩) (p2 : (main_v164 : Ref sig .tc).space ≠ .host) (p3 : (main_v164 : Ref sig .tc).isScoped = false) (v : FVec Ideal S50000x128 .f32) :
    (TRef.of (T := ⟨S50000x128, .f32⟩) main_v164 p1 p2 p3).ofBuf (Val := Elt Ideal) v = v := rfl
theorem tb_main_call7_cst (p1 : (main_call7_cst : Ref sig .tc).ty = ⟨S_, .f32⟩) (p2 : (main_call7_cst : Ref sig .tc).space ≠ .host) (p3 : (main_call7_cst : Ref sig .tc).isScoped = false) (v : (⟨S_, .f32⟩ : BufTy).Contents (Elt F)) :
    (TRef.of (T := ⟨S_, .f32⟩) main_call7_cst p1 p2 p3).toBuf v = v := rfl
theorem ob_main_call7_cst (p1 : (main_call7_cst : Ref sig .tc).ty = ⟨S_, .f32⟩) (p2 : (main_call7_cst : Ref sig .tc).space ≠ .host) (p3 : (main_call7_cst : Ref sig .tc).isScoped = false) (v : (⟨S_, .f32⟩ : BufTy).Contents (Elt F)) :
    (TRef.of (T := ⟨S_, .f32⟩) main_call7_cst p1 p2 p3).ofBuf v = v := rfl
theorem tbv_main_call7_cst (p1 : (main_call7_cst : Ref sig .tc).ty = ⟨S_, .f32⟩) (p2 : (main_call7_cst : Ref sig .tc).space ≠ .host) (p3 : (main_call7_cst : Ref sig .tc).isScoped = false) (v : FVec Ideal S_ .f32) :
    (TRef.of (T := ⟨S_, .f32⟩) main_call7_cst p1 p2 p3).toBuf (Val := Elt Ideal) v = v := rfl
theorem obv_main_call7_cst (p1 : (main_call7_cst : Ref sig .tc).ty = ⟨S_, .f32⟩) (p2 : (main_call7_cst : Ref sig .tc).space ≠ .host) (p3 : (main_call7_cst : Ref sig .tc).isScoped = false) (v : FVec Ideal S_ .f32) :
    (TRef.of (T := ⟨S_, .f32⟩) main_call7_cst p1 p2 p3).ofBuf (Val := Elt Ideal) v = v := rfl
theorem tb_main_v168 (p1 : (main_v168 : Ref sig .tc).ty = ⟨S50000x47, .f32⟩) (p2 : (main_v168 : Ref sig .tc).space ≠ .host) (p3 : (main_v168 : Ref sig .tc).isScoped = false) (v : (⟨S50000x47, .f32⟩ : BufTy).Contents (Elt F)) :
    (TRef.of (T := ⟨S50000x47, .f32⟩) main_v168 p1 p2 p3).toBuf v = v := rfl
theorem ob_main_v168 (p1 : (main_v168 : Ref sig .tc).ty = ⟨S50000x47, .f32⟩) (p2 : (main_v168 : Ref sig .tc).space ≠ .host) (p3 : (main_v168 : Ref sig .tc).isScoped = false) (v : (⟨S50000x47, .f32⟩ : BufTy).Contents (Elt F)) :
    (TRef.of (T := ⟨S50000x47, .f32⟩) main_v168 p1 p2 p3).ofBuf v = v := rfl
theorem tbv_main_v168 (p1 : (main_v168 : Ref sig .tc).ty = ⟨S50000x47, .f32⟩) (p2 : (main_v168 : Ref sig .tc).space ≠ .host) (p3 : (main_v168 : Ref sig .tc).isScoped = false) (v : FVec Ideal S50000x47 .f32) :
    (TRef.of (T := ⟨S50000x47, .f32⟩) main_v168 p1 p2 p3).toBuf (Val := Elt Ideal) v = v := rfl
theorem obv_main_v168 (p1 : (main_v168 : Ref sig .tc).ty = ⟨S50000x47, .f32⟩) (p2 : (main_v168 : Ref sig .tc).space ≠ .host) (p3 : (main_v168 : Ref sig .tc).isScoped = false) (v : FVec Ideal S50000x47 .f32) :
    (TRef.of (T := ⟨S50000x47, .f32⟩) main_v168 p1 p2 p3).ofBuf (Val := Elt Ideal) v = v := rfl
theorem tb_main_call7_v0 (p1 : (main_call7_v0 : Ref sig .tc).ty = ⟨S50000, .f32⟩) (p2 : (main_call7_v0 : Ref sig .tc).space ≠ .host) (p3 : (main_call7_v0 : Ref sig .tc).isScoped = false) (v : (⟨S50000, .f32⟩ : BufTy).Contents (Elt F)) :
    (TRef.of (T := ⟨S50000, .f32⟩) main_call7_v0 p1 p2 p3).toBuf v = v := rfl
theorem ob_main_call7_v0 (p1 : (main_call7_v0 : Ref sig .tc).ty = ⟨S50000, .f32⟩) (p2 : (main_call7_v0 : Ref sig .tc).space ≠ .host) (p3 : (main_call7_v0 : Ref sig .tc).isScoped = false) (v : (⟨S50000, .f32⟩ : BufTy).Contents (Elt F)) :
    (TRef.of (T := ⟨S50000, .f32⟩) main_call7_v0 p1 p2 p3).ofBuf v = v := rfl
theorem tbv_main_call7_v0 (p1 : (main_call7_v0 : Ref sig .tc).ty = ⟨S50000, .f32⟩) (p2 : (main_call7_v0 : Ref sig .tc).space ≠ .host) (p3 : (main_call7_v0 : Ref sig .tc).isScoped = false) (v : FVec Ideal S50000 .f32) :
    (TRef.of (T := ⟨S50000, .f32⟩) main_call7_v0 p1 p2 p3).toBuf (Val := Elt Ideal) v = v := rfl
theorem obv_main_call7_v0 (p1 : (main_call7_v0 : Ref sig .tc).ty = ⟨S50000, .f32⟩) (p2 : (main_call7_v0 : Ref sig .tc).space ≠ .host) (p3 : (main_call7_v0 : Ref sig .tc).isScoped = false) (v : FVec Ideal S50000 .f32) :
    (TRef.of (T := ⟨S50000, .f32⟩) main_call7_v0 p1 p2 p3).ofBuf (Val := Elt Ideal) v = v := rfl
theorem tb_main_call7_cst_0 (p1 : (main_call7_cst_0 : Ref sig .tc).ty = ⟨S_, .f32⟩) (p2 : (main_call7_cst_0 : Ref sig .tc).space ≠ .host) (p3 : (main_call7_cst_0 : Ref sig .tc).isScoped = false) (v : (⟨S_, .f32⟩ : BufTy).Contents (Elt F)) :
    (TRef.of (T := ⟨S_, .f32⟩) main_call7_cst_0 p1 p2 p3).toBuf v = v := rfl
theorem ob_main_call7_cst_0 (p1 : (main_call7_cst_0 : Ref sig .tc).ty = ⟨S_, .f32⟩) (p2 : (main_call7_cst_0 : Ref sig .tc).space ≠ .host) (p3 : (main_call7_cst_0 : Ref sig .tc).isScoped = false) (v : (⟨S_, .f32⟩ : BufTy).Contents (Elt F)) :
    (TRef.of (T := ⟨S_, .f32⟩) main_call7_cst_0 p1 p2 p3).ofBuf v = v := rfl
theorem tbv_main_call7_cst_0 (p1 : (main_call7_cst_0 : Ref sig .tc).ty = ⟨S_, .f32⟩) (p2 : (main_call7_cst_0 : Ref sig .tc).space ≠ .host) (p3 : (main_call7_cst_0 : Ref sig .tc).isScoped = false) (v : FVec Ideal S_ .f32) :
    (TRef.of (T := ⟨S_, .f32⟩) main_call7_cst_0 p1 p2 p3).toBuf (Val := Elt Ideal) v = v := rfl
theorem obv_main_call7_cst_0 (p1 : (main_call7_cst_0 : Ref sig .tc).ty = ⟨S_, .f32⟩) (p2 : (main_call7_cst_0 : Ref sig .tc).space ≠ .host) (p3 : (main_call7_cst_0 : Ref sig .tc).isScoped = false) (v : FVec Ideal S_ .f32) :
    (TRef.of (T := ⟨S_, .f32⟩) main_call7_cst_0 p1 p2 p3).ofBuf (Val := Elt Ideal) v = v := rfl
theorem tb_main_call7_v1 (p1 : (main_call7_v1 : Ref sig .tc).ty = ⟨S50000, .f32⟩) (p2 : (main_call7_v1 : Ref sig .tc).space ≠ .host) (p3 : (main_call7_v1 : Ref sig .tc).isScoped = false) (v : (⟨S50000, .f32⟩ : BufTy).Contents (Elt F)) :
    (TRef.of (T := ⟨S50000, .f32⟩) main_call7_v1 p1 p2 p3).toBuf v = v := rfl
theorem ob_main_call7_v1 (p1 : (main_call7_v1 : Ref sig .tc).ty = ⟨S50000, .f32⟩) (p2 : (main_call7_v1 : Ref sig .tc).space ≠ .host) (p3 : (main_call7_v1 : Ref sig .tc).isScoped = false) (v : (⟨S50000, .f32⟩ : BufTy).Contents (Elt F)) :
    (TRef.of (T := ⟨S50000, .f32⟩) main_call7_v1 p1 p2 p3).ofBuf v = v := rfl
theorem tbv_main_call7_v1 (p1 : (main_call7_v1 : Ref sig .tc).ty = ⟨S50000, .f32⟩) (p2 : (main_call7_v1 : Ref sig .tc).space ≠ .host) (p3 : (main_call7_v1 : Ref sig .tc).isScoped = false) (v : FVec Ideal S50000 .f32) :
    (TRef.of (T := ⟨S50000, .f32⟩) main_call7_v1 p1 p2 p3).toBuf (Val := Elt Ideal) v = v := rfl
theorem obv_main_call7_v1 (p1 : (main_call7_v1 : Ref sig .tc).ty = ⟨S50000, .f32⟩) (p2 : (main_call7_v1 : Ref sig .tc).space ≠ .host) (p3 : (main_call7_v1 : Ref sig .tc).isScoped = false) (v : FVec Ideal S50000 .f32) :
    (TRef.of (T := ⟨S50000, .f32⟩) main_call7_v1 p1 p2 p3).ofBuf (Val := Elt Ideal) v = v := rfl
theorem tb_main_call7_v2 (p1 : (main_call7_v2 : Ref sig .tc).ty = ⟨S50000, .f32⟩) (p2 : (main_call7_v2 : Ref sig .tc).space ≠ .host) (p3 : (main_call7_v2 : Ref sig .tc).isScoped = false) (v : (⟨S50000, .f32⟩ : BufTy).Contents (Elt F)) :
    (TRef.of (T := ⟨S50000, .f32⟩) main_call7_v2 p1 p2 p3).toBuf v = v := rfl
theorem ob_main_call7_v2 (p1 : (main_call7_v2 : Ref sig .tc).ty = ⟨S50000, .f32⟩) (p2 : (main_call7_v2 : Ref sig .tc).space ≠ .host) (p3 : (main_call7_v2 : Ref sig .tc).isScoped = false) (v : (⟨S50000, .f32⟩ : BufTy).Contents (Elt F)) :
    (TRef.of (T := ⟨S50000, .f32⟩) main_call7_v2 p1 p2 p3).ofBuf v = v := rfl
theorem tbv_main_call7_v2 (p1 : (main_call7_v2 : Ref sig .tc).ty = ⟨S50000, .f32⟩) (p2 : (main_call7_v2 : Ref sig .tc).space ≠ .host) (p3 : (main_call7_v2 : Ref sig .tc).isScoped = false) (v : FVec Ideal S50000 .f32) :
    (TRef.of (T := ⟨S50000, .f32⟩) main_call7_v2 p1 p2 p3).toBuf (Val := Elt Ideal) v = v := rfl
theorem obv_main_call7_v2 (p1 : (main_call7_v2 : Ref sig .tc).ty = ⟨S50000, .f32⟩) (p2 : (main_call7_v2 : Ref sig .tc).space ≠ .host) (p3 : (main_call7_v2 : Ref sig .tc).isScoped = false) (v : FVec Ideal S50000 .f32) :
    (TRef.of (T := ⟨S50000, .f32⟩) main_call7_v2 p1 p2 p3).ofBuf (Val := Elt Ideal) v = v := rfl
theorem tb_main_call7_v3 (p1 : (main_call7_v3 : Ref sig .tc).ty = ⟨S50000x1, .f32⟩) (p2 : (main_call7_v3 : Ref sig .tc).space ≠ .host) (p3 : (main_call7_v3 : Ref sig .tc).isScoped = false) (v : (⟨S50000x1, .f32⟩ : BufTy).Contents (Elt F)) :
    (TRef.of (T := ⟨S50000x1, .f32⟩) main_call7_v3 p1 p2 p3).toBuf v = v := rfl
theorem ob_main_call7_v3 (p1 : (main_call7_v3 : Ref sig .tc).ty = ⟨S50000x1, .f32⟩) (p2 : (main_call7_v3 : Ref sig .tc).space ≠ .host) (p3 : (main_call7_v3 : Ref sig .tc).isScoped = false) (v : (⟨S50000x1, .f32⟩ : BufTy).Contents (Elt F)) :
    (TRef.of (T := ⟨S50000x1, .f32⟩) main_call7_v3 p1 p2 p3).ofBuf v = v := rfl
theorem tbv_main_call7_v3 (p1 : (main_call7_v3 : Ref sig .tc).ty = ⟨S50000x1, .f32⟩) (p2 : (main_call7_v3 : Ref sig .tc).space ≠ .host) (p3 : (main_call7_v3 : Ref sig .tc).isScoped = false) (v : FVec Ideal S50000x1 .f32) :
    (TRef.of (T := ⟨S50000x1, .f32⟩) main_call7_v3 p1 p2 p3).toBuf (Val := Elt Ideal) v = v := rfl
theorem obv_main_call7_v3 (p1 : (main_call7_v3 : Ref sig .tc).ty = ⟨S50000x1, .f32⟩) (p2 : (main_call7_v3 : Ref sig .tc).space ≠ .host) (p3 : (main_call7_v3 : Ref sig .tc).isScoped = false) (v : FVec Ideal S50000x1 .f32) :
    (TRef.of (T := ⟨S50000x1, .f32⟩) main_call7_v3 p1 p2 p3).ofBuf (Val := Elt Ideal) v = v := rfl
theorem tb_main_call7_v4 (p1 : (main_call7_v4 : Ref sig .tc).ty = ⟨S50000x47, .f32⟩) (p2 : (main_call7_v4 : Ref sig .tc).space ≠ .host) (p3 : (main_call7_v4 : Ref sig .tc).isScoped = false) (v : (⟨S50000x47, .f32⟩ : BufTy).Contents (Elt F)) :
    (TRef.of (T := ⟨S50000x47, .f32⟩) main_call7_v4 p1 p2 p3).toBuf v = v := rfl
theorem ob_main_call7_v4 (p1 : (main_call7_v4 : Ref sig .tc).ty = ⟨S50000x47, .f32⟩) (p2 : (main_call7_v4 : Ref sig .tc).space ≠ .host) (p3 : (main_call7_v4 : Ref sig .tc).isScoped = false) (v : (⟨S50000x47, .f32⟩ : BufTy).Contents (Elt F)) :
    (TRef.of (T := ⟨S50000x47, .f32⟩) main_call7_v4 p1 p2 p3).ofBuf v = v := rfl
theorem tbv_main_call7_v4 (p1 : (main_call7_v4 : Ref sig .tc).ty = ⟨S50000x47, .f32⟩) (p2 : (main_call7_v4 : Ref sig .tc).space ≠ .host) (p3 : (main_call7_v4 : Ref sig .tc).isScoped = false) (v : FVec Ideal S50000x47 .f32) :
    (TRef.of (T := ⟨S50000x47, .f32⟩) main_call7_v4 p1 p2 p3).toBuf (Val := Elt Ideal) v = v := rfl
theorem obv_main_call7_v4 (p1 : (main_call7_v4 : Ref sig .tc).ty = ⟨S50000x47, .f32⟩) (p2 : (main_call7_v4 : Ref sig .tc).space ≠ .host) (p3 : (main_call7_v4 : Ref sig .tc).isScoped = false) (v : FVec Ideal S50000x47 .f32) :
    (TRef.of (T := ⟨S50000x47, .f32⟩) main_call7_v4 p1 p2 p3).ofBuf (Val := Elt Ideal) v = v := rfl
theorem tb_main_call7_v5 (p1 : (main_call7_v5 : Ref sig .tc).ty = ⟨S50000x47, .f32⟩) (p2 : (main_call7_v5 : Ref sig .tc).space ≠ .host) (p3 : (main_call7_v5 : Ref sig .tc).isScoped = false) (v : (⟨S50000x47, .f32⟩ : BufTy).Contents (Elt F)) :
    (TRef.of (T := ⟨S50000x47, .f32⟩) main_call7_v5 p1 p2 p3).toBuf v = v := rfl
theorem ob_main_call7_v5 (p1 : (main_call7_v5 : Ref sig .tc).ty = ⟨S50000x47, .f32⟩) (p2 : (main_call7_v5 : Ref sig .tc).space ≠ .host) (p3 : (main_call7_v5 : Ref sig .tc).isScoped = false) (v : (⟨S50000x47, .f32⟩ : BufTy).Contents (Elt F)) :
    (TRef.of (T := ⟨S50000x47, .f32⟩) main_call7_v5 p1 p2 p3).ofBuf v = v := rfl
theorem tbv_main_call7_v5 (p1 : (main_call7_v5 : Ref sig .tc).ty = ⟨S50000x47, .f32⟩) (p2 : (main_call7_v5 : Ref sig .tc).space ≠ .host) (p3 : (main_call7_v5 : Ref sig .tc).isScoped = false) (v : FVec Ideal S50000x47 .f32) :
    (TRef.of (T := ⟨S50000x47, .f32⟩) main_call7_v5 p1 p2 p3).toBuf (Val := Elt Ideal) v = v := rfl
theorem obv_main_call7_v5 (p1 : (main_call7_v5 : Ref sig .tc).ty = ⟨S50000x47, .f32⟩) (p2 : (main_call7_v5 : Ref sig .tc).space ≠ .host) (p3 : (main_call7_v5 : Ref sig .tc).isScoped = false) (v : FVec Ideal S50000x47 .f32) :
    (TRef.of (T := ⟨S50000x47, .f32⟩) main_call7_v5 p1 p2 p3).ofBuf (Val := Elt Ideal) v = v := rfl
theorem tb_main_call7_v6 (p1 : (main_call7_v6 : Ref sig .tc).ty = ⟨S50000x47, .f32⟩) (p2 : (main_call7_v6 : Ref sig .tc).space ≠ .host) (p3 : (main_call7_v6 : Ref sig .tc).isScoped = false) (v : (⟨S50000x47, .f32⟩ : BufTy).Contents (Elt F)) :
    (TRef.of (T := ⟨S50000x47, .f32⟩) main_call7_v6 p1 p2 p3).toBuf v = v := rfl
theorem ob_main_call7_v6 (p1 : (main_call7_v6 : Ref sig .tc).ty = ⟨S50000x47, .f32⟩) (p2 : (main_call7_v6 : Ref sig .tc).space ≠ .host) (p3 : (main_call7_v6 : Ref sig .tc).isScoped = false) (v : (⟨S50000x47, .f32⟩ : BufTy).Contents (Elt F)) :
    (TRef.of (T := ⟨S50000x47, .f32⟩) main_call7_v6 p1 p2 p3).ofBuf v = v := rfl
theorem tbv_main_call7_v6 (p1 : (main_call7_v6 : Ref sig .tc).ty = ⟨S50000x47, .f32⟩) (p2 : (main_call7_v6 : Ref sig .tc).space ≠ .host) (p3 : (main_call7_v6 : Ref sig .tc).isScoped = false) (v : FVec Ideal S50000x47 .f32) :
    (TRef.of (T := ⟨S50000x47, .f32⟩) main_call7_v6 p1 p2 p3).toBuf (Val := Elt Ideal) v = v := rfl
theorem obv_main_call7_v6 (p1 : (main_call7_v6 : Ref sig .tc).ty = ⟨S50000x47, .f32⟩) (p2 : (main_call7_v6 : Ref sig .tc).space ≠ .host) (p3 : (main_call7_v6 : Ref sig .tc).isScoped = false) (v : FVec Ideal S50000x47 .f32) :
    (TRef.of (T := ⟨S50000x47, .f32⟩) main_call7_v6 p1 p2 p3).ofBuf (Val := Elt Ideal) v = v := rfl
theorem tb_main_call7_cst_1 (p1 : (main_call7_cst_1 : Ref sig .tc).ty = ⟨S_, .f32⟩) (p2 : (main_call7_cst_1 : Ref sig .tc).space ≠ .host) (p3 : (main_call7_cst_1 : Ref sig .tc).isScoped = false) (v : (⟨S_, .f32⟩ : BufTy).Contents (Elt F)) :
    (TRef.of (T := ⟨S_, .f32⟩) main_call7_cst_1 p1 p2 p3).toBuf v = v := rfl
theorem ob_main_call7_cst_1 (p1 : (main_call7_cst_1 : Ref sig .tc).ty = ⟨S_, .f32⟩) (p2 : (main_call7_cst_1 : Ref sig .tc).space ≠ .host) (p3 : (main_call7_cst_1 : Ref sig .tc).isScoped = false) (v : (⟨S_, .f32⟩ : BufTy).Contents (Elt F)) :
    (TRef.of (T := ⟨S_, .f32⟩) main_call7_cst_1 p1 p2 p3).ofBuf v = v := rfl
theorem tbv_main_call7_cst_1 (p1 : (main_call7_cst_1 : Ref sig .tc).ty = ⟨S_, .f32⟩) (p2 : (main_call7_cst_1 : Ref sig .tc).space ≠ .host) (p3 : (main_call7_cst_1 : Ref sig .tc).isScoped = false) (v : FVec Ideal S_ .f32) :
    (TRef.of (T := ⟨S_, .f32⟩) main_call7_cst_1 p1 p2 p3).toBuf (Val := Elt Ideal) v = v := rfl
theorem obv_main_call7_cst_1 (p1 : (main_call7_cst_1 : Ref sig .tc).ty = ⟨S_, .f32⟩) (p2 : (main_call7_cst_1 : Ref sig .tc).space ≠ .host) (p3 : (main_call7_cst_1 : Ref sig .tc).isScoped = false) (v : FVec Ideal S_ .f32) :
    (TRef.of (T := ⟨S_, .f32⟩) main_call7_cst_1 p1 p2 p3).ofBuf (Val := Elt Ideal) v = v := rfl
theorem tb_main_call7_v7 (p1 : (main_call7_v7 : Ref sig .tc).ty = ⟨S50000, .f32⟩) (p2 : (main_call7_v7 : Ref sig .tc).space ≠ .host) (p3 : (main_call7_v7 : Ref sig .tc).isScoped = false) (v : (⟨S50000, .f32⟩ : BufTy).Contents (Elt F)) :
    (TRef.of (T := ⟨S50000, .f32⟩) main_call7_v7 p1 p2 p3).toBuf v = v := rfl
theorem ob_main_call7_v7 (p1 : (main_call7_v7 : Ref sig .tc).ty = ⟨S50000, .f32⟩) (p2 : (main_call7_v7 : Ref sig .tc).space ≠ .host) (p3 : (main_call7_v7 : Ref sig .tc).isScoped = false) (v : (⟨S50000, .f32⟩ : BufTy).Contents (Elt F)) :
    (TRef.of (T := ⟨S50000, .f32⟩) main_call7_v7 p1 p2 p3).ofBuf v = v := rfl
theorem tbv_main_call7_v7 (p1 : (main_call7_v7 : Ref sig .tc).ty = ⟨S50000, .f32⟩) (p2 : (main_call7_v7 : Ref sig .tc).space ≠ .host) (p3 : (main_call7_v7 : Ref sig .tc).isScoped = false) (v : FVec Ideal S50000 .f32) :
    (TRef.of (T := ⟨S50000, .f32⟩) main_call7_v7 p1 p2 p3).toBuf (Val := Elt Ideal) v = v := rfl
theorem obv_main_call7_v7 (p1 : (main_call7_v7 : Ref sig .tc).ty = ⟨S50000, .f32⟩) (p2 : (main_call7_v7 : Ref sig .tc).space ≠ .host) (p3 : (main_call7_v7 : Ref sig .tc).isScoped = false) (v : FVec Ideal S50000 .f32) :
    (TRef.of (T := ⟨S50000, .f32⟩) main_call7_v7 p1 p2 p3).ofBuf (Val := Elt Ideal) v = v := rfl
theorem tb_main_call7_v8 (p1 : (main_call7_v8 : Ref sig .tc).ty = ⟨S50000x1, .f32⟩) (p2 : (main_call7_v8 : Ref sig .tc).space ≠ .host) (p3 : (main_call7_v8 : Ref sig .tc).isScoped = false) (v : (⟨S50000x1, .f32⟩ : BufTy).Contents (Elt F)) :
    (TRef.of (T := ⟨S50000x1, .f32⟩) main_call7_v8 p1 p2 p3).toBuf v = v := rfl
theorem ob_main_call7_v8 (p1 : (main_call7_v8 : Ref sig .tc).ty = ⟨S50000x1, .f32⟩) (p2 : (main_call7_v8 : Ref sig .tc).space ≠ .host) (p3 : (main_call7_v8 : Ref sig .tc).isScoped = false) (v : (⟨S50000x1, .f32⟩ : BufTy).Contents (Elt F)) :
    (TRef.of (T := ⟨S50000x1, .f32⟩) main_call7_v8 p1 p2 p3).ofBuf v = v := rfl
theorem tbv_main_call7_v8 (p1 : (main_call7_v8 : Ref sig .tc).ty = ⟨S50000x1, .f32⟩) (p2 : (main_call7_v8 : Ref sig .tc).space ≠ .host) (p3 : (main_call7_v8 : Ref sig .tc).isScoped = false) (v : FVec Ideal S50000x1 .f32) :
    (TRef.of (T := ⟨S50000x1, .f32⟩) main_call7_v8 p1 p2 p3).toBuf (Val := Elt Ideal) v = v := rfl
theorem obv_main_call7_v8 (p1 : (main_call7_v8 : Ref sig .tc).ty = ⟨S50000x1, .f32⟩) (p2 : (main_call7_v8 : Ref sig .tc).space ≠ .host) (p3 : (main_call7_v8 : Ref sig .tc).isScoped = false) (v : FVec Ideal S50000x1 .f32) :
    (TRef.of (T := ⟨S50000x1, .f32⟩) main_call7_v8 p1 p2 p3).ofBuf (Val := Elt Ideal) v = v := rfl
theorem tb_main_call7_v9 (p1 : (main_call7_v9 : Ref sig .tc).ty = ⟨S50000x1, .f32⟩) (p2 : (main_call7_v9 : Ref sig .tc).space ≠ .host) (p3 : (main_call7_v9 : Ref sig .tc).isScoped = false) (v : (⟨S50000x1, .f32⟩ : BufTy).Contents (Elt F)) :
    (TRef.of (T := ⟨S50000x1, .f32⟩) main_call7_v9 p1 p2 p3).toBuf v = v := rfl
theorem ob_main_call7_v9 (p1 : (main_call7_v9 : Ref sig .tc).ty = ⟨S50000x1, .f32⟩) (p2 : (main_call7_v9 : Ref sig .tc).space ≠ .host) (p3 : (main_call7_v9 : Ref sig .tc).isScoped = false) (v : (⟨S50000x1, .f32⟩ : BufTy).Contents (Elt F)) :
    (TRef.of (T := ⟨S50000x1, .f32⟩) main_call7_v9 p1 p2 p3).ofBuf v = v := rfl
theorem tbv_main_call7_v9 (p1 : (main_call7_v9 : Ref sig .tc).ty = ⟨S50000x1, .f32⟩) (p2 : (main_call7_v9 : Ref sig .tc).space ≠ .host) (p3 : (main_call7_v9 : Ref sig .tc).isScoped = false) (v : FVec Ideal S50000x1 .f32) :
    (TRef.of (T := ⟨S50000x1, .f32⟩) main_call7_v9 p1 p2 p3).toBuf (Val := Elt Ideal) v = v := rfl
theorem obv_main_call7_v9 (p1 : (main_call7_v9 : Ref sig .tc).ty = ⟨S50000x1, .f32⟩) (p2 : (main_call7_v9 : Ref sig .tc).space ≠ .host) (p3 : (main_call7_v9 : Ref sig .tc).isScoped = false) (v : FVec Ideal S50000x1 .f32) :
    (TRef.of (T := ⟨S50000x1, .f32⟩) main_call7_v9 p1 p2 p3).ofBuf (Val := Elt Ideal) v = v := rfl
theorem tb_main_call7_v10 (p1 : (main_call7_v10 : Ref sig .tc).ty = ⟨S50000x47, .f32⟩) (p2 : (main_call7_v10 : Ref sig .tc).space ≠ .host) (p3 : (main_call7_v10 : Ref sig .tc).isScoped = false) (v : (⟨S50000x47, .f32⟩ : BufTy).Contents (Elt F)) :
    (TRef.of (T := ⟨S50000x47, .f32⟩) main_call7_v10 p1 p2 p3).toBuf v = v := rfl
theorem ob_main_call7_v10 (p1 : (main_call7_v10 : Ref sig .tc).ty = ⟨S50000x47, .f32⟩) (p2 : (main_call7_v10 : Ref sig .tc).space ≠ .host) (p3 : (main_call7_v10 : Ref sig .tc).isScoped = false) (v : (⟨S50000x47, .f32⟩ : BufTy).Contents (Elt F)) :
    (TRef.of (T := ⟨S50000x47, .f32⟩) main_call7_v10 p1 p2 p3).ofBuf v = v := rfl
theorem tbv_main_call7_v10 (p1 : (main_call7_v10 : Ref sig .tc).ty = ⟨S50000x47, .f32⟩) (p2 : (main_call7_v10 : Ref sig .tc).space ≠ .host) (p3 : (main_call7_v10 : Ref sig .tc).isScoped = false) (v : FVec Ideal S50000x47 .f32) :
    (TRef.of (T := ⟨S50000x47, .f32⟩) main_call7_v10 p1 p2 p3).toBuf (Val := Elt Ideal) v = v := rfl
theorem obv_main_call7_v10 (p1 : (main_call7_v10 : Ref sig .tc).ty = ⟨S50000x47, .f32⟩) (p2 : (main_call7_v10 : Ref sig .tc).space ≠ .host) (p3 : (main_call7_v10 : Ref sig .tc).isScoped = false) (v : FVec Ideal S50000x47 .f32) :
    (TRef.of (T := ⟨S50000x47, .f32⟩) main_call7_v10 p1 p2 p3).ofBuf (Val := Elt Ideal) v = v := rfl
theorem tb_main_v169 (p1 : (main_v169 : Ref sig .tc).ty = ⟨S50000x47, .f32⟩) (p2 : (main_v169 : Ref sig .tc).space ≠ .host) (p3 : (main_v169 : Ref sig .tc).isScoped = false) (v : (⟨S50000x47, .f32⟩ : BufTy).Contents (Elt F)) :
    (TRef.of (T := ⟨S50000x47, .f32⟩) main_v169 p1 p2 p3).toBuf v = v := rfl
theorem ob_main_v169 (p1 : (main_v169 : Ref sig .tc).ty = ⟨S50000x47, .f32⟩) (p2 : (main_v169 : Ref sig .tc).space ≠ .host) (p3 : (main_v169 : Ref sig .tc).isScoped = false) (v : (⟨S50000x47, .f32⟩ : BufTy).Contents (Elt F)) :
    (TRef.of (T := ⟨S50000x47, .f32⟩) main_v169 p1 p2 p3).ofBuf v = v := rfl
theorem tbv_main_v169 (p1 : (main_v169 : Ref sig .tc).ty = ⟨S50000x47, .f32⟩) (p2 : (main_v169 : Ref sig .tc).space ≠ .host) (p3 : (main_v169 : Ref sig .tc).isScoped = false) (v : FVec Ideal S50000x47 .f32) :
    (TRef.of (T := ⟨S50000x47, .f32⟩) main_v169 p1 p2 p3).toBuf (Val := Elt Ideal) v = v := rfl
theorem obv_main_v169 (p1 : (main_v169 : Ref sig .tc).ty = ⟨S50000x47, .f32⟩) (p2 : (main_v169 : Ref sig .tc).space ≠ .host) (p3 : (main_v169 : Ref sig .tc).isScoped = false) (v : FVec Ideal S50000x47 .f32) :
    (TRef.of (T := ⟨S50000x47, .f32⟩) main_v169 p1 p2 p3).ofBuf (Val := Elt Ideal) v = v := rfl

end Cert.GinRefRun

end
-- ==== Proof.RefSeg0.lean ====
/-
  The first segment of the reference's line: from the launch contents, its last buffer holds the first layer's stage.
-/
import proofs.«125315_j5282809775005_2_alg».proof.Proof.RefSegs
import proofs.«125315_j5282809775005_2_alg».proof.Proof.RefCasts

set_option maxRecDepth 16384

noncomputable section

namespace Cert.GinRefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

set_option maxHeartbeats 40000000 in
/-- The first layer's output, from the launch contents. -/
theorem s0_h : after seg0 V (Proc.devRef .tc main_v55) = val_main_v55 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  repeat (first | rw [tb_main_call0_cst] | rw [tbv_main_call0_cst] | rw [tb_main_call0_v0] | rw [tbv_main_call0_v0] | rw [tb_main_v46] | rw [tbv_main_v46] | rw [tb_main_call1_cst] | rw [tbv_main_call1_cst] | rw [tb_main_call1_v0] | rw [tbv_main_call1_v0] | rw [tb_main_v55] | rw [tbv_main_v55] | rw [ob_main_call0_cst] | rw [obv_main_call0_cst] | rw [ob_main_v45] | rw [obv_main_v45] | rw [ob_main_call0_v0] | rw [obv_main_call0_v0] | rw [ob_main_call1_cst] | rw [obv_main_call1_cst] | rw [ob_main_v54] | rw [obv_main_v54] | rw [ob_main_call1_v0] | rw [obv_main_call1_v0])
  simp only [val_main_v0, val_main_v1, val_main_v2, val_main_v3, val_main_c, val_main_v4, val_main_v5, val_main_c_0, val_main_v6, val_main_v7, val_main_v8, val_main_v9, val_main_v10, val_main_cst, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_cst_1, val_main_v30, val_main_v31, val_main_v32, val_main_v33, val_main_v34, val_main_v35, val_main_v36, val_main_v37, val_main_v38, val_main_v39, val_main_v40, val_main_v41, val_main_v42, val_main_v43, val_main_v44, val_main_v45, val_main_call0_cst, val_main_call0_v0, val_main_v46, val_main_v47, val_main_v48, val_main_v49, val_main_v50, val_main_v51, val_main_v52, val_main_v53, val_main_v54, val_main_call1_cst, val_main_call1_v0, val_main_v55]
  all_goals first | rfl | decide

end Cert.GinRefRun

end
-- ==== Proof.RefSeg1.lean ====
/-
  The second segment of the reference's line: from contents holding the first layer's stage, the index lists and the
  parameters, its last buffer holds the second layer's stage.
-/
import proofs.«125315_j5282809775005_2_alg».proof.Proof.RefSegs
import proofs.«125315_j5282809775005_2_alg».proof.Proof.RefCasts

set_option maxRecDepth 16384

noncomputable section

namespace Cert.GinRefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

variable (x0 : (⟨S50000x128, .f32⟩ : BufTy).Contents (Elt Ideal)) (x1 : (⟨S2x800000, .i32⟩ : BufTy).Contents (Elt Ideal))
  (x2 : (⟨S3x128x128, .f32⟩ : BufTy).Contents (Elt Ideal)) (x3 x4 x5 x6 x7 : (⟨S3x128, .f32⟩ : BufTy).Contents (Elt Ideal))
  (x8 : (⟨S3x128x128, .f32⟩ : BufTy).Contents (Elt Ideal)) (x9 : (⟨S3x128, .f32⟩ : BufTy).Contents (Elt Ideal))
  (x10 : (⟨S128x128, .f32⟩ : BufTy).Contents (Elt Ideal)) (x11 : (⟨S128, .f32⟩ : BufTy).Contents (Elt Ideal))
  (x12 : (⟨S128x47, .f32⟩ : BufTy).Contents (Elt Ideal)) (x13 : (⟨S47, .f32⟩ : BufTy).Contents (Elt Ideal))

set_option maxHeartbeats 40000000 in
/-- The second layer's output, from contents holding the first layer's output, the index lists and the parameters. -/
theorem s1_h (hh : V (Proc.devRef .tc main_v55) = val_main_v55 (F := Ideal) x0 x1 x2 x3 x4 x5 x6 x7 x8 x9)
    (h1 : V (Proc.devRef .tc main_v1) = val_main_v1 (F := Ideal) x1) (h3 : V (Proc.devRef .tc main_v3) = val_main_v3 (F := Ideal) x1)
    (g2 : V (Proc.devRef .tc main_arg2) = x2) (g3 : V (Proc.devRef .tc main_arg3) = x3) (g4 : V (Proc.devRef .tc main_arg4) = x4) (g5 : V (Proc.devRef .tc main_arg5) = x5) (g6 : V (Proc.devRef .tc main_arg6) = x6) (g7 : V (Proc.devRef .tc main_arg7) = x7) (g8 : V (Proc.devRef .tc main_arg8) = x8) (g9 : V (Proc.devRef .tc main_arg9) = x9) :
    after seg1 V (Proc.devRef .tc main_v107) = val_main_v107 (F := Ideal) x0 x1 x2 x3 x4 x5 x6 x7 x8 x9 := by
  after_results_simp
  repeat (first | rw [tb_main_call2_cst] | rw [tbv_main_call2_cst] | rw [tb_main_call2_v0] | rw [tbv_main_call2_v0] | rw [tb_main_v98] | rw [tbv_main_v98] | rw [tb_main_call3_cst] | rw [tbv_main_call3_cst] | rw [tb_main_call3_v0] | rw [tbv_main_call3_v0] | rw [tb_main_v107] | rw [tbv_main_v107] | rw [ob_main_call2_cst] | rw [obv_main_call2_cst] | rw [ob_main_v97] | rw [obv_main_v97] | rw [ob_main_call2_v0] | rw [obv_main_call2_v0] | rw [ob_main_call3_cst] | rw [obv_main_call3_cst] | rw [ob_main_v106] | rw [obv_main_v106] | rw [ob_main_call3_v0] | rw [obv_main_call3_v0])
  rw [hh, h1, h3, g2, g3, g4, g5, g6, g7, g8, g9]
  simp only [val_main_c_2, val_main_v56, val_main_v57, val_main_c_3, val_main_v58, val_main_v59, val_main_v60, val_main_v61, val_main_v62, val_main_cst_4, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_5, val_main_v82, val_main_v83, val_main_v84, val_main_v85, val_main_v86, val_main_v87, val_main_v88, val_main_v89, val_main_v90, val_main_v91, val_main_v92, val_main_v93, val_main_v94, val_main_v95, val_main_v96, val_main_v97, val_main_call2_cst, val_main_call2_v0, val_main_v98, val_main_v99, val_main_v100, val_main_v101, val_main_v102, val_main_v103, val_main_v104, val_main_v105, val_main_v106, val_main_call3_cst, val_main_call3_v0, val_main_v107]
  all_goals first | rfl | decide

end Cert.GinRefRun

end
-- ==== Proof.RefSeg2.lean ====
/-
  The third segment of the reference's line: the third layer's stage from the second's.
-/
import proofs.«125315_j5282809775005_2_alg».proof.Proof.RefSegs
import proofs.«125315_j5282809775005_2_alg».proof.Proof.RefCasts

set_option maxRecDepth 16384

noncomputable section

namespace Cert.GinRefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

variable (x0 : (⟨S50000x128, .f32⟩ : BufTy).Contents (Elt Ideal)) (x1 : (⟨S2x800000, .i32⟩ : BufTy).Contents (Elt Ideal))
  (x2 : (⟨S3x128x128, .f32⟩ : BufTy).Contents (Elt Ideal)) (x3 x4 x5 x6 x7 : (⟨S3x128, .f32⟩ : BufTy).Contents (Elt Ideal))
  (x8 : (⟨S3x128x128, .f32⟩ : BufTy).Contents (Elt Ideal)) (x9 : (⟨S3x128, .f32⟩ : BufTy).Contents (Elt Ideal))
  (x10 : (⟨S128x128, .f32⟩ : BufTy).Contents (Elt Ideal)) (x11 : (⟨S128, .f32⟩ : BufTy).Contents (Elt Ideal))
  (x12 : (⟨S128x47, .f32⟩ : BufTy).Contents (Elt Ideal)) (x13 : (⟨S47, .f32⟩ : BufTy).Contents (Elt Ideal))

set_option maxHeartbeats 40000000 in
/-- The third layer's output, likewise. -/
theorem s2_h (hh : V (Proc.devRef .tc main_v107) = val_main_v107 (F := Ideal) x0 x1 x2 x3 x4 x5 x6 x7 x8 x9)
    (h1 : V (Proc.devRef .tc main_v1) = val_main_v1 (F := Ideal) x1) (h3 : V (Proc.devRef .tc main_v3) = val_main_v3 (F := Ideal) x1)
    (g2 : V (Proc.devRef .tc main_arg2) = x2) (g3 : V (Proc.devRef .tc main_arg3) = x3) (g4 : V (Proc.devRef .tc main_arg4) = x4) (g5 : V (Proc.devRef .tc main_arg5) = x5) (g6 : V (Proc.devRef .tc main_arg6) = x6) (g7 : V (Proc.devRef .tc main_arg7) = x7) (g8 : V (Proc.devRef .tc main_arg8) = x8) (g9 : V (Proc.devRef .tc main_arg9) = x9) :
    after seg2 V (Proc.devRef .tc main_v159) = val_main_v159 (F := Ideal) x0 x1 x2 x3 x4 x5 x6 x7 x8 x9 := by
  after_results_simp
  repeat (first | rw [tb_main_call4_cst] | rw [tbv_main_call4_cst] | rw [tb_main_call4_v0] | rw [tbv_main_call4_v0] | rw [tb_main_v150] | rw [tbv_main_v150] | rw [tb_main_call5_cst] | rw [tbv_main_call5_cst] | rw [tb_main_call5_v0] | rw [tbv_main_call5_v0] | rw [tb_main_v159] | rw [tbv_main_v159] | rw [ob_main_call4_cst] | rw [obv_main_call4_cst] | rw [ob_main_v149] | rw [obv_main_v149] | rw [ob_main_call4_v0] | rw [obv_main_call4_v0] | rw [ob_main_call5_cst] | rw [obv_main_call5_cst] | rw [ob_main_v158] | rw [obv_main_v158] | rw [ob_main_call5_v0] | rw [obv_main_call5_v0])
  rw [hh, h1, h3, g2, g3, g4, g5, g6, g7, g8, g9]
  simp only [val_main_c_6, val_main_v108, val_main_v109, val_main_c_7, val_main_v110, val_main_v111, val_main_v112, val_main_v113, val_main_v114, val_main_cst_8, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_cst_9, val_main_v134, val_main_v135, val_main_v136, val_main_v137, val_main_v138, val_main_v139, val_main_v140, val_main_v141, val_main_v142, val_main_v143, val_main_v144, val_main_v145, val_main_v146, val_main_v147, val_main_v148, val_main_v149, val_main_call4_cst, val_main_call4_v0, val_main_v150, val_main_v151, val_main_v152, val_main_v153, val_main_v154, val_main_v155, val_main_v156, val_main_v157, val_main_v158, val_main_call5_cst, val_main_call5_v0, val_main_v159]
  all_goals first | rfl | decide

end Cert.GinRefRun

end
-- ==== Proof.RefSeg3.lean ====
/-
  The last segment of the reference's line: the head and the log-softmax, from the third layer's stage.
-/
import proofs.«125315_j5282809775005_2_alg».proof.Proof.RefSegs
import proofs.«125315_j5282809775005_2_alg».proof.Proof.RefCasts

set_option maxRecDepth 16384

noncomputable section

namespace Cert.GinRefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

variable (x0 : (⟨S50000x128, .f32⟩ : BufTy).Contents (Elt Ideal)) (x1 : (⟨S2x800000, .i32⟩ : BufTy).Contents (Elt Ideal))
  (x2 : (⟨S3x128x128, .f32⟩ : BufTy).Contents (Elt Ideal)) (x3 x4 x5 x6 x7 : (⟨S3x128, .f32⟩ : BufTy).Contents (Elt Ideal))
  (x8 : (⟨S3x128x128, .f32⟩ : BufTy).Contents (Elt Ideal)) (x9 : (⟨S3x128, .f32⟩ : BufTy).Contents (Elt Ideal))
  (x10 : (⟨S128x128, .f32⟩ : BufTy).Contents (Elt Ideal)) (x11 : (⟨S128, .f32⟩ : BufTy).Contents (Elt Ideal))
  (x12 : (⟨S128x47, .f32⟩ : BufTy).Contents (Elt Ideal)) (x13 : (⟨S47, .f32⟩ : BufTy).Contents (Elt Ideal))

set_option maxHeartbeats 40000000 in
/-- The log-probabilities, from contents holding the third layer's output and the head's parameters. -/
theorem s3_out (hh : V (Proc.devRef .tc main_v159) = val_main_v159 (F := Ideal) x0 x1 x2 x3 x4 x5 x6 x7 x8 x9)
    (g10 : V (Proc.devRef .tc main_arg10) = x10) (g11 : V (Proc.devRef .tc main_arg11) = x11) (g12 : V (Proc.devRef .tc main_arg12) = x12) (g13 : V (Proc.devRef .tc main_arg13) = x13) :
    after seg3 V (Proc.devRef .tc main_v169) = val_main_v169 (F := Ideal) x0 x1 x2 x3 x4 x5 x6 x7 x8 x9 x10 x11 x12 x13 := by
  after_results_simp
  repeat (first | rw [tb_main_call6_cst] | rw [tbv_main_call6_cst] | rw [tb_main_call6_v0] | rw [tbv_main_call6_v0] | rw [tb_main_v164] | rw [tbv_main_v164] | rw [tb_main_call7_cst] | rw [tbv_main_call7_cst] | rw [tb_main_call7_v0] | rw [tbv_main_call7_v0] | rw [tb_main_call7_cst_0] | rw [tbv_main_call7_cst_0] | rw [tb_main_call7_v1] | rw [tbv_main_call7_v1] | rw [tb_main_call7_v2] | rw [tbv_main_call7_v2] | rw [tb_main_call7_v3] | rw [tbv_main_call7_v3] | rw [tb_main_call7_v4] | rw [tbv_main_call7_v4] | rw [tb_main_call7_v5] | rw [tbv_main_call7_v5] | rw [tb_main_call7_v6] | rw [tbv_main_call7_v6] | rw [tb_main_call7_cst_1] | rw [tbv_main_call7_cst_1] | rw [tb_main_call7_v7] | rw [tbv_main_call7_v7] | rw [tb_main_call7_v8] | rw [tbv_main_call7_v8] | rw [tb_main_call7_v9] | rw [tbv_main_call7_v9] | rw [tb_main_call7_v10] | rw [tbv_main_call7_v10] | rw [tb_main_v169] | rw [tbv_main_v169] | rw [ob_main_call6_cst] | rw [obv_main_call6_cst] | rw [ob_main_v163] | rw [obv_main_v163] | rw [ob_main_call6_v0] | rw [obv_main_call6_v0] | rw [ob_main_v168] | rw [obv_main_v168] | rw [ob_main_call7_cst] | rw [obv_main_call7_cst] | rw [ob_main_call7_cst_0] | rw [obv_main_call7_cst_0] | rw [ob_main_call7_v1] | rw [obv_main_call7_v1] | rw [ob_main_call7_v0] | rw [obv_main_call7_v0] | rw [ob_main_call7_v2] | rw [obv_main_call7_v2] | rw [ob_main_call7_v3] | rw [obv_main_call7_v3] | rw [ob_main_call7_v4] | rw [obv_main_call7_v4] | rw [ob_main_call7_v5] | rw [obv_main_call7_v5] | rw [ob_main_call7_v6] | rw [obv_main_call7_v6] | rw [ob_main_call7_cst_1] | rw [obv_main_call7_cst_1] | rw [ob_main_call7_v7] | rw [obv_main_call7_v7] | rw [ob_main_call7_v8] | rw [obv_main_call7_v8] | rw [ob_main_call7_v9] | rw [obv_main_call7_v9] | rw [ob_main_call7_v10] | rw [obv_main_call7_v10])
  rw [hh, g10, g11, g12, g13]
  simp only [val_main_v160, val_main_v161, val_main_v162, val_main_v163, val_main_call6_cst, val_main_call6_v0, val_main_v164, val_main_v165, val_main_v166, val_main_v167, val_main_v168, val_main_call7_cst, val_main_call7_v0, val_main_call7_cst_0, val_main_call7_v1, val_main_call7_v2, val_main_call7_v3, val_main_call7_v4, val_main_call7_v5, val_main_call7_v6, val_main_call7_cst_1, val_main_call7_v7, val_main_call7_v8, val_main_call7_v9, val_main_call7_v10, val_main_v169]
  all_goals first | rfl | decide

end Cert.GinRefRun

end
-- ==== Proof.RefRun.lean ====
/-
  The reference program's run, read back in four segments: each of the three layers, then the head. What a buffer
  holds after the line is the fold of the operations' results over the launch contents; each segment's output is its
  stage of the arguments given the previous segment's, and the arguments and the two index lists pass through every
  segment untouched. So every weakly fair execution terminates with the result at the last stage of the arguments and
  the arguments unchanged.
-/
import proofs.«125315_j5282809775005_2_alg».proof.Proof.RefSegs
import proofs.«125315_j5282809775005_2_alg».proof.Proof.RefSeg0
import proofs.«125315_j5282809775005_2_alg».proof.Proof.RefSeg1
import proofs.«125315_j5282809775005_2_alg».proof.Proof.RefSeg2
import proofs.«125315_j5282809775005_2_alg».proof.Proof.RefSeg3

set_option maxRecDepth 16384

noncomputable section

namespace Cert.GinRefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The whole line -/

section Line

variable (V : Valuation τ sig (Elt Ideal))

/-- The result buffer after the line: the last stage of the launch contents of the arguments. -/
theorem result_eq : after ops V (Proc.devRef .tc main_v169)
    = val_main_v169 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  refine s3_out _ _ _ _ _ _ _ _ _ _ _ _ _ _ _ ?_ ?_ ?_ ?_ ?_
  · refine s2_h _ _ _ _ _ _ _ _ _ _ _ ?_ ?_ ?_ ?_ ?_ ?_ ?_ ?_ ?_ ?_ ?_
    · refine s1_h _ _ _ _ _ _ _ _ _ _ _ ?_ ?_ ?_ ?_ ?_ ?_ ?_ ?_ ?_ ?_ ?_
      · exact s0_h V
      · exact s0_v1 V
      · exact s0_v3 V
      · exact s0_keep_arg2 V
      · exact s0_keep_arg3 V
      · exact s0_keep_arg4 V
      · exact s0_keep_arg5 V
      · exact s0_keep_arg6 V
      · exact s0_keep_arg7 V
      · exact s0_keep_arg8 V
      · exact s0_keep_arg9 V
    · exact (s1_keep_v1 _).trans (s0_v1 V)
    · exact (s1_keep_v3 _).trans (s0_v3 V)
    · exact (s1_keep_arg2 _).trans (s0_keep_arg2 V)
    · exact (s1_keep_arg3 _).trans (s0_keep_arg3 V)
    · exact (s1_keep_arg4 _).trans (s0_keep_arg4 V)
    · exact (s1_keep_arg5 _).trans (s0_keep_arg5 V)
    · exact (s1_keep_arg6 _).trans (s0_keep_arg6 V)
    · exact (s1_keep_arg7 _).trans (s0_keep_arg7 V)
    · exact (s1_keep_arg8 _).trans (s0_keep_arg8 V)
    · exact (s1_keep_arg9 _).trans (s0_keep_arg9 V)
  · exact (s2_keep_arg10 _).trans ((s1_keep_arg10 _).trans (s0_keep_arg10 V))
  · exact (s2_keep_arg11 _).trans ((s1_keep_arg11 _).trans (s0_keep_arg11 V))
  · exact (s2_keep_arg12 _).trans ((s1_keep_arg12 _).trans (s0_keep_arg12 V))
  · exact (s2_keep_arg13 _).trans ((s1_keep_arg13 _).trans (s0_keep_arg13 V))

theorem keep_arg0 : after ops V (Proc.devRef .tc main_arg0) = V (Proc.devRef .tc main_arg0) := by
  rw [after_ops]
  exact (s3_keep_arg0 _).trans ((s2_keep_arg0 _).trans ((s1_keep_arg0 _).trans (s0_keep_arg0 V)))
theorem keep_arg1 : after ops V (Proc.devRef .tc main_arg1) = V (Proc.devRef .tc main_arg1) := by
  rw [after_ops]
  exact (s3_keep_arg1 _).trans ((s2_keep_arg1 _).trans ((s1_keep_arg1 _).trans (s0_keep_arg1 V)))
theorem keep_arg2 : after ops V (Proc.devRef .tc main_arg2) = V (Proc.devRef .tc main_arg2) := by
  rw [after_ops]
  exact (s3_keep_arg2 _).trans ((s2_keep_arg2 _).trans ((s1_keep_arg2 _).trans (s0_keep_arg2 V)))
theorem keep_arg3 : after ops V (Proc.devRef .tc main_arg3) = V (Proc.devRef .tc main_arg3) := by
  rw [after_ops]
  exact (s3_keep_arg3 _).trans ((s2_keep_arg3 _).trans ((s1_keep_arg3 _).trans (s0_keep_arg3 V)))
theorem keep_arg4 : after ops V (Proc.devRef .tc main_arg4) = V (Proc.devRef .tc main_arg4) := by
  rw [after_ops]
  exact (s3_keep_arg4 _).trans ((s2_keep_arg4 _).trans ((s1_keep_arg4 _).trans (s0_keep_arg4 V)))
theorem keep_arg5 : after ops V (Proc.devRef .tc main_arg5) = V (Proc.devRef .tc main_arg5) := by
  rw [after_ops]
  exact (s3_keep_arg5 _).trans ((s2_keep_arg5 _).trans ((s1_keep_arg5 _).trans (s0_keep_arg5 V)))
theorem keep_arg6 : after ops V (Proc.devRef .tc main_arg6) = V (Proc.devRef .tc main_arg6) := by
  rw [after_ops]
  exact (s3_keep_arg6 _).trans ((s2_keep_arg6 _).trans ((s1_keep_arg6 _).trans (s0_keep_arg6 V)))
theorem keep_arg7 : after ops V (Proc.devRef .tc main_arg7) = V (Proc.devRef .tc main_arg7) := by
  rw [after_ops]
  exact (s3_keep_arg7 _).trans ((s2_keep_arg7 _).trans ((s1_keep_arg7 _).trans (s0_keep_arg7 V)))
theorem keep_arg8 : after ops V (Proc.devRef .tc main_arg8) = V (Proc.devRef .tc main_arg8) := by
  rw [after_ops]
  exact (s3_keep_arg8 _).trans ((s2_keep_arg8 _).trans ((s1_keep_arg8 _).trans (s0_keep_arg8 V)))
theorem keep_arg9 : after ops V (Proc.devRef .tc main_arg9) = V (Proc.devRef .tc main_arg9) := by
  rw [after_ops]
  exact (s3_keep_arg9 _).trans ((s2_keep_arg9 _).trans ((s1_keep_arg9 _).trans (s0_keep_arg9 V)))
theorem keep_arg10 : after ops V (Proc.devRef .tc main_arg10) = V (Proc.devRef .tc main_arg10) := by
  rw [after_ops]
  exact (s3_keep_arg10 _).trans ((s2_keep_arg10 _).trans ((s1_keep_arg10 _).trans (s0_keep_arg10 V)))
theorem keep_arg11 : after ops V (Proc.devRef .tc main_arg11) = V (Proc.devRef .tc main_arg11) := by
  rw [after_ops]
  exact (s3_keep_arg11 _).trans ((s2_keep_arg11 _).trans ((s1_keep_arg11 _).trans (s0_keep_arg11 V)))
theorem keep_arg12 : after ops V (Proc.devRef .tc main_arg12) = V (Proc.devRef .tc main_arg12) := by
  rw [after_ops]
  exact (s3_keep_arg12 _).trans ((s2_keep_arg12 _).trans ((s1_keep_arg12 _).trans (s0_keep_arg12 V)))
theorem keep_arg13 : after ops V (Proc.devRef .tc main_arg13) = V (Proc.devRef .tc main_arg13) := by
  rw [after_ops]
  exact (s3_keep_arg13 _).trans ((s2_keep_arg13 _).trans ((s1_keep_arg13 _).trans (s0_keep_arg13 V)))

end Line

/-- THE RUN: every weakly fair execution of the reference terminates with the result at the last stage of the arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v169) = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v169).trans (result_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c)),
      (h c main_arg12).trans (keep_arg12 (launchContents m c)),
      (h c main_arg13).trans (keep_arg13 (launchContents m c))⟩)
    (run_seq scopedRefs_eq scopedSems_eq defs main (fun _ => ops) main_eq (fun _ => ops_sub) m ρ)

end Cert.GinRefRun

end
-- ==== Proof.RefLayers.lean ====
/-
  The reference's three layers read at an index, and its neighbour aggregation as one function.

  Each layer's result at row `n`, column `q` is the specification's row function applied to the row `agg + h`: the
  slices, reshapes and broadcasts of the stacked parameters read layer `l`'s matrix or vector at the column; the two
  products are sums over the contracted coordinate.
-/
import proofs.«125315_j5282809775005_2_alg».proof.Proof.RefReadP
import proofs.«125315_j5282809775005_2_alg».proof.Proof.GinSpec

noncomputable section

namespace Cert.GinRefLayers

open Cert.ReferenceIdeal Cert.ReferenceIdeal.ReadP Cert.GinSpec Idealize.ShloMosaic Idealize.ShloMosaic.ValueIdx

/-! ## Layer 0 -/

/-- The first map's weights of layer 0, read at row `k`, column `j`. -/
theorem mat_v16 (x2 : (⟨S3x128x128, .f32⟩ : BufTy).Contents (Elt Ideal)) (k j : Fin 128) :
    val_main_v16 (F := Ideal) x2 (ix2 k j) = mat 0 x2 k j := by
  rw [val_main_v16_apply, val_main_v15_apply]
  show x2 _ = x2 (ix3 (0 : Fin 3) k j)
  refine congrArg x2 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The first map's bias of layer 0, broadcast over the rows, read at row `n`, column `q`. -/
theorem vec_v21 (x3 : (⟨S3x128, .f32⟩ : BufTy).Contents (Elt Ideal)) (n : Fin 50000) (q : Fin 128) :
    val_main_v21 (F := Ideal) x3 (ix2 n q) = vec 0 x3 q := by
  rw [val_main_v21_apply, val_main_v20_apply, val_main_v19_apply, val_main_v18_apply]
  show x3 _ = x3 (ix2 (0 : Fin 3) q)
  exact congrArg x3 (funext fun a => Fin.ext (by match a with | ⟨0, _⟩ => rfl | ⟨1, _⟩ => exact Nat.mod_eq_of_lt q.isLt))

/-- The running mean of layer 0, broadcast over the rows, read at row `n`, column `q`. -/
theorem vec_v26 (x6 : (⟨S3x128, .f32⟩ : BufTy).Contents (Elt Ideal)) (n : Fin 50000) (q : Fin 128) :
    val_main_v26 (F := Ideal) x6 (ix2 n q) = vec 0 x6 q := by
  rw [val_main_v26_apply, val_main_v25_apply, val_main_v24_apply, val_main_v23_apply]
  show x6 _ = x6 (ix2 (0 : Fin 3) q)
  exact congrArg x6 (funext fun a => Fin.ext (by match a with | ⟨0, _⟩ => rfl | ⟨1, _⟩ => exact Nat.mod_eq_of_lt q.isLt))

/-- `1/√(σ² + ε)` of layer 0, broadcast over the rows, read at row `n`, column `q`. -/
theorem rs_v34 (x7 : (⟨S3x128, .f32⟩ : BufTy).Contents (Elt Ideal)) (n : Fin 50000) (q : Fin 128) :
    val_main_v34 (F := Ideal) x7 (ix2 n q) = rs 0 x7 q := by
  rw [val_main_v34_apply, val_main_v33_apply, val_main_v32_apply, val_main_v31_apply, val_main_v29_apply, val_main_v28_apply,
    val_main_v30_apply, val_main_cst_1_apply]
  show Ideal.rsqrt (x7 _ + Ideal.ofBits .f32 0x3727C5AC#32) = Ideal.rsqrt (x7 (ix2 (0 : Fin 3) q) + Ideal.ofBits .f32 0x3727C5AC#32)
  exact congrArg (fun t => Ideal.rsqrt (x7 t + Ideal.ofBits .f32 0x3727C5AC#32)) (funext fun a => Fin.ext (by match a with | ⟨0, _⟩ => rfl | ⟨1, _⟩ => exact Nat.mod_eq_of_lt q.isLt))

/-- The normalisation's scale of layer 0, broadcast over the rows, read at row `n`, column `q`. -/
theorem vec_v39 (x4 : (⟨S3x128, .f32⟩ : BufTy).Contents (Elt Ideal)) (n : Fin 50000) (q : Fin 128) :
    val_main_v39 (F := Ideal) x4 (ix2 n q) = vec 0 x4 q := by
  rw [val_main_v39_apply, val_main_v38_apply, val_main_v37_apply, val_main_v36_apply]
  show x4 _ = x4 (ix2 (0 : Fin 3) q)
  exact congrArg x4 (funext fun a => Fin.ext (by match a with | ⟨0, _⟩ => rfl | ⟨1, _⟩ => exact Nat.mod_eq_of_lt q.isLt))

/-- The normalisation's shift of layer 0, broadcast over the rows, read at row `n`, column `q`. -/
theorem vec_v44 (x5 : (⟨S3x128, .f32⟩ : BufTy).Contents (Elt Ideal)) (n : Fin 50000) (q : Fin 128) :
    val_main_v44 (F := Ideal) x5 (ix2 n q) = vec 0 x5 q := by
  rw [val_main_v44_apply, val_main_v43_apply, val_main_v42_apply, val_main_v41_apply]
  show x5 _ = x5 (ix2 (0 : Fin 3) q)
  exact congrArg x5 (funext fun a => Fin.ext (by match a with | ⟨0, _⟩ => rfl | ⟨1, _⟩ => exact Nat.mod_eq_of_lt q.isLt))

/-- The second map's weights of layer 0, read at row `k`, column `j`. -/
theorem mat_v48 (x8 : (⟨S3x128x128, .f32⟩ : BufTy).Contents (Elt Ideal)) (k j : Fin 128) :
    val_main_v48 (F := Ideal) x8 (ix2 k j) = mat 0 x8 k j := by
  rw [val_main_v48_apply, val_main_v47_apply]
  show x8 _ = x8 (ix3 (0 : Fin 3) k j)
  refine congrArg x8 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The second map's bias of layer 0, broadcast over the rows, read at row `n`, column `q`. -/
theorem vec_v53 (x9 : (⟨S3x128, .f32⟩ : BufTy).Contents (Elt Ideal)) (n : Fin 50000) (q : Fin 128) :
    val_main_v53 (F := Ideal) x9 (ix2 n q) = vec 0 x9 q := by
  rw [val_main_v53_apply, val_main_v52_apply, val_main_v51_apply, val_main_v50_apply]
  show x9 _ = x9 (ix2 (0 : Fin 3) q)
  exact congrArg x9 (funext fun a => Fin.ext (by match a with | ⟨0, _⟩ => rfl | ⟨1, _⟩ => exact Nat.mod_eq_of_lt q.isLt))

/-- The first product of layer 0 at row `n`, column `j`: the row `agg + h` against the weights' column. -/
theorem dot_v17 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (n : Fin 50000) (j : Fin 128) :
    val_main_v17 (F := Ideal) x0 x1 x2 (ix2 n j) = ∑ k : Fin 128, (val_main_v13 (F := Ideal) x0 x1 (ix2 n k) + x0 (ix2 n k)) * mat 0 x2 k j := by
  rw [val_main_v17_apply]
  refine Finset.sum_congr rfl fun k _ => ?_
  have el : lidx_main_v17 (ix2 n j) k = ix2 n k := (funext fun a => Fin.ext (by match a with | ⟨0, _⟩ => rfl | ⟨1, _⟩ => rfl))
  have er : ridx_main_v17 (ix2 n j) k = ix2 k j := (funext fun a => Fin.ext (by match a with | ⟨0, _⟩ => rfl | ⟨1, _⟩ => rfl))
  rw [el, er, val_main_v14_apply, mat_v16]
  rfl

/-- Layer 0 up to its first rectifier, at row `n`, column `j`. -/
theorem mid_v46 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (n : Fin 50000) (j : Fin 128) :
    val_main_v46 (F := Ideal) x0 x1 x2 x3 x4 x5 x6 x7 (ix2 n j)
      = relu (normed (fun k => val_main_v13 (F := Ideal) x0 x1 (ix2 n k) + x0 (ix2 n k))
          (mat 0 x2) (vec 0 x3) (vec 0 x6) (rs 0 x7) (vec 0 x4) (vec 0 x5)) j := by
  rw [val_main_v46_apply, val_main_v45_apply, val_main_v40_apply, val_main_v35_apply, val_main_v27_apply, val_main_v22_apply, dot_v17,
    vec_v21, vec_v26, rs_v34, vec_v39, vec_v44, val_main_call0_v0_apply, val_main_call0_cst_apply, Ideal.ofBits_def,
    Ideal.ofBits_zero_f32]
  rfl

/-- The second product of layer 0 at row `n`, column `q`. -/
theorem dot_v49 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (n : Fin 50000) (q : Fin 128) :
    val_main_v49 (F := Ideal) x0 x1 x2 x3 x4 x5 x6 x7 x8 (ix2 n q) = ∑ k : Fin 128, val_main_v46 (F := Ideal) x0 x1 x2 x3 x4 x5 x6 x7 (ix2 n k) * mat 0 x8 k q := by
  rw [val_main_v49_apply]
  refine Finset.sum_congr rfl fun k _ => ?_
  have el : lidx_main_v49 (ix2 n q) k = ix2 n k := (funext fun a => Fin.ext (by match a with | ⟨0, _⟩ => rfl | ⟨1, _⟩ => rfl))
  have er : ridx_main_v49 (ix2 n q) k = ix2 k q := (funext fun a => Fin.ext (by match a with | ⟨0, _⟩ => rfl | ⟨1, _⟩ => rfl))
  rw [el, er, mat_v48]

/-- LAYER 0 OF THE REFERENCE, read at row `n`, column `q`. -/
theorem ref_layer0 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (q : Fin 128) :
    val_main_v55 (F := Ideal) x0 x1 x2 x3 x4 x5 x6 x7 x8 x9 (ix2 n q)
      = layerRowRef (fun k => val_main_v13 (F := Ideal) x0 x1 (ix2 n k) + x0 (ix2 n k))
          (mat 0 x2) (vec 0 x3) (vec 0 x6) (rs 0 x7) (vec 0 x4) (vec 0 x5) (mat 0 x8) (vec 0 x9) q := by
  rw [val_main_v55_apply, val_main_v54_apply, dot_v49, vec_v53, val_main_call1_v0_apply, val_main_call1_cst_apply, Ideal.ofBits_def,
    Ideal.ofBits_zero_f32]
  simp only [mid_v46]
  rfl

/-! ## Layer 1 -/

/-- The first map's weights of layer 1, read at row `k`, column `j`. -/
theorem mat_v68 (x2 : (⟨S3x128x128, .f32⟩ : BufTy).Contents (Elt Ideal)) (k j : Fin 128) :
    val_main_v68 (F := Ideal) x2 (ix2 k j) = mat 1 x2 k j := by
  rw [val_main_v68_apply, val_main_v67_apply]
  show x2 _ = x2 (ix3 (1 : Fin 3) k j)
  refine congrArg x2 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The first map's bias of layer 1, broadcast over the rows, read at row `n`, column `q`. -/
theorem vec_v73 (x3 : (⟨S3x128, .f32⟩ : BufTy).Contents (Elt Ideal)) (n : Fin 50000) (q : Fin 128) :
    val_main_v73 (F := Ideal) x3 (ix2 n q) = vec 1 x3 q := by
  rw [val_main_v73_apply, val_main_v72_apply, val_main_v71_apply, val_main_v70_apply]
  show x3 _ = x3 (ix2 (1 : Fin 3) q)
  exact congrArg x3 (funext fun a => Fin.ext (by match a with | ⟨0, _⟩ => rfl | ⟨1, _⟩ => exact Nat.mod_eq_of_lt q.isLt))

/-- The running mean of layer 1, broadcast over the rows, read at row `n`, column `q`. -/
theorem vec_v78 (x6 : (⟨S3x128, .f32⟩ : BufTy).Contents (Elt Ideal)) (n : Fin 50000) (q : Fin 128) :
    val_main_v78 (F := Ideal) x6 (ix2 n q) = vec 1 x6 q := by
  rw [val_main_v78_apply, val_main_v77_apply, val_main_v76_apply, val_main_v75_apply]
  show x6 _ = x6 (ix2 (1 : Fin 3) q)
  exact congrArg x6 (funext fun a => Fin.ext (by match a with | ⟨0, _⟩ => rfl | ⟨1, _⟩ => exact Nat.mod_eq_of_lt q.isLt))

/-- `1/√(σ² + ε)` of layer 1, broadcast over the rows, read at row `n`, column `q`. -/
theorem rs_v86 (x7 : (⟨S3x128, .f32⟩ : BufTy).Contents (Elt Ideal)) (n : Fin 50000) (q : Fin 128) :
    val_main_v86 (F := Ideal) x7 (ix2 n q) = rs 1 x7 q := by
  rw [val_main_v86_apply, val_main_v85_apply, val_main_v84_apply, val_main_v83_apply, val_main_v81_apply, val_main_v80_apply,
    val_main_v82_apply, val_main_cst_5_apply]
  show Ideal.rsqrt (x7 _ + Ideal.ofBits .f32 0x3727C5AC#32) = Ideal.rsqrt (x7 (ix2 (1 : Fin 3) q) + Ideal.ofBits .f32 0x3727C5AC#32)
  exact congrArg (fun t => Ideal.rsqrt (x7 t + Ideal.ofBits .f32 0x3727C5AC#32)) (funext fun a => Fin.ext (by match a with | ⟨0, _⟩ => rfl | ⟨1, _⟩ => exact Nat.mod_eq_of_lt q.isLt))

/-- The normalisation's scale of layer 1, broadcast over the rows, read at row `n`, column `q`. -/
theorem vec_v91 (x4 : (⟨S3x128, .f32⟩ : BufTy).Contents (Elt Ideal)) (n : Fin 50000) (q : Fin 128) :
    val_main_v91 (F := Ideal) x4 (ix2 n q) = vec 1 x4 q := by
  rw [val_main_v91_apply, val_main_v90_apply, val_main_v89_apply, val_main_v88_apply]
  show x4 _ = x4 (ix2 (1 : Fin 3) q)
  exact congrArg x4 (funext fun a => Fin.ext (by match a with | ⟨0, _⟩ => rfl | ⟨1, _⟩ => exact Nat.mod_eq_of_lt q.isLt))

/-- The normalisation's shift of layer 1, broadcast over the rows, read at row `n`, column `q`. -/
theorem vec_v96 (x5 : (⟨S3x128, .f32⟩ : BufTy).Contents (Elt Ideal)) (n : Fin 50000) (q : Fin 128) :
    val_main_v96 (F := Ideal) x5 (ix2 n q) = vec 1 x5 q := by
  rw [val_main_v96_apply, val_main_v95_apply, val_main_v94_apply, val_main_v93_apply]
  show x5 _ = x5 (ix2 (1 : Fin 3) q)
  exact congrArg x5 (funext fun a => Fin.ext (by match a with | ⟨0, _⟩ => rfl | ⟨1, _⟩ => exact Nat.mod_eq_of_lt q.isLt))

/-- The second map's weights of layer 1, read at row `k`, column `j`. -/
theorem mat_v100 (x8 : (⟨S3x128x128, .f32⟩ : BufTy).Contents (Elt Ideal)) (k j : Fin 128) :
    val_main_v100 (F := Ideal) x8 (ix2 k j) = mat 1 x8 k j := by
  rw [val_main_v100_apply, val_main_v99_apply]
  show x8 _ = x8 (ix3 (1 : Fin 3) k j)
  refine congrArg x8 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The second map's bias of layer 1, broadcast over the rows, read at row `n`, column `q`. -/
theorem vec_v105 (x9 : (⟨S3x128, .f32⟩ : BufTy).Contents (Elt Ideal)) (n : Fin 50000) (q : Fin 128) :
    val_main_v105 (F := Ideal) x9 (ix2 n q) = vec 1 x9 q := by
  rw [val_main_v105_apply, val_main_v104_apply, val_main_v103_apply, val_main_v102_apply]
  show x9 _ = x9 (ix2 (1 : Fin 3) q)
  exact congrArg x9 (funext fun a => Fin.ext (by match a with | ⟨0, _⟩ => rfl | ⟨1, _⟩ => exact Nat.mod_eq_of_lt q.isLt))

/-- The first product of layer 1 at row `n`, column `j`: the row `agg + h` against the weights' column. -/
theorem dot_v69 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (j : Fin 128) :
    val_main_v69 (F := Ideal) x0 x1 x2 x3 x4 x5 x6 x7 x8 x9 (ix2 n j) = ∑ k : Fin 128, (val_main_v65 (F := Ideal) x0 x1 x2 x3 x4 x5 x6 x7 x8 x9 (ix2 n k) + val_main_v55 (F := Ideal) x0 x1 x2 x3 x4 x5 x6 x7 x8 x9 (ix2 n k)) * mat 1 x2 k j := by
  rw [val_main_v69_apply]
  refine Finset.sum_congr rfl fun k _ => ?_
  have el : lidx_main_v69 (ix2 n j) k = ix2 n k := (funext fun a => Fin.ext (by match a with | ⟨0, _⟩ => rfl | ⟨1, _⟩ => rfl))
  have er : ridx_main_v69 (ix2 n j) k = ix2 k j := (funext fun a => Fin.ext (by match a with | ⟨0, _⟩ => rfl | ⟨1, _⟩ => rfl))
  rw [el, er, val_main_v66_apply, mat_v68]
  rfl

/-- Layer 1 up to its first rectifier, at row `n`, column `j`. -/
theorem mid_v98 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (j : Fin 128) :
    val_main_v98 (F := Ideal) x0 x1 x2 x3 x4 x5 x6 x7 x8 x9 (ix2 n j)
      = relu (normed (fun k => val_main_v65 (F := Ideal) x0 x1 x2 x3 x4 x5 x6 x7 x8 x9 (ix2 n k) + val_main_v55 (F := Ideal) x0 x1 x2 x3 x4 x5 x6 x7 x8 x9 (ix2 n k))
          (mat 1 x2) (vec 1 x3) (vec 1 x6) (rs 1 x7) (vec 1 x4) (vec 1 x5)) j := by
  rw [val_main_v98_apply, val_main_v97_apply, val_main_v92_apply, val_main_v87_apply, val_main_v79_apply, val_main_v74_apply, dot_v69,
    vec_v73, vec_v78, rs_v86, vec_v91, vec_v96, val_main_call2_v0_apply, val_main_call2_cst_apply, Ideal.ofBits_def,
    Ideal.ofBits_zero_f32]
  rfl

/-- The second product of layer 1 at row `n`, column `q`. -/
theorem dot_v101 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (q : Fin 128) :
    val_main_v101 (F := Ideal) x0 x1 x2 x3 x4 x5 x6 x7 x8 x9 (ix2 n q) = ∑ k : Fin 128, val_main_v98 (F := Ideal) x0 x1 x2 x3 x4 x5 x6 x7 x8 x9 (ix2 n k) * mat 1 x8 k q := by
  rw [val_main_v101_apply]
  refine Finset.sum_congr rfl fun k _ => ?_
  have el : lidx_main_v101 (ix2 n q) k = ix2 n k := (funext fun a => Fin.ext (by match a with | ⟨0, _⟩ => rfl | ⟨1, _⟩ => rfl))
  have er : ridx_main_v101 (ix2 n q) k = ix2 k q := (funext fun a => Fin.ext (by match a with | ⟨0, _⟩ => rfl | ⟨1, _⟩ => rfl))
  rw [el, er, mat_v100]

/-- LAYER 1 OF THE REFERENCE, read at row `n`, column `q`. -/
theorem ref_layer1 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (q : Fin 128) :
    val_main_v107 (F := Ideal) x0 x1 x2 x3 x4 x5 x6 x7 x8 x9 (ix2 n q)
      = layerRowRef (fun k => val_main_v65 (F := Ideal) x0 x1 x2 x3 x4 x5 x6 x7 x8 x9 (ix2 n k) + val_main_v55 (F := Ideal) x0 x1 x2 x3 x4 x5 x6 x7 x8 x9 (ix2 n k))
          (mat 1 x2) (vec 1 x3) (vec 1 x6) (rs 1 x7) (vec 1 x4) (vec 1 x5) (mat 1 x8) (vec 1 x9) q := by
  rw [val_main_v107_apply, val_main_v106_apply, dot_v101, vec_v105, val_main_call3_v0_apply, val_main_call3_cst_apply, Ideal.ofBits_def,
    Ideal.ofBits_zero_f32]
  simp only [mid_v98]
  rfl

/-! ## Layer 2 -/

/-- The first map's weights of layer 2, read at row `k`, column `j`. -/
theorem mat_v120 (x2 : (⟨S3x128x128, .f32⟩ : BufTy).Contents (Elt Ideal)) (k j : Fin 128) :
    val_main_v120 (F := Ideal) x2 (ix2 k j) = mat 2 x2 k j := by
  rw [val_main_v120_apply, val_main_v119_apply]
  show x2 _ = x2 (ix3 (2 : Fin 3) k j)
  refine congrArg x2 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The first map's bias of layer 2, broadcast over the rows, read at row `n`, column `q`. -/
theorem vec_v125 (x3 : (⟨S3x128, .f32⟩ : BufTy).Contents (Elt Ideal)) (n : Fin 50000) (q : Fin 128) :
    val_main_v125 (F := Ideal) x3 (ix2 n q) = vec 2 x3 q := by
  rw [val_main_v125_apply, val_main_v124_apply, val_main_v123_apply, val_main_v122_apply]
  show x3 _ = x3 (ix2 (2 : Fin 3) q)
  exact congrArg x3 (funext fun a => Fin.ext (by match a with | ⟨0, _⟩ => rfl | ⟨1, _⟩ => exact Nat.mod_eq_of_lt q.isLt))

/-- The running mean of layer 2, broadcast over the rows, read at row `n`, column `q`. -/
theorem vec_v130 (x6 : (⟨S3x128, .f32⟩ : BufTy).Contents (Elt Ideal)) (n : Fin 50000) (q : Fin 128) :
    val_main_v130 (F := Ideal) x6 (ix2 n q) = vec 2 x6 q := by
  rw [val_main_v130_apply, val_main_v129_apply, val_main_v128_apply, val_main_v127_apply]
  show x6 _ = x6 (ix2 (2 : Fin 3) q)
  exact congrArg x6 (funext fun a => Fin.ext (by match a with | ⟨0, _⟩ => rfl | ⟨1, _⟩ => exact Nat.mod_eq_of_lt q.isLt))

/-- `1/√(σ² + ε)` of layer 2, broadcast over the rows, read at row `n`, column `q`. -/
theorem rs_v138 (x7 : (⟨S3x128, .f32⟩ : BufTy).Contents (Elt Ideal)) (n : Fin 50000) (q : Fin 128) :
    val_main_v138 (F := Ideal) x7 (ix2 n q) = rs 2 x7 q := by
  rw [val_main_v138_apply, val_main_v137_apply, val_main_v136_apply, val_main_v135_apply, val_main_v133_apply, val_main_v132_apply,
    val_main_v134_apply, val_main_cst_9_apply]
  show Ideal.rsqrt (x7 _ + Ideal.ofBits .f32 0x3727C5AC#32) = Ideal.rsqrt (x7 (ix2 (2 : Fin 3) q) + Ideal.ofBits .f32 0x3727C5AC#32)
  exact congrArg (fun t => Ideal.rsqrt (x7 t + Ideal.ofBits .f32 0x3727C5AC#32)) (funext fun a => Fin.ext (by match a with | ⟨0, _⟩ => rfl | ⟨1, _⟩ => exact Nat.mod_eq_of_lt q.isLt))

/-- The normalisation's scale of layer 2, broadcast over the rows, read at row `n`, column `q`. -/
theorem vec_v143 (x4 : (⟨S3x128, .f32⟩ : BufTy).Contents (Elt Ideal)) (n : Fin 50000) (q : Fin 128) :
    val_main_v143 (F := Ideal) x4 (ix2 n q) = vec 2 x4 q := by
  rw [val_main_v143_apply, val_main_v142_apply, val_main_v141_apply, val_main_v140_apply]
  show x4 _ = x4 (ix2 (2 : Fin 3) q)
  exact congrArg x4 (funext fun a => Fin.ext (by match a with | ⟨0, _⟩ => rfl | ⟨1, _⟩ => exact Nat.mod_eq_of_lt q.isLt))

/-- The normalisation's shift of layer 2, broadcast over the rows, read at row `n`, column `q`. -/
theorem vec_v148 (x5 : (⟨S3x128, .f32⟩ : BufTy).Contents (Elt Ideal)) (n : Fin 50000) (q : Fin 128) :
    val_main_v148 (F := Ideal) x5 (ix2 n q) = vec 2 x5 q := by
  rw [val_main_v148_apply, val_main_v147_apply, val_main_v146_apply, val_main_v145_apply]
  show x5 _ = x5 (ix2 (2 : Fin 3) q)
  exact congrArg x5 (funext fun a => Fin.ext (by match a with | ⟨0, _⟩ => rfl | ⟨1, _⟩ => exact Nat.mod_eq_of_lt q.isLt))

/-- The second map's weights of layer 2, read at row `k`, column `j`. -/
theorem mat_v152 (x8 : (⟨S3x128x128, .f32⟩ : BufTy).Contents (Elt Ideal)) (k j : Fin 128) :
    val_main_v152 (F := Ideal) x8 (ix2 k j) = mat 2 x8 k j := by
  rw [val_main_v152_apply, val_main_v151_apply]
  show x8 _ = x8 (ix3 (2 : Fin 3) k j)
  refine congrArg x8 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The second map's bias of layer 2, broadcast over the rows, read at row `n`, column `q`. -/
theorem vec_v157 (x9 : (⟨S3x128, .f32⟩ : BufTy).Contents (Elt Ideal)) (n : Fin 50000) (q : Fin 128) :
    val_main_v157 (F := Ideal) x9 (ix2 n q) = vec 2 x9 q := by
  rw [val_main_v157_apply, val_main_v156_apply, val_main_v155_apply, val_main_v154_apply]
  show x9 _ = x9 (ix2 (2 : Fin 3) q)
  exact congrArg x9 (funext fun a => Fin.ext (by match a with | ⟨0, _⟩ => rfl | ⟨1, _⟩ => exact Nat.mod_eq_of_lt q.isLt))

/-- The first product of layer 2 at row `n`, column `j`: the row `agg + h` against the weights' column. -/
theorem dot_v121 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (j : Fin 128) :
    val_main_v121 (F := Ideal) x0 x1 x2 x3 x4 x5 x6 x7 x8 x9 (ix2 n j) = ∑ k : Fin 128, (val_main_v117 (F := Ideal) x0 x1 x2 x3 x4 x5 x6 x7 x8 x9 (ix2 n k) + val_main_v107 (F := Ideal) x0 x1 x2 x3 x4 x5 x6 x7 x8 x9 (ix2 n k)) * mat 2 x2 k j := by
  rw [val_main_v121_apply]
  refine Finset.sum_congr rfl fun k _ => ?_
  have el : lidx_main_v121 (ix2 n j) k = ix2 n k := (funext fun a => Fin.ext (by match a with | ⟨0, _⟩ => rfl | ⟨1, _⟩ => rfl))
  have er : ridx_main_v121 (ix2 n j) k = ix2 k j := (funext fun a => Fin.ext (by match a with | ⟨0, _⟩ => rfl | ⟨1, _⟩ => rfl))
  rw [el, er, val_main_v118_apply, mat_v120]
  rfl

/-- Layer 2 up to its first rectifier, at row `n`, column `j`. -/
theorem mid_v150 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (j : Fin 128) :
    val_main_v150 (F := Ideal) x0 x1 x2 x3 x4 x5 x6 x7 x8 x9 (ix2 n j)
      = relu (normed (fun k => val_main_v117 (F := Ideal) x0 x1 x2 x3 x4 x5 x6 x7 x8 x9 (ix2 n k) + val_main_v107 (F := Ideal) x0 x1 x2 x3 x4 x5 x6 x7 x8 x9 (ix2 n k))
          (mat 2 x2) (vec 2 x3) (vec 2 x6) (rs 2 x7) (vec 2 x4) (vec 2 x5)) j := by
  rw [val_main_v150_apply, val_main_v149_apply, val_main_v144_apply, val_main_v139_apply, val_main_v131_apply, val_main_v126_apply, dot_v121,
    vec_v125, vec_v130, rs_v138, vec_v143, vec_v148, val_main_call4_v0_apply, val_main_call4_cst_apply, Ideal.ofBits_def,
    Ideal.ofBits_zero_f32]
  rfl

/-- The second product of layer 2 at row `n`, column `q`. -/
theorem dot_v153 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (q : Fin 128) :
    val_main_v153 (F := Ideal) x0 x1 x2 x3 x4 x5 x6 x7 x8 x9 (ix2 n q) = ∑ k : Fin 128, val_main_v150 (F := Ideal) x0 x1 x2 x3 x4 x5 x6 x7 x8 x9 (ix2 n k) * mat 2 x8 k q := by
  rw [val_main_v153_apply]
  refine Finset.sum_congr rfl fun k _ => ?_
  have el : lidx_main_v153 (ix2 n q) k = ix2 n k := (funext fun a => Fin.ext (by match a with | ⟨0, _⟩ => rfl | ⟨1, _⟩ => rfl))
  have er : ridx_main_v153 (ix2 n q) k = ix2 k q := (funext fun a => Fin.ext (by match a with | ⟨0, _⟩ => rfl | ⟨1, _⟩ => rfl))
  rw [el, er, mat_v152]

/-- LAYER 2 OF THE REFERENCE, read at row `n`, column `q`. -/
theorem ref_layer2 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (n : Fin 50000) (q : Fin 128) :
    val_main_v159 (F := Ideal) x0 x1 x2 x3 x4 x5 x6 x7 x8 x9 (ix2 n q)
      = layerRowRef (fun k => val_main_v117 (F := Ideal) x0 x1 x2 x3 x4 x5 x6 x7 x8 x9 (ix2 n k) + val_main_v107 (F := Ideal) x0 x1 x2 x3 x4 x5 x6 x7 x8 x9 (ix2 n k))
          (mat 2 x2) (vec 2 x3) (vec 2 x6) (rs 2 x7) (vec 2 x4) (vec 2 x5) (mat 2 x8) (vec 2 x9) q := by
  rw [val_main_v159_apply, val_main_v158_apply, dot_v153, vec_v157, val_main_call5_v0_apply, val_main_call5_cst_apply, Ideal.ofBits_def,
    Ideal.ofBits_zero_f32]
  simp only [mid_v150]
  rfl

/-! ## The neighbour aggregation as one function -/

/-- Layer 1's neighbour aggregation is layer 0's, of the previous layer's result: the index computations are
    the same operations on the same edge list. -/
theorem agg1 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) :
    val_main_v65 (F := Ideal) x0 x1 x2 x3 x4 x5 x6 x7 x8 x9 = val_main_v13 (F := Ideal) (val_main_v55 (F := Ideal) x0 x1 x2 x3 x4 x5 x6 x7 x8 x9) x1 := by
  unfold val_main_v65 val_main_v13 val_main_v62 val_main_v10 val_main_v61 val_main_v9 val_main_v60 val_main_v8 val_main_v59 val_main_v7 val_main_v58 val_main_v6 val_main_c_3 val_main_c_0 val_main_v57 val_main_v5 val_main_v56 val_main_v4 val_main_c_2 val_main_c val_main_v63 val_main_v11 val_main_cst_4 val_main_cst val_main_v64 val_main_v12
  rfl

/-- Layer 2's neighbour aggregation is layer 0's, of the previous layer's result: the index computations are
    the same operations on the same edge list. -/
theorem agg2 (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128, .f32⟩ : BufTy).Contents (Elt Ideal)) (x5 : (⟨S3x128, .f32⟩ : BufTy).Contents (Elt Ideal)) (x6 : (⟨S3x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) :
    val_main_v117 (F := Ideal) x0 x1 x2 x3 x4 x5 x6 x7 x8 x9 = val_main_v13 (F := Ideal) (val_main_v107 (F := Ideal) x0 x1 x2 x3 x4 x5 x6 x7 x8 x9) x1 := by
  unfold val_main_v117 val_main_v13 val_main_v114 val_main_v10 val_main_v113 val_main_v9 val_main_v112 val_main_v8 val_main_v111 val_main_v7 val_main_v110 val_main_v6 val_main_c_7 val_main_c_0 val_main_v109 val_main_v5 val_main_v108 val_main_v4 val_main_c_6 val_main_c val_main_v115 val_main_v11 val_main_cst_8 val_main_cst val_main_v116 val_main_v12
  rfl

/-- An accumulating scatter of real updates into real entries is real: each entry is itself plus a finite sum of updates. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  IsReal.add (hx i) (IsReal.sum _ _ fun j _ => hu j)

/-- The same of the host's scatter operation, which at the extended reals is that function. -/
theorem scatterAdd_isReal {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) := by
  unfold Host.scatterAdd
  rw [Ideal.hostScatterAdd_def]
  exact hostScatterAdd_isReal d x idx upd hx hu i

/-- The aggregation of real rows is real: each entry is `0` plus a finite sum of gathered entries. -/
theorem agg_isReal (h : (⟨S50000x128, .f32⟩ : BufTy).Contents (Elt Ideal)) (ei : (⟨S2x800000, .i32⟩ : BufTy).Contents (Elt Ideal))
    (hh : ∀ i, IsReal (h i)) (i : S50000x128.Idx) : IsReal (val_main_v13 (F := Ideal) h ei i) := by
  have h0 : ∀ i, IsReal (val_main_v11 (F := Ideal) i) := fun i => by
    rw [val_main_v11_apply, val_main_cst_apply, Ideal.ofBits_def, Ideal.ofBits_zero_f32]
    exact IsReal.zero
  have hg : ∀ j, IsReal (val_main_v10 (F := Ideal) h ei j) := fun j => hh _
  unfold val_main_v13
  exact scatterAdd_isReal _ _ _ _ h0 hg i

end Cert.GinRefLayers

end
-- ==== Proof.RefHead.lean ====
/-
  The reference's classifier head, read at an index, on the extended reals.

  For a node `n` the third layer's output row goes through a rectified affine map to 128 features and an affine map
  to 47 logits; the last stage subtracts from each logit the row's maximum and the logarithm of the sum of the
  exponentials of the logits less that maximum. Each matrix product is read as a sum over its 128 contraction
  indices, each broadcast at the element it copies, and the row maximum — a fold of max from −∞ over the 47 lanes,
  then a maximum with −∞, which is absorbed since −∞ is the least extended real — as the row's `rowMax`.
-/
import proofs.«125315_j5282809775005_2_alg».proof.Proof.RefReadP
import proofs.«125315_j5282809775005_2_alg».proof.Proof.GinSpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.GinRefHead

open Cert.ReferenceIdeal Cert.ReferenceIdeal.Gen Cert.ReferenceIdeal.ReadP Cert.GinSpec Idealize.ShloMosaic Idealize.ShloMosaic.ValueIdx

/-! ## Composed index maps at explicit coordinates -/

theorem lidx160_ix (n : Fin 50000) (j k : Fin 128) : lidx_main_v160 (ix2 n j) k = ix2 n k :=
  funext fun a => Fin.ext (by match a with | ⟨0, _⟩ => rfl | ⟨1, _⟩ => rfl)
theorem ridx160_ix (n : Fin 50000) (j k : Fin 128) : ridx_main_v160 (ix2 n j) k = ix2 k j :=
  funext fun a => Fin.ext (by match a with | ⟨0, _⟩ => rfl | ⟨1, _⟩ => rfl)
theorem idx162_ix (n : Fin 50000) (j : Fin 128) : idx_main_v161 (idx_main_v162 (ix2 n j)) = ix1 j :=
  funext fun a => Fin.ext (by match a with | ⟨0, _⟩ => rfl)
theorem lidx165_ix (n : Fin 50000) (c : Fin 47) (k : Fin 128) : lidx_main_v165 (ix2 n c) k = ix2 n k :=
  funext fun a => Fin.ext (by match a with | ⟨0, _⟩ => rfl | ⟨1, _⟩ => rfl)
theorem ridx165_ix (n : Fin 50000) (c : Fin 47) (k : Fin 128) : ridx_main_v165 (ix2 n c) k = ix2 k c :=
  funext fun a => Fin.ext (by match a with | ⟨0, _⟩ => rfl | ⟨1, _⟩ => rfl)
theorem idx167_ix (n : Fin 50000) (c : Fin 47) : idx_main_v166 (idx_main_v167 (ix2 n c)) = ix1 c :=
  funext fun a => Fin.ext (by match a with | ⟨0, _⟩ => rfl)
theorem idx4_ix (n : Fin 50000) (c : Fin 47) : idx_main_call7_v3 (idx_main_call7_v4 (ix2 n c)) = ix1 n :=
  funext fun a => Fin.ext (by match a with | ⟨0, _⟩ => rfl)
theorem idx10_ix (n : Fin 50000) (c : Fin 47) : idx_main_call7_v8 (idx_main_call7_v10 (ix2 n c)) = ix1 n :=
  funext fun a => Fin.ext (by match a with | ⟨0, _⟩ => rfl)
theorem idx7_ix (n : Fin 50000) (k : Fin 47) : idx_main_call7_v7 (ix1 n) k = ix2 n k :=
  funext fun a => Fin.ext (by match a with | ⟨0, _⟩ => rfl | ⟨1, _⟩ => rfl)

/-- The bit pattern of −∞ is the bottom of the extended reals. -/
theorem ofBits_negInf : Ideal.ofBits .f32 0xFF800000#32 = (⊥ : EReal) := by
  simp [Ideal.ofBits, Ideal.ieee]

/-- A node's index with a lane put back on the reduced axis is (n, k). -/
theorem lift_ix (h : S50000x47.Reduces [1] S50000) (n : Fin 50000) (k : Fin (S50000x47.size 1)) :
    h.lift (ix1 n) k = ix2 n (⟨k.val, k.isLt⟩ : Fin 47) := by
  funext c; apply Fin.ext
  fin_cases c <;> rfl

/-- From −∞: the maximum with −∞ of the fold of max over a row's 47 lanes is the row's maximum. -/
theorem hostMax_row (x : (⟨S50000x47, .f32⟩ : BufTy).Contents (Elt Ideal)) (n : Fin 50000) :
    FloatOps.maximumf (F := Ideal) (φ := .f32) (FloatOps.ofBits .f32 0xFF800000#32)
      (Host.reduce FloatOps.maximumf x (val_main_call7_cst (F := Ideal)) reducesTo_S50000x47_S50000_d1 h_S_ (ix1 n))
      = rowMax (fun c => x (ix2 n c)) := by
  have h : S50000x47.Reduces [1] S50000 := by decide
  have hf : (x ∘ h.lift (ix1 n)) = fun c : Fin 47 => x (ix2 n c) :=
    funext fun k => congrArg x (lift_ix h n k)
  have hb : ∀ y : EReal, max (Ideal.ofBits .f32 0xFF800000#32) y = y := fun y => by
    rw [ofBits_negInf]; exact max_bot_left y
  rw [Host.reduce_eq_fold_single (FloatOps.maximumf (F := Ideal) (φ := .f32)) x _ _ h _]
  refine (hb _).trans ?_
  exact congrArg (fun f : Fin 47 → EReal => Finset.fold max (Ideal.ofBits .f32 0xFF800000#32) f (Finset.univ : Finset (Fin 47))) hf

/-- The log-softmax of a row, from its entries, its maximum and the sum of the exponentials. -/
theorem logSoftmax_read (L : (⟨S50000x47, .f32⟩ : BufTy).Contents (Elt Ideal)) (n : Fin 50000) (q : Fin 47) :
    FloatOps.subf (F := Ideal) (φ := .f32)
        (FloatOps.subf (L (ix2 n q)) (rowMax (fun c => L (ix2 n c))))
        (FloatOps.hostUnary .log (FloatOps.ofBits .f32 0x00000000#32
          + ∑ k : Fin 47, FloatOps.hostUnary .exp (FloatOps.subf (L (ix2 n k)) (rowMax (fun c => L (ix2 n c))))))
      = logSoftmaxRow (fun c => L (ix2 n c)) q := by
  simp only [Ideal.subf_def, Ideal.hostUnary_exp_def, Ideal.hostUnary_log_def, Ideal.ofBits_def, Ideal.ofBits_zero_f32, zero_add]
  rfl

section
variable (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 x4 x5 x6 x7 : (⟨S3x128, .f32⟩ : BufTy).Contents (Elt Ideal)) (x8 : (⟨S3x128x128, .f32⟩ : BufTy).Contents (Elt Ideal)) (x9 : (⟨S3x128, .f32⟩ : BufTy).Contents (Elt Ideal)) (x10 : (⟨S128x128, .f32⟩ : BufTy).Contents (Elt Ideal)) (x11 : (⟨S128, .f32⟩ : BufTy).Contents (Elt Ideal)) (x12 : (⟨S128x47, .f32⟩ : BufTy).Contents (Elt Ideal)) (x13 : (⟨S47, .f32⟩ : BufTy).Contents (Elt Ideal))

/-- The hidden row: the rectified first affine map of the third layer's output row. -/
theorem ref_hidden (n : Fin 50000) (j : Fin 128) :
    val_main_v164 (F := Ideal) x0 x1 x2 x3 x4 x5 x6 x7 x8 x9 x10 x11 (ix2 n j)
      = relu (affine (fun k => val_main_v159 (F := Ideal) x0 x1 x2 x3 x4 x5 x6 x7 x8 x9 (ix2 n k)) (fun k j => x10 (ix2 k j)) (fun j => x11 (ix1 j))) j := by
  rw [val_main_v164_apply, val_main_v163_apply, val_main_v160_apply, val_main_v162_apply, val_main_v161_apply,
    val_main_call6_v0_apply, val_main_call6_cst_apply, idx162_ix]
  simp only [lidx160_ix, ridx160_ix, Ideal.maximumf_def, Ideal.addf_def, Ideal.ofBits_def, Ideal.ofBits_zero_f32]
  rfl

/-- The logits row: the second affine map of the hidden row. -/
theorem ref_logits (n : Fin 50000) (c : Fin 47) :
    val_main_v168 (F := Ideal) x0 x1 x2 x3 x4 x5 x6 x7 x8 x9 x10 x11 x12 x13 (ix2 n c)
      = affine (relu (affine (fun k => val_main_v159 (F := Ideal) x0 x1 x2 x3 x4 x5 x6 x7 x8 x9 (ix2 n k)) (fun k j => x10 (ix2 k j)) (fun j => x11 (ix1 j))))
          (fun k c => x12 (ix2 k c)) (fun c => x13 (ix1 c)) c := by
  rw [val_main_v168_apply, val_main_v165_apply, val_main_v167_apply, val_main_v166_apply, idx167_ix]
  simp only [lidx165_ix, ridx165_ix, ref_hidden, Ideal.addf_def]
  rfl

/-- The row maximum the reference subtracts is the maximum of the logits row. -/
theorem ref_max (n : Fin 50000) :
    val_main_call7_v2 (F := Ideal) x0 x1 x2 x3 x4 x5 x6 x7 x8 x9 x10 x11 x12 x13 (ix1 n)
      = rowMax (fun c => val_main_v168 (F := Ideal) x0 x1 x2 x3 x4 x5 x6 x7 x8 x9 x10 x11 x12 x13 (ix2 n c)) := by
  rw [val_main_call7_v2_apply, val_main_call7_v1_apply, val_main_call7_cst_0_apply]
  unfold val_main_call7_v0
  generalize val_main_v168 (F := Ideal) x0 x1 x2 x3 x4 x5 x6 x7 x8 x9 x10 x11 x12 x13 = L
  exact hostMax_row L n

/-- An exponential under the sum: the exponential of a logit less the row maximum. -/
theorem ref_exp (n : Fin 50000) (k : Fin 47) :
    val_main_call7_v6 (F := Ideal) x0 x1 x2 x3 x4 x5 x6 x7 x8 x9 x10 x11 x12 x13 (idx_main_call7_v7 (ix1 n) k)
      = FloatOps.hostUnary (F := Ideal) (φ := .f32) .exp (FloatOps.subf (val_main_v168 (F := Ideal) x0 x1 x2 x3 x4 x5 x6 x7 x8 x9 x10 x11 x12 x13 (ix2 n k)) (rowMax (fun c => val_main_v168 (F := Ideal) x0 x1 x2 x3 x4 x5 x6 x7 x8 x9 x10 x11 x12 x13 (ix2 n c)))) := by
  rw [idx7_ix, val_main_call7_v6_apply, val_main_call7_v5_apply, val_main_call7_v4_apply, val_main_call7_v3_apply, idx4_ix, ref_max]

/-- The last stage is the log-softmax of the logits row. -/
theorem ref_logsoftmax (n : Fin 50000) (q : Fin 47) :
    val_main_v169 (F := Ideal) x0 x1 x2 x3 x4 x5 x6 x7 x8 x9 x10 x11 x12 x13 (ix2 n q)
      = logSoftmaxRow (fun c => val_main_v168 (F := Ideal) x0 x1 x2 x3 x4 x5 x6 x7 x8 x9 x10 x11 x12 x13 (ix2 n c)) q := by
  rw [val_main_v169_apply, val_main_call7_v10_apply, val_main_call7_v9_apply, val_main_call7_v8_apply, idx10_ix,
    val_main_call7_v7_apply, val_main_call7_cst_1_apply, val_main_call7_v5_apply, val_main_call7_v4_apply,
    val_main_call7_v3_apply, idx4_ix, ref_max, Finset.sum_congr rfl (fun k _ => ref_exp x0 x1 x2 x3 x4 x5 x6 x7 x8 x9 x10 x11 x12 x13 n k)]
  generalize val_main_v168 (F := Ideal) x0 x1 x2 x3 x4 x5 x6 x7 x8 x9 x10 x11 x12 x13 = L
  exact logSoftmax_read L n q

end

theorem ref_head (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 x4 x5 x6 x7 : (⟨S3x128, .f32⟩ : BufTy).Contents (Elt Ideal)) (x8 : (⟨S3x128x128, .f32⟩ : BufTy).Contents (Elt Ideal)) (x9 : (⟨S3x128, .f32⟩ : BufTy).Contents (Elt Ideal)) (x10 : (⟨S128x128, .f32⟩ : BufTy).Contents (Elt Ideal)) (x11 : (⟨S128, .f32⟩ : BufTy).Contents (Elt Ideal)) (x12 : (⟨S128x47, .f32⟩ : BufTy).Contents (Elt Ideal)) (x13 : (⟨S47, .f32⟩ : BufTy).Contents (Elt Ideal)) (n : Fin 50000) (q : Fin 47) :
    val_main_v169 (F := Ideal) x0 x1 x2 x3 x4 x5 x6 x7 x8 x9 x10 x11 x12 x13 (ix2 n q)
      = headRow (fun k => val_main_v159 (F := Ideal) x0 x1 x2 x3 x4 x5 x6 x7 x8 x9 (ix2 n k)) (fun k j => x10 (ix2 k j)) (fun j => x11 (ix1 j))
          (fun k c => x12 (ix2 k c)) (fun c => x13 (ix1 c)) q := by
  rw [ref_logsoftmax]
  unfold headRow
  exact congrArg (fun l => logSoftmaxRow l q)
    (funext (f := fun c => val_main_v168 (F := Ideal) x0 x1 x2 x3 x4 x5 x6 x7 x8 x9 x10 x11 x12 x13 (ix2 n c))
      (g := affine (relu (affine (fun k => val_main_v159 (F := Ideal) x0 x1 x2 x3 x4 x5 x6 x7 x8 x9 (ix2 n k)) (fun k j => x10 (ix2 k j)) (fun j => x11 (ix1 j))))
          (fun k c => x12 (ix2 k c)) (fun c => x13 (ix1 c)))
      (fun c => ref_logits x0 x1 x2 x3 x4 x5 x6 x7 x8 x9 x10 x11 x12 x13 n c))

end Cert.GinRefHead

end
-- ==== Proof.Bridge.lean ====
/-
  The two programs compute one function.

  Layer by layer: both start from the same features `x`. In each layer both form the same neighbour aggregate (the same
  gather and scatter-add of the same rows; the kernel's detour through a narrower float format is the identity on the
  extended reals) and add the features; the reference then applies the first linear map, the normalisation, a rectifier,
  the second linear map and a rectifier, while the kernel applies the first map with the normalisation folded into its
  weights and bias. Folding is distributing `γ · r` over a row's sum: a law of the reals. So the two layers agree as long
  as every number is a real, which holds by induction: the inputs are finite, `σ² ≥ 0` makes `r = 1/√(σ² + ε)` a real,
  a gathered row is a row of real features, a finite sum of reals is a real, and a layer of reals is a row of reals.
  After the third layer both apply the same head and the same log-softmax to the same rows.
-/
import proofs.«125315_j5282809775005_2_alg».proof.Proof.GinSpec
import proofs.«125315_j5282809775005_2_alg».proof.Proof.KHost
import proofs.«125315_j5282809775005_2_alg».proof.Proof.RefReadP
import proofs.«125315_j5282809775005_2_alg».proof.Proof.RefLayers
import proofs.«125315_j5282809775005_2_alg».proof.Proof.RefHead

set_option maxRecDepth 16384

noncomputable section

namespace Cert.GinBridge

open Cert.GinSpec Cert.GinKernelHost Cert.GinKernelParams Cert.ReferenceIdeal.ReadP Cert.GinRefLayers Cert.GinRefHead
open Idealize.ShloMosaic Idealize.ShloMosaic.ValueIdx

/-- The normalisation's `ε` is a positive real. -/
theorem epsBN_pos : ∃ e : ℝ, 0 < e ∧ epsBN = (e : EReal) :=
  ⟨10995116 * (2 ^ 40 : ℝ)⁻¹, by positivity, by simp [epsBN, Ideal.ofBits, Ideal.ieee]⟩

/-- With a real, non-negative variance, `r = 1/√(σ² + ε)` is a real. -/
theorem rs_isReal (a7 : FVec Ideal Cert.KernelIdeal.S3x128 .f32) (h7 : ∀ i, IsReal (a7 i)) (hv : ∀ i, (0 : EReal) ≤ a7 i) (l : Fin 3) (j : Fin 128) :
    IsReal (rs l a7 j) := by
  obtain ⟨e, he, hee⟩ := epsBN_pos
  obtain ⟨v, hv'⟩ := h7 (ix2 l j)
  have hv0 : 0 ≤ v := by have := hv (ix2 l j); rw [hv'] at this; exact_mod_cast this
  unfold rs
  rw [hv', hee, ← EReal.coe_add]
  exact rsqrt_isReal (IsReal.coe _) (by exact_mod_cast add_pos_of_nonneg_of_pos hv0 he)

/-- The two programs' aggregates are one function of the features and the edge list: the same gather of the rows at
    the edges' sources and the same sum into the rows at their destinations. -/
theorem agg_eq (h : FVec Ideal Cert.KernelIdeal.S50000x128 .f32) (a1 : IVec Cert.KernelIdeal.S2x800000 32) :
    aggK h (srcK a1) (dstK a1) = val_main_v13 (F := Ideal) h a1 := rfl

section Layers

variable (a0 : FVec Ideal Cert.KernelIdeal.S50000x128 .f32) (a1 : IVec Cert.KernelIdeal.S2x800000 32) (a2 : FVec Ideal Cert.KernelIdeal.S3x128x128 .f32)
  (a3 a4 a5 a6 a7 : FVec Ideal Cert.KernelIdeal.S3x128 .f32) (a8 : FVec Ideal Cert.KernelIdeal.S3x128x128 .f32) (a9 : FVec Ideal Cert.KernelIdeal.S3x128 .f32)
  (a10 : FVec Ideal Cert.KernelIdeal.S128x128 .f32) (a11 : FVec Ideal Cert.KernelIdeal.S128 .f32) (a12 : FVec Ideal Cert.KernelIdeal.S128x47 .f32) (a13 : FVec Ideal Cert.KernelIdeal.S47 .f32)
  (h0 : ∀ i, IsReal (a0 i)) (h2 : ∀ i, IsReal (a2 i)) (h3 : ∀ i, IsReal (a3 i)) (h4 : ∀ i, IsReal (a4 i)) (h5 : ∀ i, IsReal (a5 i))
  (h6 : ∀ i, IsReal (a6 i)) (h7 : ∀ i, IsReal (a7 i)) (h8 : ∀ i, IsReal (a8 i)) (h9 : ∀ i, IsReal (a9 i)) (hv : ∀ i, (0 : EReal) ≤ a7 i)

include h2 h3 h4 h5 h6 h7 h8 h9 hv in
/-- One layer on a row of reals: the kernel's folded form is the reference's, and its output is a row of reals. -/
theorem layer_row (l : Fin 3) (y : Fin 128 → EReal) (hy : ∀ k, IsReal (y k)) :
    layerRow y (foldW (mat l a2) (vec l a4) (rs l a7)) (foldB (vec l a3) (vec l a6) (vec l a4) (rs l a7) (vec l a5)) (mat l a8) (vec l a9)
      = layerRowRef y (mat l a2) (vec l a3) (vec l a6) (rs l a7) (vec l a4) (vec l a5) (mat l a8) (vec l a9)
    ∧ ∀ q, IsReal (layerRowRef y (mat l a2) (vec l a3) (vec l a6) (rs l a7) (vec l a4) (vec l a5) (mat l a8) (vec l a9) q) := by
  have hr := rs_isReal a7 h7 hv l
  have e := layerRow_fold y (mat l a2) (vec l a3) (vec l a6) (rs l a7) (vec l a4) (vec l a5) (mat l a8) (vec l a9) hy
    (fun i j => h2 _) (fun j => h3 _) (fun j => h6 _) hr (fun j => h4 _) (fun j => h5 _)
  refine ⟨e, fun q => ?_⟩
  rw [← e]
  exact layerRow_isReal y _ _ _ _ hy (fun i j => (h2 _).mul ((h4 _).mul (hr j)))
    (fun j => (((h3 _).sub (h6 _)).mul ((h4 _).mul (hr j))).add (h5 _)) (fun i j => h8 _) (fun j => h9 _) q

include h0 h2 h3 h4 h5 h6 h7 h8 h9 hv in
/-- After the first layer: the kernel's features are the reference's, and they are reals. -/
theorem h1 : hK1 a0 a1 a2 a3 a4 a5 a6 a7 a8 a9 = val_main_v55 (F := Ideal) a0 a1 a2 a3 a4 a5 a6 a7 a8 a9 ∧ ∀ i, IsReal (val_main_v55 (F := Ideal) a0 a1 a2 a3 a4 a5 a6 a7 a8 a9 i) := by
  have hy : ∀ n : Fin 50000, ∀ k : Fin 128, IsReal (val_main_v13 (F := Ideal) a0 a1 (ix2 n k) + a0 (ix2 n k)) :=
    fun n k => (agg_isReal a0 a1 h0 _).add (h0 _)
  have key : ∀ (n : Fin 50000) (q : Fin 128), hK1 a0 a1 a2 a3 a4 a5 a6 a7 a8 a9 (ix2 n q) = val_main_v55 (F := Ideal) a0 a1 a2 a3 a4 a5 a6 a7 a8 a9 (ix2 n q) := by
    intro n q
    rw [ref_layer0, ← (layer_row a2 a3 a4 a5 a6 a7 a8 a9 h2 h3 h4 h5 h6 h7 h8 h9 hv 0 _ (hy n)).1]
    unfold hK1 Cert.GinKernelReg0.G
    simp only [w1pK0_apply, b1pK0_apply, w2K0_apply, b2K0_apply, agg_eq]
  refine ⟨funext fun i => ?_, fun i => ?_⟩
  · obtain ⟨n, q, rfl⟩ : ∃ (n : Fin 50000) (q : Fin 128), i = ix2 n q := ⟨i 0, i 1, eq_ix2 i⟩
    exact key n q
  · obtain ⟨n, q, rfl⟩ : ∃ (n : Fin 50000) (q : Fin 128), i = ix2 n q := ⟨i 0, i 1, eq_ix2 i⟩
    rw [ref_layer0]
    exact (layer_row a2 a3 a4 a5 a6 a7 a8 a9 h2 h3 h4 h5 h6 h7 h8 h9 hv 0 _ (hy n)).2 q

include h0 h2 h3 h4 h5 h6 h7 h8 h9 hv in
/-- After the second layer. -/
theorem h2' : hK2 a0 a1 a2 a3 a4 a5 a6 a7 a8 a9 = val_main_v107 (F := Ideal) a0 a1 a2 a3 a4 a5 a6 a7 a8 a9 ∧ ∀ i, IsReal (val_main_v107 (F := Ideal) a0 a1 a2 a3 a4 a5 a6 a7 a8 a9 i) := by
  obtain ⟨e1, r1⟩ := h1 a0 a1 a2 a3 a4 a5 a6 a7 a8 a9 h0 h2 h3 h4 h5 h6 h7 h8 h9 hv
  have hy : ∀ n : Fin 50000, ∀ k : Fin 128, IsReal (val_main_v13 (F := Ideal) (val_main_v55 (F := Ideal) a0 a1 a2 a3 a4 a5 a6 a7 a8 a9) a1 (ix2 n k) + val_main_v55 (F := Ideal) a0 a1 a2 a3 a4 a5 a6 a7 a8 a9 (ix2 n k)) :=
    fun n k => (agg_isReal _ a1 r1 _).add (r1 _)
  have key : ∀ (n : Fin 50000) (q : Fin 128), hK2 a0 a1 a2 a3 a4 a5 a6 a7 a8 a9 (ix2 n q) = val_main_v107 (F := Ideal) a0 a1 a2 a3 a4 a5 a6 a7 a8 a9 (ix2 n q) := by
    intro n q
    rw [ref_layer1, agg1, ← (layer_row a2 a3 a4 a5 a6 a7 a8 a9 h2 h3 h4 h5 h6 h7 h8 h9 hv 1 _ (hy n)).1]
    unfold hK2 Cert.GinKernelReg1.G
    rw [e1]
    simp only [w1pK1_apply, b1pK1_apply, w2K1_apply, b2K1_apply, agg_eq]
  refine ⟨funext fun i => ?_, fun i => ?_⟩
  · obtain ⟨n, q, rfl⟩ : ∃ (n : Fin 50000) (q : Fin 128), i = ix2 n q := ⟨i 0, i 1, eq_ix2 i⟩
    exact key n q
  · obtain ⟨n, q, rfl⟩ : ∃ (n : Fin 50000) (q : Fin 128), i = ix2 n q := ⟨i 0, i 1, eq_ix2 i⟩
    rw [ref_layer1, agg1]
    exact (layer_row a2 a3 a4 a5 a6 a7 a8 a9 h2 h3 h4 h5 h6 h7 h8 h9 hv 1 _ (hy n)).2 q

include h0 h2 h3 h4 h5 h6 h7 h8 h9 hv in
/-- THE RESULTS ARE EQUAL: the third layer on the same real features, then the same head and log-softmax. -/
theorem out_eq : outK a0 a1 a2 a3 a4 a5 a6 a7 a8 a9 a10 a11 a12 a13 = val_main_v169 (F := Ideal) a0 a1 a2 a3 a4 a5 a6 a7 a8 a9 a10 a11 a12 a13 := by
  obtain ⟨e2, r2⟩ := h2' a0 a1 a2 a3 a4 a5 a6 a7 a8 a9 h0 h2 h3 h4 h5 h6 h7 h8 h9 hv
  have hy : ∀ n : Fin 50000, ∀ k : Fin 128, IsReal (val_main_v13 (F := Ideal) (val_main_v107 (F := Ideal) a0 a1 a2 a3 a4 a5 a6 a7 a8 a9) a1 (ix2 n k) + val_main_v107 (F := Ideal) a0 a1 a2 a3 a4 a5 a6 a7 a8 a9 (ix2 n k)) :=
    fun n k => (agg_isReal _ a1 r2 _).add (r2 _)
  funext i
  obtain ⟨n, q, rfl⟩ : ∃ (n : Fin 50000) (q : Fin 47), i = ix2 n q := ⟨i 0, i 1, eq_ix2 i⟩
  rw [ref_head]
  have e3 : (fun k => val_main_v159 (F := Ideal) a0 a1 a2 a3 a4 a5 a6 a7 a8 a9 (ix2 n k))
      = layerRow (fun k => val_main_v13 (F := Ideal) (val_main_v107 (F := Ideal) a0 a1 a2 a3 a4 a5 a6 a7 a8 a9) a1 (ix2 n k) + val_main_v107 (F := Ideal) a0 a1 a2 a3 a4 a5 a6 a7 a8 a9 (ix2 n k))
          (foldW (mat 2 a2) (vec 2 a4) (rs 2 a7)) (foldB (vec 2 a3) (vec 2 a6) (vec 2 a4) (rs 2 a7) (vec 2 a5)) (mat 2 a8) (vec 2 a9) := by
    funext k
    rw [ref_layer2, agg2, ← (layer_row a2 a3 a4 a5 a6 a7 a8 a9 h2 h3 h4 h5 h6 h7 h8 h9 hv 2 _ (hy n)).1]
  rw [e3]
  unfold outK Cert.GinKernelReg2.G
  rw [e2]
  simp only [w1pK2_apply, b1pK2_apply, w2K2_apply, b2K2_apply, lb1K_apply, lb2K_apply, agg_eq]

end Layers

end Cert.GinBridge

end
-- ==== Proof.lean ====
/-
  The certificate of the graph-isomorphism network kernel against its reference, over the extended reals.

  Three of the five claims are runs: each program terminates without a fault and leaves its arguments as they were (the
  kernel's two instances through their three regions and the host operations between them; the reference as a line of
  host operations). The idealization rewrote nothing, so the fourth claim is empty. The fifth is the value: under the
  precondition — every float input finite, and the running variances non-negative, the domain on which the reference's
  own `rsqrt(σ² + ε)` is a finite number — both programs end with the same log-probabilities. The kernel's result is read
  off its run as one term of the arguments (three layers, each a function of the previous layer's whole output array, then
  the head), the reference's off its run as the last of its stages, and the two terms are one function index by index:
  the same aggregate, the normalisation folded into the first linear map by a law of the reals, the same head.
-/
import proofs.«125315_j5282809775005_2_alg».proof.Defs
import proofs.«125315_j5282809775005_2_alg».proof.Proof.Gen.Kernel
import proofs.«125315_j5282809775005_2_alg».proof.Proof.Gen.Kernel.Frame
import proofs.«125315_j5282809775005_2_alg».proof.Proof.Gen.KernelIdeal
import proofs.«125315_j5282809775005_2_alg».proof.Proof.Gen.KernelIdeal.Frame
import proofs.«125315_j5282809775005_2_alg».proof.Proof.Gen.ReferenceIdeal
import proofs.«125315_j5282809775005_2_alg».proof.Proof.Gen.Pre_finite_inputs
import proofs.«125315_j5282809775005_2_alg».proof.Proof.KRun
import proofs.«125315_j5282809775005_2_alg».proof.Proof.KHost
import proofs.«125315_j5282809775005_2_alg».proof.Proof.PreFacts
import proofs.«125315_j5282809775005_2_alg».proof.Proof.RefRun
import proofs.«125315_j5282809775005_2_alg».proof.Proof.Bridge
import Idealize.ShloMosaic.Adequacy
import Idealize.ShloMosaic.Init

set_option maxRecDepth 16384

noncomputable section

namespace Cert.Proof

open Idealize.ShloMosaic Idealize.SL.Sem

/-- The reference runs and keeps its arguments: its run with the result dropped. -/
theorem frame_ri : Cert.frame_ReferenceIdeal := fun m ρ _ =>
  (θ_run Cert.ReferenceIdeal.defs _ _).mono (fun _ h c => (h c).2) (Cert.GinRefRun.run m ρ)

/-- From memories that agree on the arguments, under the precondition, both programs end with the same result: the
    kernel's result buffer at the last boundary's contents, which is the reference's last stage of the same arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v128), Cert.GinKernelRun.run_value (F := Ideal) m ρ, ?_⟩
  refine (θ_run Cert.ReferenceIdeal.defs _ _).mono (fun _ h c => ⟨(h c).1.trans ?_, (h c).2⟩)
    (Cert.GinRefRun.run m' ρ')
  obtain ⟨g0, g1, g2, g3, g4, g5, g6, g7, g8, g9, g10, g11, g12, g13⟩ := hagree c
  obtain ⟨h0, h2, h3, h4, h5, h6, h7, h8, h9, h10, h11, h12, h13, hv⟩ :=
    Cert.GinPre.pre_facts _ _ _ _ _ _ _ _ _ _ _ _ _ _ (hpre c)
  rw [g0, g1, g2, g3, g4, g5, g6, g7, g8, g9, g10, g11, g12, g13]
  exact ((Cert.GinKernelHost.kernel_value m ρ c).trans
    (Cert.GinBridge.out_eq _ _ _ _ _ _ _ _ _ _ _ _ _ _ h0 h2 h3 h4 h5 h6 h7 h8 h9 hv)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
